-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000x128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000x128 : Shape := ⟨2, ![1000, 128]⟩
abbrev S32x8x64x128 : Shape := ⟨4, ![32, 8, 64, 128]⟩
abbrev S512 : Shape := ⟨1, ![512]⟩
abbrev S8x64x128 : Shape := ⟨3, ![8, 64, 128]⟩
abbrev S8 : Shape := ⟨1, ![8]⟩
abbrev S_ : Shape := ⟨0, ![]⟩
abbrev S64x128 : Shape := ⟨2, ![64, 128]⟩
abbrev S40x128 : Shape := ⟨2, ![40, 128]⟩
abbrev S1x64x128 : Shape := ⟨3, ![1, 64, 128]⟩
abbrev S64 : Shape := ⟨1, ![64]⟩
abbrev S1 : Shape := ⟨1, ![1]⟩
abbrev S1x8x64x128 : Shape := ⟨4, ![1, 8, 64, 128]⟩
abbrev S16384x128 : Shape := ⟨2, ![16384, 128]⟩

abbrev nBuf : Table → Nat
  | .hbm => 4
  | .shared => 1
  | .local .scVector .vmem => 2
  | _ => 0

abbrev bufTy : (tb : Table) → Fin (nBuf tb) → BufTy
  | .hbm, ⟨0, _⟩ => ⟨S16384, .i32⟩
  | .hbm, ⟨1, _⟩ => ⟨S1000x128, .f32⟩
  | .hbm, ⟨2, _⟩ => ⟨S32x8x64x128, .f32⟩
  | .hbm, ⟨3, _⟩ => ⟨S16384x128, .f32⟩
  | .shared, ⟨0, _⟩ => ⟨S1000x128, .f32⟩
  | .local .scVector .vmem, ⟨0, _⟩ => ⟨S512, .i32⟩
  | .local .scVector .vmem, ⟨1, _⟩ => ⟨S8x64x128, .f32⟩
  | _, _ => ⟨S16384, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 5 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_cond1 (i : grid0.Coords) : BitVec 1 :=
  let arg1 : BitVec 32 := BitVec.ofNat 32 (i 1).val
  let c15_i32 : BitVec 32 := 15#32
  let v3 : BitVec 1 := Scalar.cmpi .slt arg1 c15_i32
  let v4 : BitVec 32 := Scalar.extui v3
  let c0_i32 : BitVec 32 := 0#32
  let v5 : BitVec 1 := Scalar.cmpi .ne v4 c0_i32
  v5

def k0_off2 (i : grid0.Coords) : Fin 2 → Nat :=
  let arg1 : BitVec 32 := BitVec.ofNat 32 (i 1).val
  let c64_i32_358 : BitVec 32 := 64#32
  let v298 : BitVec 32 := Scalar.muli arg1 c64_i32_358
  let c0_i32_359_r1 : BitVec 32 := 0#32
  ![v298.toNat, 0]
def k0_off3 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_56 : BitVec 32 := 0#32
  let c0_i32_57 : BitVec 32 := 0#32
  let c0_i32_58 : BitVec 32 := 0#32
  ![v1.toNat, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1000x128_S40x128_960_0 : ∀ a, (![960, 0] : Fin 2 → Nat) a + S40x128.size a ≤ S1000x128.size a
  inb_S8x64x128_S1x64x128_0_0_0 : ∀ a, (![0, 0, 0] : Fin 3 → Nat) a + S1x64x128.size a ≤ S8x64x128.size a
  squeezes_S1x64x128_S64x128 : S1x64x128.Squeezes S64x128
  inb_S512_S64_0 : ∀ a, (![0] : Fin 1 → Nat) a + S64.size a ≤ S512.size a
  inb_S1000x128_S1000x128_0_0 : ∀ a, (![0, 0] : Fin 2 → Nat) a + S1000x128.size a ≤ S1000x128.size a
  inb_S8_S1_0 : ∀ a, (![0] : Fin 1 → Nat) a + S1.size a ≤ S8.size a
  squeezes_S1_S_ : S1.Squeezes S_
  gathers_S1000x128_S64x128 : S1000x128.Gathers 0 S64x128
  inb_S8x64x128_S1x64x128_1_0_0 : ∀ a, (![1, 0, 0] : Fin 3 → Nat) a + S1x64x128.size a ≤ S8x64x128.size a
  inb_S512_S64_64 : ∀ a, (![64] : Fin 1 → Nat) a + S64.size a ≤ S512.size a
  inb_S8_S1_1 : ∀ a, (![1] : Fin 1 → Nat) a + S1.size a ≤ S8.size a
  inb_S8x64x128_S1x64x128_2_0_0 : ∀ a, (![2, 0, 0] : Fin 3 → Nat) a + S1x64x128.size a ≤ S8x64x128.size a
  inb_S512_S64_128 : ∀ a, (![128] : Fin 1 → Nat) a + S64.size a ≤ S512.size a
  inb_S8_S1_2 : ∀ a, (![2] : Fin 1 → Nat) a + S1.size a ≤ S8.size a
  inb_S8x64x128_S1x64x128_3_0_0 : ∀ a, (![3, 0, 0] : Fin 3 → Nat) a + S1x64x128.size a ≤ S8x64x128.size a
  inb_S512_S64_192 : ∀ a, (![192] : Fin 1 → Nat) a + S64.size a ≤ S512.size a
  inb_S8_S1_3 : ∀ a, (![3] : Fin 1 → Nat) a + S1.size a ≤ S8.size a
  inb_S8x64x128_S1x64x128_4_0_0 : ∀ a, (![4, 0, 0] : Fin 3 → Nat) a + S1x64x128.size a ≤ S8x64x128.size a
  inb_S512_S64_256 : ∀ a, (![256] : Fin 1 → Nat) a + S64.size a ≤ S512.size a
  inb_S8_S1_4 : ∀ a, (![4] : Fin 1 → Nat) a + S1.size a ≤ S8.size a
  inb_S8x64x128_S1x64x128_5_0_0 : ∀ a, (![5, 0, 0] : Fin 3 → Nat) a + S1x64x128.size a ≤ S8x64x128.size a
  inb_S512_S64_320 : ∀ a, (![320] : Fin 1 → Nat) a + S64.size a ≤ S512.size a
  inb_S8_S1_5 : ∀ a, (![5] : Fin 1 → Nat) a + S1.size a ≤ S8.size a
  inb_S8x64x128_S1x64x128_6_0_0 : ∀ a, (![6, 0, 0] : Fin 3 → Nat) a + S1x64x128.size a ≤ S8x64x128.size a
  inb_S512_S64_384 : ∀ a, (![384] : Fin 1 → Nat) a + S64.size a ≤ S512.size a
  inb_S8_S1_6 : ∀ a, (![6] : Fin 1 → Nat) a + S1.size a ≤ S8.size a
  inb_S8x64x128_S1x64x128_7_0_0 : ∀ a, (![7, 0, 0] : Fin 3 → Nat) a + S1x64x128.size a ≤ S8x64x128.size a
  inb_S512_S64_448 : ∀ a, (![448] : Fin 1 → Nat) a + S64.size a ≤ S512.size a
  inb_S8_S1_7 : ∀ a, (![7] : Fin 1 → Nat) a + S1.size a ≤ S8.size a
  squeezes_S1x8x64x128_S8x64x128 : S1x8x64x128.Squeezes S8x64x128
  shapeCasts_S32x8x64x128_S16384x128 : S32x8x64x128.ShapeCasts S16384x128
  hcc0_scratch3 : 0 + S8.numel ≤ 12
  hcc0_scratch4 : 8 + S_.numel ≤ 12
  hcc0_scoped0 : 9 + S_.numel ≤ 12
  hcc0_scoped1 : 10 + S_.numel ≤ 12
  hcc0_scoped2 : 11 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ (k0_h1 : k0_cond1 i = 1#1), ∀ a, (k0_off2 i) a + S64x128.size a ≤ S1000x128.size a
  k0_off3_inb : ∀ i : grid0.Coords, ∀ a, (k0_off3 i) a + S1x8x64x128.size a ≤ S32x8x64x128.size a

variable [Facts₀]

abbrev cc0_scratch3 : DmaSems sig S8 := SemArray.consecutive 0 S8 hcc0_scratch3
abbrev cc0_scratch4 : DmaSems sig S_ := SemArray.consecutive 8 S_ hcc0_scratch4
abbrev cc0_scoped0 : DmaSems sig S_ := SemArray.consecutive 9 S_ hcc0_scoped0
abbrev cc0_scoped1 : DmaSems sig S_ := SemArray.consecutive 10 S_ hcc0_scoped1
abbrev cc0_scoped2 : DmaSems sig S_ := SemArray.consecutive 11 S_ hcc0_scoped2

class Facts : Prop extends Facts₀ where

variable [Facts]
-- ==== ReferenceIdeal.lean ====
abbrev S16384 : Shape := ⟨1, ![16384]⟩
abbrev S1000x128 : Shape := ⟨2, ![1000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S1000x128_S16384x1_S16384x128_1_0_n_n_0_1_1128_wf : GatherDims.WF S1000x128 S16384x1 S16384x128 [1] [0] [] [0] [] 1 ![1, 128]

variable [Facts₀]

def gather_S1000x128_S16384x1_S16384x128_1_0_n_n_0_1_1128 : GatherDims S1000x128 S16384x1 S16384x128 where
  offsetDims := [1]
  collapsedSliceDims := [0]
  operandBatchingDims := []
  startIndicesBatchingDims := []
  startIndexMap := [0]
  indexVectorDim := 1
  sliceSizes := ![1, 128]
  wf := gather_S1000x128_S16384x1_S16384x128_1_0_n_n_0_1_1128_wf

class Facts : Prop extends Facts₀ where

variable [Facts]
-- ==== Proof.Spec.lean ====
/- The function both programs compute: a lookup of rows.
   For a list t of 16384 row numbers and a table tab of 1000 rows of 128 entries, the result has 16384 rows of 128 entries,
   and its entry (i, k) is the table's entry (t[i], k). The row number is read as a natural number and capped at the last
   row, 999, so that the definition is total; under the precondition 0 ≤ t[i] ≤ 999 the cap never acts. -/
import Idealize.ShloMosaic.Lib.ValueIdx

namespace Cert.Spec

open Idealize.ShloMosaic

/-- The row of the table that result row i reads: the word t[i] as a natural number, capped at 999. -/
def rowOf (t : (⟨1, ![16384]⟩ : Shape).Idx → BitVec 32) (i : Fin 16384) : Fin 1000 :=
  ⟨min (t (ValueIdx.ix1 i)).toNat 999, by omega⟩

theorem rowOf_val (t : (⟨1, ![16384]⟩ : Shape).Idx → BitVec 32) (i : Fin 16384) (h : (t (ValueIdx.ix1 i)).toNat < 1000) :
    (rowOf t i).val = (t (ValueIdx.ix1 i)).toNat := by
  show min _ 999 = _; omega

/-- The lookup: entry (i, k) of the result is entry (rowOf t i, k) of the table. -/
def G {α : Type} (t : (⟨1, ![16384]⟩ : Shape).Idx → BitVec 32) (tab : (⟨2, ![1000, 128]⟩ : Shape).Idx → α) :
    (⟨2, ![16384, 128]⟩ : Shape).Idx → α :=
  fun i => tab (ValueIdx.ix2 (rowOf t (i 0)) (i 1))

end Cert.Spec
-- ==== Proof.LibReadBack.lean ====
/- Reading a straight line of host operations back, one operation at a time.

   Let ops be a line of operations and W the list of the buffers they write, operation by operation (Writes ops W: the k-th
   operation writes exactly the k-th buffer of W). Write R for the contents after the whole line from contents V.
   * A buffer that W does not list keeps its contents: R r = V r (after_keep).
   * Splitting the line at position k, R = (the rest from k on) after (the first k operations) (after_take_drop); so a buffer
     not written from position k on holds in R what it held after the first k operations (after_eq_take), and a buffer not
     written after position k holds in R what operation k left there (after_eq_result).
   * Hence, when every buffer is written at most once and every operand is written before it is read — a program in
     single-assignment form —, the final contents satisfy the program's own equations: if operation k is y = f(x), x is not
     written from k on and y is not written after k, then R y = f (R x) (readback_unary; likewise for the other builders).
   The side conditions are memberships in a literal list of references, decided by computation. -/
import Idealize.ShloMosaic.Lib.StableHlo.Run
import Idealize.ShloMosaic.Lib.Pipeline.Frame

noncomputable section

namespace Cert.ReadBack

open Idealize.ShloMosaic Idealize.ShloMosaic.StableHlo

variable {τ : Topo} {sig : RefSig} {Val : EltTy → Type}

/-- The k-th operation of ops writes exactly the k-th buffer of W. -/
abbrev Writes (ops : List (HloOp τ sig Val)) (W : List (Ref sig .tc)) : Prop :=
  List.Forall₂ (fun op r => op.writes = {Proc.devRef (τ := τ) .tc r}) ops W

theorem Writes.append {o₁ o₂ : List (HloOp τ sig Val)} {w₁ w₂ : List (Ref sig .tc)}
    (h₁ : Writes o₁ w₁) (h₂ : Writes o₂ w₂) : Writes (o₁ ++ o₂) (w₁ ++ w₂) := by
  induction h₁ with
  | nil => exact h₂
  | cons h _ ih => exact List.Forall₂.cons h ih

/-- A buffer the line does not write keeps its contents. -/
theorem after_keep {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | @cons op w ops W hw _ ih =>
    intro V r hr
    have hne : r ≠ w := fun e => hr (List.mem_cons.mpr (Or.inl e))
    rw [after_cons, ih _ (fun hm => hr (List.mem_cons_of_mem _ hm)),
      op.result_of_not_mem V (by rw [hw, Finset.mem_singleton]; exact devRef_ne_of_ne hne)]

/-- The line run from V is its part from position k on, run from what the first k operations leave. -/
theorem after_take_drop (ops : List (HloOp τ sig Val)) (k : Nat) (V : Valuation τ sig Val) :
    after ops V = after (ops.drop k) (after (ops.take k) V) := by
  conv_lhs => rw [← List.take_append_drop k ops]
  exact after_append _ _ _

/-- A buffer not written from position k on holds at the end what it held after the first k operations. -/
theorem after_eq_take {ops : List (HloOp τ sig Val)} {W : List (Ref sig .tc)} (h : Writes ops W)
    (V : Valuation τ sig Val) (k : Nat) {r : Ref sig .tc} (hr : r ∉ W.drop k) :
    after ops V (Proc.devRef .tc r) = after (ops.take k) V (Proc.devRef .tc r) := by
  rw [after_take_drop ops k V]
  exact after_keep (List.forall₂_drop k h) _ hr

/-- A buffer not written after position k holds at the end what operation k left there. -/
theorem after_eq_result {ops : List (HloOp τ sig Val)} {W : List (Ref sig .tc)} (h : Writes ops W)
    (V : Valuation τ sig Val) (k : Nat) {op : HloOp τ sig Val} (hop : ops[k]? = some op)
    {r : Ref sig .tc} (hr : r ∉ W.drop (k + 1)) :
    after ops V (Proc.devRef .tc r) = op.result (after (ops.take k) V) (Proc.devRef .tc r) := by
  obtain ⟨hk, rfl⟩ := List.getElem?_eq_some_iff.mp hop
  rw [after_take_drop ops k V, List.drop_eq_getElem_cons hk, after_cons]
  exact after_keep (List.forall₂_drop (k + 1) h) _ hr

/-! ## The program's equations hold of the final contents -/

section Builders

variable {ops : List (HloOp τ sig Val)} {W : List (Ref sig .tc)} (h : Writes ops W) (V : Valuation τ sig Val) (k : Nat)
variable {x a b c y : Ref sig .tc}

include h

/-- Operation k is the constant y = v, y not written afterwards: the final y is v. -/
theorem readback_nullary {v : y.ty.Contents Val} {hy}
    (hop : ops[k]? = some (nullary (τ := τ) y v hy)) (hy' : y ∉ W.drop (k + 1)) :
    after ops V (Proc.devRef .tc y) = v := by
  rw [after_eq_result h V k hop hy', nullary_result]

/-- Operation k is y = f x, x not written from k on, y not written afterwards: the final y is f of the final x. -/
theorem readback_unary {f : x.ty.Contents Val → y.ty.Contents Val} {hx hy}
    (hop : ops[k]? = some (unary (τ := τ) x y f hx hy)) (hx' : x ∉ W.drop k) (hy' : y ∉ W.drop (k + 1)) :
    after ops V (Proc.devRef .tc y) = f (after ops V (Proc.devRef .tc x)) := by
  rw [after_eq_result h V k hop hy', unary_result, after_eq_take h V k hx']

/-- Operation k is y = f a b. -/
theorem readback_binary {f : a.ty.Contents Val → b.ty.Contents Val → y.ty.Contents Val} {ha hb hy}
    (hop : ops[k]? = some (binary (τ := τ) a b y f ha hb hy)) (ha' : a ∉ W.drop k) (hb' : b ∉ W.drop k)
    (hy' : y ∉ W.drop (k + 1)) :
    after ops V (Proc.devRef .tc y) = f (after ops V (Proc.devRef .tc a)) (after ops V (Proc.devRef .tc b)) := by
  rw [after_eq_result h V k hop hy', binary_result, after_eq_take h V k ha', after_eq_take h V k hb']

/-- Operation k is y = f c a b. -/
theorem readback_ternary {f : c.ty.Contents Val → a.ty.Contents Val → b.ty.Contents Val → y.ty.Contents Val} {hc ha hb hy}
    (hop : ops[k]? = some (ternary (τ := τ) c a b y f hc ha hb hy)) (hc' : c ∉ W.drop k) (ha' : a ∉ W.drop k)
    (hb' : b ∉ W.drop k) (hy' : y ∉ W.drop (k + 1)) :
    after ops V (Proc.devRef .tc y)
      = f (after ops V (Proc.devRef .tc c)) (after ops V (Proc.devRef .tc a)) (after ops V (Proc.devRef .tc b)) := by
  rw [after_eq_result h V k hop hy', ternary_result, after_eq_take h V k hc', after_eq_take h V k ha',
    after_eq_take h V k hb']

/-- Operation k is the reshape y = x. -/
theorem readback_reshape {he : x.ty.elt = y.ty.elt} {hn : x.ty.shape.ShapeCasts y.ty.shape} {hx hy}
    (hop : ops[k]? = some (reshape (τ := τ) (Val := Val) x y he hn hx hy)) (hx' : x ∉ W.drop k)
    (hy' : y ∉ W.drop (k + 1)) :
    after ops V (Proc.devRef .tc y) = fun i => he ▸ shapeCast y.ty.shape (after ops V (Proc.devRef .tc x)) hn i := by
  rw [after_eq_result h V k hop hy', reshape_result, after_eq_take h V k hx']

/-- Operation k is y = f of a family xs of operands. -/
theorem readback_nary {n : Nat} {xs : Fin n → Ref sig .tc} {f : ((j : Fin n) → (xs j).ty.Contents Val) → y.ty.Contents Val}
    {hxs hy} (hop : ops[k]? = some (nary (τ := τ) xs y f hxs hy)) (hxs' : ∀ j, xs j ∉ W.drop k)
    (hy' : y ∉ W.drop (k + 1)) :
    after ops V (Proc.devRef .tc y) = f (fun j => after ops V (Proc.devRef .tc (xs j))) := by
  rw [after_eq_result h V k hop hy', nary_result]
  congr 1
  funext j
  exact (after_eq_take h V k (hxs' j)).symm

end Builders

end Cert.ReadBack

end
-- ==== Proof.LibScatterGatherAt.lean ====
/-
  UNTRUSTED — the host's accumulating float scatter and the host's gather READ AT AN INDEX, at the ideal instance
  (floats are extended reals), for the dimension numbers of a segment sum and of a row lookup.

  A scatter whose scatter indices are a column `idx : [E, 1]` of row numbers, whose updates are either scalars `[E]` into a
  flat array `[N]` or rows `[E, C]` into a table `[N, C]` (window axis 1, inserted axis 0, scatter axis 0, index vector
  axis 1), is a SEGMENT SUM: element `i` (resp. `(i, k)`) of the result is the operand's element plus the sum of the updates
  `e` (resp. `(e, k)`) over the `e` whose start index, read as a signed integer, IS `i`. A start index outside `[0, N)`
  equals no `i`, so its update is dropped: the scatter does not clamp.

  A gather with the transposed dimension numbers (offset axis 1, collapsed axis 0, start index map axis 0, index vector axis 1,
  slice sizes `[1]` resp. `[1, C]`) is a ROW LOOKUP: element `e` (resp. `(e, k)`) of the result is the operand at row
  `gatherRow idx e` — the start index read as a signed integer and CLAMPED into `[0, N − 1]`.

  Every statement is over natural-number extents `N E C` and an arbitrary record `d` of dimension numbers whose fields have the
  values above (hypotheses a caller closes by `rfl`), with indices built from coordinates (`ix1`, `ix2`).
-/
import Idealize.ShloMosaic.PureOps.Ideal
import Idealize.ShloMosaic.Lib.ValueIdx
import Idealize.ShloMosaic.PureOps.Ideal.Laws

noncomputable section

open scoped BigOperators

namespace Cert.Lib.ScatterGatherAt

open Idealize.ShloMosaic Idealize.ShloMosaic.ValueIdx

section RowScatter
variable {N E C w : Nat}

/-- The dimension numbers of a scatter of rows `[E, C]` into a table `[N, C]` at the row numbers `[E, 1]`: the updates' axis 1
    is the window axis, the operand's axis 0 is inserted, the one start-index component goes to operand axis 0. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

/-- On the row axis the window of update `(e, k')` starts at the start index `idx[e, 0]` read as a signed integer. -/
theorem rows_start0 (wf : ScatterDims.WF ⟨2, ![N, C]⟩ ⟨2, ![E, 1]⟩ ⟨2, ![E, C]⟩ [1] [0] [0] 1)
    (idx : IVec ⟨2, ![E, 1]⟩ w) (e : Fin E) (k' : Fin C) :
    (rowsDims N E C wf).start (ix2 e k') idx 0 = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- On the column axis the window starts at 0: no start-index component goes to it. -/
theorem rows_start1 (wf : ScatterDims.WF ⟨2, ![N, C]⟩ ⟨2, ![E, 1]⟩ ⟨2, ![E, C]⟩ [1] [0] [0] 1)
    (idx : IVec ⟨2, ![E, 1]⟩ w) (e : Fin E) (k' : Fin C) :
    (rowsDims N E C wf).start (ix2 e k') idx 1 = 0 := by
  unfold ScatterDims.start
  have h : (1 : Fin 2) ∉ (rowsDims N E C wf).scatterDimsToOperandDims := (by decide : (1 : Fin 2) ∉ ([0] : List (Fin 2)))
  rw [dif_neg h]

/-- The row axis is inserted: the window coordinate on it is 0. -/
theorem rows_window0 (wf : ScatterDims.WF ⟨2, ![N, C]⟩ ⟨2, ![E, 1]⟩ ⟨2, ![E, C]⟩ [1] [0] [0] 1)
    (e : Fin E) (k' : Fin C) :
    (rowsDims N E C wf).window (ix2 e k') 0 = 0 := by
  unfold ScatterDims.window
  have h : (0 : Fin 2) ∉ (rowsDims N E C wf).sKept := (by decide : (0 : Fin 2) ∉ ([1] : List (Fin 2)))
  rw [dif_neg h]

/-- On the column axis the window coordinate of update `(e, k')` is `k'`. -/
theorem rows_window1 (wf : ScatterDims.WF ⟨2, ![N, C]⟩ ⟨2, ![E, 1]⟩ ⟨2, ![E, C]⟩ [1] [0] [0] 1)
    (e : Fin E) (k' : Fin C) :
    (rowsDims N E C wf).window (ix2 e k') 1 = k'.val := by
  unfold ScatterDims.window
  have h : (1 : Fin 2) ∈ (rowsDims N E C wf).sKept := (by decide : (1 : Fin 2) ∈ ([1] : List (Fin 2)))
  rw [dif_pos h]
  rfl

/-- Update `(e, k')` lands at element `(i, k)` exactly when it is in column `k` and its start index, read as a signed
    integer, is `i` (so a start index that is negative or at least `N` lands nowhere). -/
theorem rows_resultIdx_iff (wf : ScatterDims.WF ⟨2, ![N, C]⟩ ⟨2, ![E, 1]⟩ ⟨2, ![E, C]⟩ [1] [0] [0] 1)
    (idx : IVec ⟨2, ![E, 1]⟩ w) (e : Fin E) (k' : Fin C) (i : Fin N) (k : Fin C) :
    (rowsDims N E C wf).resultIdx? (ix2 e k') idx = some (ix2 i k) ↔
      k' = k ∧ (idx (ix2 e 0)).toInt = (i.val : ℤ) := by
  unfold ScatterDims.resultIdx?
  constructor
  · intro h
    split at h
    · rename_i hb
      have h' := Option.some.inj h
      have h0 : ((rowsDims N E C wf).start (ix2 e k') idx 0 + ((rowsDims N E C wf).window (ix2 e k') 0 : ℕ)).toNat = i.val :=
        congrArg (fun f => (f 0).val) h'
      have h1 : ((rowsDims N E C wf).start (ix2 e k') idx 1 + ((rowsDims N E C wf).window (ix2 e k') 1 : ℕ)).toNat = k.val :=
        congrArg (fun f => (f 1).val) h'
      have hb0 : 0 ≤ (rowsDims N E C wf).start (ix2 e k') idx 0 + ((rowsDims N E C wf).window (ix2 e k') 0 : ℕ) ∧
          (rowsDims N E C wf).start (ix2 e k') idx 0 + ((rowsDims N E C wf).window (ix2 e k') 0 : ℕ) < (N : ℤ) := hb 0
      rw [rows_start0, rows_window0] at h0 hb0
      rw [rows_start1, rows_window1] at h1
      refine ⟨Fin.ext ?_, ?_⟩
      · omega
      · omega
    · exact absurd h (by simp)
  · rintro ⟨rfl, hi⟩
    have hN : i.val < N := i.isLt
    have hC : k'.val < C := k'.isLt
    rw [dif_pos]
    · congr 1
      funext a
      refine Fin.ext ?_
      match a with
      | ⟨0, _⟩ =>
        show ((rowsDims N E C wf).start (ix2 e k') idx 0 + ((rowsDims N E C wf).window (ix2 e k') 0 : ℕ)).toNat = i.val
        rw [rows_start0, rows_window0]; omega
      | ⟨1, _⟩ =>
        show ((rowsDims N E C wf).start (ix2 e k') idx 1 + ((rowsDims N E C wf).window (ix2 e k') 1 : ℕ)).toNat = k'.val
        rw [rows_start1, rows_window1]; omega
    · intro a
      match a with
      | ⟨0, _⟩ =>
        show 0 ≤ (rowsDims N E C wf).start (ix2 e k') idx 0 + ((rowsDims N E C wf).window (ix2 e k') 0 : ℕ) ∧
          (rowsDims N E C wf).start (ix2 e k') idx 0 + ((rowsDims N E C wf).window (ix2 e k') 0 : ℕ) < (N : ℤ)
        rw [rows_start0, rows_window0]; omega
      | ⟨1, _⟩ =>
        show 0 ≤ (rowsDims N E C wf).start (ix2 e k') idx 1 + ((rowsDims N E C wf).window (ix2 e k') 1 : ℕ) ∧
          (rowsDims N E C wf).start (ix2 e k') idx 1 + ((rowsDims N E C wf).window (ix2 e k') 1 : ℕ) < (C : ℤ)
        rw [rows_start1, rows_window1]; omega

end RowScatter

section RowScatterSum
variable {N E C w : Nat}

/-- The updates landing at `(i, k)`, summed: the sum over the update rows `e` whose start index is `i` of their entry in
    column `k` (the sum over the pairs `(e, k')` splits by coordinates, and only `k' = k` contributes). -/
theorem rows_sum {M : Type*} [AddCommMonoid M]
    (wf : ScatterDims.WF ⟨2, ![N, C]⟩ ⟨2, ![E, 1]⟩ ⟨2, ![E, C]⟩ [1] [0] [0] 1)
    (idx : IVec ⟨2, ![E, 1]⟩ w) (upd : (⟨2, ![E, C]⟩ : Shape).Idx → M) (i : Fin N) (k : Fin C) :
    ∑ j ∈ Finset.univ.filter (fun j => (rowsDims N E C wf).resultIdx? j idx = some (ix2 i k)), upd j
      = ∑ e ∈ Finset.univ.filter (fun e : Fin E => (idx (ix2 e 0)).toInt = (i.val : ℤ)), upd (ix2 e k) := by
  rw [Finset.sum_filter, Finset.sum_filter, sum_idx2]
  refine Finset.sum_congr rfl fun e _ => ?_
  simp only [rows_resultIdx_iff]
  by_cases hQ : (idx (ix2 e 0)).toInt = (i.val : ℤ)
  · simp [hQ]
  · simp [hQ]

/-- THE ROW SCATTER READ AT `(i, k)`: the operand's element plus the sum, over the update rows `e` whose start index
    `idx[e, 0]` read as a signed integer is `i`, of `upd[e, k]` — a segment sum of rows. -/
theorem scatterRows_apply (d : ScatterDims ⟨2, ![N, C]⟩ ⟨2, ![E, 1]⟩ ⟨2, ![E, C]⟩)
    (hw : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e ∈ Finset.univ.filter (fun e : Fin E => (idx (ix2 e 0)).toInt = (i.val : ℤ)), upd (ix2 e k) := by
  obtain ⟨uw, iw, sd, iv, wf⟩ := d
  dsimp only at hw hi hs hv
  subst hw hi hs hv
  unfold Ideal.hostScatterAdd
  rw [← rows_sum wf idx upd i k]

/-- The same for the program's `Host.scatterAdd` at the ideal instance, where it is that exact sum. -/
theorem hostScatterAdd_rows_apply {φ : FTy} (d : ScatterDims ⟨2, ![N, C]⟩ ⟨2, ![E, 1]⟩ ⟨2, ![E, C]⟩)
    (hw : d.updateWindowDims = [1]) (hi : d.insertedWindowDims = [0]) (hs : d.scatterDimsToOperandDims = [0])
    (hv : d.indexVectorDim = 1)
    (x : FVec Ideal ⟨2, ![N, C]⟩ φ) (idx : IVec ⟨2, ![E, 1]⟩ w) (upd : FVec Ideal ⟨2, ![E, C]⟩ φ)
    (i : Fin N) (k : Fin C) :
    Host.scatterAdd d x idx upd (ix2 i k)
      = x (ix2 i k) + ∑ e ∈ Finset.univ.filter (fun e : Fin E => (idx (ix2 e 0)).toInt = (i.val : ℤ)), upd (ix2 e k) :=
  scatterRows_apply d hw hi hs hv x idx upd i k

end RowScatterSum

section Scatter1
variable {N E w : Nat}

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars `[E]` into a flat array `[N]` at the positions `[E, 1]`: no window axis, the
    operand's axis 0 inserted, the one start-index component goes to operand axis 0. -/
abbrev flatDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

/-- The window of update `e` starts at the start index `idx[e, 0]` read as a signed integer. -/
theorem flat_start0 (wf : ScatterDims.WF ⟨1, ![N]⟩ ⟨2, ![E, 1]⟩ ⟨1, ![E]⟩ [] [0] [0] 1)
    (idx : IVec ⟨2, ![E, 1]⟩ w) (e : Fin E) :
    (flatDims N E wf).start (ix1 e) idx 0 = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- The one operand axis is inserted: the window coordinate on it is 0. -/
theorem flat_window0 (wf : ScatterDims.WF ⟨1, ![N]⟩ ⟨2, ![E, 1]⟩ ⟨1, ![E]⟩ [] [0] [0] 1) (e : Fin E) :
    (flatDims N E wf).window (ix1 e) 0 = 0 := by
  unfold ScatterDims.window
  have h : (0 : Fin 1) ∉ (flatDims N E wf).sKept := (by decide : (0 : Fin 1) ∉ ([] : List (Fin 1)))
  rw [dif_neg h]

/-- Update `e` lands at element `i` exactly when its start index, read as a signed integer, is `i`. -/
theorem flat_resultIdx_iff (wf : ScatterDims.WF ⟨1, ![N]⟩ ⟨2, ![E, 1]⟩ ⟨1, ![E]⟩ [] [0] [0] 1)
    (idx : IVec ⟨2, ![E, 1]⟩ w) (e : Fin E) (i : Fin N) :
    (flatDims N E wf).resultIdx? (ix1 e) idx = some (ix1 i) ↔ (idx (ix2 e 0)).toInt = (i.val : ℤ) := by
  unfold ScatterDims.resultIdx?
  constructor
  · intro h
    split at h
    · rename_i hb
      have h' := Option.some.inj h
      have h0 : ((flatDims N E wf).start (ix1 e) idx 0 + ((flatDims N E wf).window (ix1 e) 0 : ℕ)).toNat = i.val :=
        congrArg (fun f => (f 0).val) h'
      have hb0 : 0 ≤ (flatDims N E wf).start (ix1 e) idx 0 + ((flatDims N E wf).window (ix1 e) 0 : ℕ) ∧
          (flatDims N E wf).start (ix1 e) idx 0 + ((flatDims N E wf).window (ix1 e) 0 : ℕ) < (N : ℤ) := hb 0
      rw [flat_start0, flat_window0] at h0 hb0
      omega
    · exact absurd h (by simp)
  · intro hi
    have hN : i.val < N := i.isLt
    rw [dif_pos]
    · congr 1
      funext a
      refine Fin.ext ?_
      match a with
      | ⟨0, _⟩ =>
        show ((flatDims N E wf).start (ix1 e) idx 0 + ((flatDims N E wf).window (ix1 e) 0 : ℕ)).toNat = i.val
        rw [flat_start0, flat_window0]; omega
    · intro a
      match a with
      | ⟨0, _⟩ =>
        show 0 ≤ (flatDims N E wf).start (ix1 e) idx 0 + ((flatDims N E wf).window (ix1 e) 0 : ℕ) ∧
          (flatDims N E wf).start (ix1 e) idx 0 + ((flatDims N E wf).window (ix1 e) 0 : ℕ) < (N : ℤ)
        rw [flat_start0, flat_window0]; omega

/-- The updates landing at `i`, summed: the sum of the updates `e` whose start index is `i`. -/
theorem flat_sum {M : Type*} [AddCommMonoid M]
    (wf : ScatterDims.WF ⟨1, ![N]⟩ ⟨2, ![E, 1]⟩ ⟨1, ![E]⟩ [] [0] [0] 1)
    (idx : IVec ⟨2, ![E, 1]⟩ w) (upd : (⟨1, ![E]⟩ : Shape).Idx → M) (i : Fin N) :
    ∑ j ∈ Finset.univ.filter (fun j => (flatDims N E wf).resultIdx? j idx = some (ix1 i)), upd j
      = ∑ e ∈ Finset.univ.filter (fun e : Fin E => (idx (ix2 e 0)).toInt = (i.val : ℤ)), upd (ix1 e) := by
  rw [Finset.sum_filter, Finset.sum_filter, sum_idx1]
  refine Finset.sum_congr rfl fun e _ => ?_
  simp only [flat_resultIdx_iff]

/-- THE FLAT SCATTER READ AT `i`: the operand's element plus the sum of the updates `e` whose start index `idx[e, 0]`
    read as a signed integer is `i` — a segment sum of scalars. -/
theorem scatter1_apply (d : ScatterDims ⟨1, ![N]⟩ ⟨2, ![E, 1]⟩ ⟨1, ![E]⟩)
    (hw : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i)
      = x (ix1 i) + ∑ e ∈ Finset.univ.filter (fun e : Fin E => (idx (ix2 e 0)).toInt = (i.val : ℤ)), upd (ix1 e) := by
  obtain ⟨uw, iw, sd, iv, wf⟩ := d
  dsimp only at hw hi hs hv
  subst hw hi hs hv
  unfold Ideal.hostScatterAdd
  rw [← flat_sum wf idx upd i]

/-- The same for the program's `Host.scatterAdd` at the ideal instance, where it is that exact sum. -/
theorem hostScatterAdd_flat_apply {φ : FTy} (d : ScatterDims ⟨1, ![N]⟩ ⟨2, ![E, 1]⟩ ⟨1, ![E]⟩)
    (hw : d.updateWindowDims = []) (hi : d.insertedWindowDims = [0]) (hs : d.scatterDimsToOperandDims = [0])
    (hv : d.indexVectorDim = 1)
    (x : FVec Ideal ⟨1, ![N]⟩ φ) (idx : IVec ⟨2, ![E, 1]⟩ w) (upd : FVec Ideal ⟨1, ![E]⟩ φ) (i : Fin N) :
    Host.scatterAdd d x idx upd (ix1 i)
      = x (ix1 i) + ∑ e ∈ Finset.univ.filter (fun e : Fin E => (idx (ix2 e 0)).toInt = (i.val : ℤ)), upd (ix1 e) :=
  scatter1_apply d hw hi hs hv x idx upd i

end Scatter1

section Gathers
variable {N E C w : Nat} {α : Type}

/-- The row a gather reads for start index `e`: the word `idx[e, 0]` read as a signed integer and clamped into
    `[0, N − 1]`. -/
def gatherRow (hN : 0 < N) (idx : IVec ⟨2, ![E, 1]⟩ w) (e : Fin E) : Fin N :=
  ⟨min (idx (ix2 e 0)).toInt.toNat (N - 1), by omega⟩

/-- Its value as a natural number. -/
theorem gatherRow_val (hN : 0 < N) (idx : IVec ⟨2, ![E, 1]⟩ w) (e : Fin E) :
    (gatherRow hN idx e).val = min (idx (ix2 e 0)).toInt.toNat (N - 1) := rfl

/-- An in-range start index is read as it is. -/
theorem gatherRow_of_toInt (hN : 0 < N) (idx : IVec ⟨2, ![E, 1]⟩ w) (e : Fin E) (i : Fin N)
    (h : (idx (ix2 e 0)).toInt = (i.val : ℤ)) : gatherRow hN idx e = i := by
  refine Fin.ext ?_
  rw [gatherRow_val, h]
  have := i.isLt
  omega

/-- The dimension numbers of a lookup `x[idx]` in a flat array `[N]` at the positions `[E, 1]`: no offset axis, operand axis 0
    collapsed and named by the one start-index component, slices of one element. -/
abbrev takeFlatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a lookup of rows `x[idx, :]` in a table `[N, C]` at the row numbers `[E, 1]`: the result's axis 1
    is the offset axis, operand axis 0 is collapsed and named by the one start-index component, slices of one whole row. -/
abbrev takeRowsDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The flat lookup at `e` reads the operand at the clamped start index. -/
theorem takeFlat_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (takeFlatDims N E wf) x idx (ix1 e) = x (ix1 (gatherRow hN idx e)) := by
  unfold Host.gather
  refine congrArg x ?_
  funext a
  refine Fin.ext ?_
  match a with
  | ⟨0, _⟩ =>
    show (takeFlatDims N E wf).start (ix1 e) idx 0 + (takeFlatDims N E wf).batchCoord (ix1 e) 0
      + (takeFlatDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (takeFlatDims N E wf).startIndexMap from List.mem_singleton.mpr rfl)]
    have hsi : (takeFlatDims N E wf).siIdx (ix1 e) ⟨List.idxOf (0 : Fin 1) (takeFlatDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- The row lookup at `(e, k)` reads the operand at the clamped start index's row, column `k`: on the row axis the clamped
    start, no batching and no offset; on the column axis start 0, no batching, offset `k`. -/
theorem takeRows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (takeRowsDims N E C wf) x idx (ix2 e k) = x (ix2 (gatherRow hN idx e) k) := by
  unfold Host.gather
  refine congrArg x ?_
  funext a
  refine Fin.ext ?_
  match a with
  | ⟨0, _⟩ =>
    show (takeRowsDims N E C wf).start (ix2 e k) idx 0 + (takeRowsDims N E C wf).batchCoord (ix2 e k) 0
      + (takeRowsDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N E C wf).startIndexMap from List.mem_singleton.mpr rfl)]
    have hsi : (takeRowsDims N E C wf).siIdx (ix2 e k) ⟨List.idxOf (0 : Fin 2) (takeRowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (takeRowsDims N E C wf).start (ix2 e k) idx 1 + (takeRowsDims N E C wf).batchCoord (ix2 e k) 1
      + (takeRowsDims N E C wf).offCoord (ix2 e k) 1 = k.val
    rw [GatherDims.batchCoord_eq_zero _ _ _ List.not_mem_nil]
    have hs : (takeRowsDims N E C wf).start (ix2 e k) idx 1 = 0 := by
      unfold GatherDims.start
      have h : (1 : Fin 2) ∉ (takeRowsDims N E C wf).startIndexMap := (by decide : (1 : Fin 2) ∉ ([0] : List (Fin 2)))
      rw [dif_neg h]
    have ho : (takeRowsDims N E C wf).offCoord (ix2 e k) 1 = k.val := by
      unfold GatherDims.offCoord
      have h : (1 : Fin 2) ∈ (takeRowsDims N E C wf).sKept := (by decide : (1 : Fin 2) ∈ ([1] : List (Fin 2)))
      rw [dif_pos h]
      rfl
    rw [hs, ho]; omega

/-- THE FLAT GATHER READ AT `e`: the operand at position `gatherRow idx e`, the start index `idx[e, 0]` read as a signed
    integer and clamped into `[0, N − 1]`. -/
theorem gather1_apply (hN : 0 < N) (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hv : d.indexVectorDim = 1)
    (hss : d.sliceSizes = ![1])
    (x : (⟨1, ![N]⟩ : Shape).Idx → α) (idx : IVec ⟨2, ![E, 1]⟩ w) (e : Fin E) :
    Host.gather d x idx (ix1 e) = x (ix1 (gatherRow hN idx e)) := by
  obtain ⟨od, cd, ob, sb, sm, iv, ss, wf⟩ := d
  dsimp only at hod hcd hob hsb hsm hv hss
  subst hod hcd hob hsb hsm hv hss
  exact takeFlat_apply hN wf x idx e

/-- THE ROW GATHER READ AT `(e, k)`: the operand at row `gatherRow idx e` — the SAME clamped row as the flat gather's —,
    column `k`. -/
theorem gatherRows_apply (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hv : d.indexVectorDim = 1)
    (hss : d.sliceSizes = ![1, C])
    (x : (⟨2, ![N, C]⟩ : Shape).Idx → α) (idx : IVec ⟨2, ![E, 1]⟩ w) (e : Fin E) (k : Fin C) :
    Host.gather d x idx (ix2 e k) = x (ix2 (gatherRow hN idx e) k) := by
  obtain ⟨od, cd, ob, sb, sm, iv, ss, wf⟩ := d
  dsimp only at hod hcd hob hsb hsm hv hss
  subst hod hcd hob hsb hsm hv hss
  exact takeRows_apply hN wf x idx e k

end Gathers

end Cert.Lib.ScatterGatherAt

end
-- ==== Proof.RefRun.lean ====
/- The run of the reference program, read back.

   The reference looks rows up in a table: for a list t of 16384 row numbers and a table of 1000 rows of 128 entries it
   computes, per row i, the adjusted row number t'[i] = t[i] + 1000 if t[i] < 0 and t[i] otherwise, the flag
   inb[i] = (0 ≤ t'[i] and t'[i] ≤ 999), the gathered row g[i, :] = table[clamp(t'[i], 0, 999), :], and returns
   g[i, k] where inb[i] holds and a not-a-number elsewhere.
   Under the precondition 0 ≤ t[i] ≤ 999 (as signed integers) the adjustment, the flag and the clamp all do nothing, and
   the result is table[t[i], k]: the lookup G of Spec. -/
import proofs.«219841_g10136122819095_week1_w1_367_25_alg».proof.Defs
import proofs.«219841_g10136122819095_week1_w1_367_25_alg».proof.Proof.Gen.ReferenceIdeal
import proofs.«219841_g10136122819095_week1_w1_367_25_alg».proof.Proof.Gen.Pre_input_domain
import proofs.«219841_g10136122819095_week1_w1_367_25_alg».proof.Proof.Spec
import proofs.«219841_g10136122819095_week1_w1_367_25_alg».proof.Proof.LibReadBack
import proofs.«219841_g10136122819095_week1_w1_367_25_alg».proof.Proof.LibScatterGatherAt
import Idealize.ShloMosaic.Lib.StableHlo.Run
import Idealize.ShloMosaic.Lib.ReduceAll
import Idealize.ShloMosaic.Lib.ValueIdx
import Idealize.ShloMosaic.Lib.ValueLayout
import Idealize.ShloMosaic.Lib.IdealHost
import Idealize.ShloMosaic.Lib.Pipeline.Value

noncomputable section

namespace Cert.Proof.RefRun

open Idealize.ShloMosaic Idealize.ShloMosaic.TcCoe Idealize.SL.Sem Idealize.ShloMosaic.StableHlo Idealize.ShloMosaic.ValueIdx
open Cert.ReferenceIdeal Cert.ReferenceIdeal.Facts₀

attribute [local instance] Cert.ReferenceIdeal.Gen.facts Cert.ReferenceIdeal.Gen.facts₀ Cert.Pre_input_domain.Gen.facts

/-- The program's operations in order, the two calls unfolded: the lookup function's twenty-two operations over the
    buffers of its one call, the select of the function it calls in turn among them (the seventh). -/
abbrev ops : List (HloOp τ sig (Elt Ideal)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000x128_S16384x1_S16384x128_1_0_n_n_0_1_1128 x i),
    TRef.unary main_call0.v12 main_call0.v14 (broadcastInDim S16384x128 ![0] bcast_S16384_S16384x128_0),
    TRef.nullary main_call0.cst (constant (F := Ideal) S_ .f32 0x7FC00000#32),
    TRef.unary main_call0.cst main_call0.v15 (broadcastInDim S16384x128 ![] bcast_S_S16384x128),
    TRef.ternary main_call0.v14 main_call0.v13 main_call0.v15 main_call0.v16 select ]

set_option maxRecDepth 1024 in
/-- The program is that straight line: the two functions unfolded at their calls, both sides are one chain of steps once
    sequencing is reassociated. -/
theorem main_eq (c : Dev nD) : main (F := Ideal) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of the program terminates, and every buffer ends at
    the operations' fold over the launch contents. -/
theorem run_fold (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as a function of the two arguments -/

/-- The adjusted row numbers: t + 1000 where t is negative, t elsewhere. -/
def adj (t : IVec S16384 32) : IVec S16384 32 :=
  select (cmpi .slt t (broadcastInDim S16384 ![] bcast_S_S16384 (constantI S_ 32 0#32)))
    (addi t (broadcastInDim S16384 ![] bcast_S_S16384 (constantI S_ 32 1000#32))) t

/-- The adjusted row numbers as a column. -/
def col (t : IVec S16384 32) : IVec S16384x1 32 := broadcastInDim S16384x1 ![0] bcast_S16384_S16384x1_0 (adj t)

/-- Per row, as a column: is the adjusted row number between 0 and 999? -/
def flags (t : IVec S16384 32) : IVec S16384x1 1 :=
  andi (cmpi .sge (col t) (broadcastInDim S16384x1 ![] bcast_S_S16384x1 (constantI S_ 32 0#32)))
    (cmpi .sle (col t) (broadcastInDim S16384x1 ![0, 1] bcast_S1x1_S16384x1_0_1
      (broadcastInDim S1x1 ![1] bcast_S1_S1x1_1 (constantI S1 32 999#32))))

/-- The same flags with the unit axis reduced away by "and", from 1. -/
def inb (t : IVec S16384 32) : IVec S16384 1 :=
  Host.reduce IntOp.andi (flags t) (constantI S_ 1 1#1) reducesTo_S16384x1_S16384_d1 h_S_

/-- The program's result: the gathered rows where the flag holds, a not-a-number elsewhere. -/
def out (t : IVec S16384 32) (tab : FVec Ideal S1000x128 .f32) : FVec Ideal S16384x128 .f32 :=
  select (broadcastInDim S16384x128 ![0] bcast_S16384_S16384x128_0 (inb t))
    (Host.gather gather_S1000x128_S16384x1_S16384x128_1_0_n_n_0_1_1128 tab (col t))
    (broadcastInDim S16384x128 ![] bcast_S_S16384x128 (constant (F := Ideal) S_ .f32 0x7FC00000#32))

attribute [local irreducible] Host.reduce Host.gather in
set_option maxRecDepth 8192 in
/-- The fold at the result buffer is that function of the fold's start at the two argument buffers: each operation's
    result decides whether the buffer read is the one it writes, all by computation. The reduction and the gather stay
    folded meanwhile (the equation never looks inside them). -/
theorem out_eq (V : Valuation τ sig (Elt Ideal)) :
    after ops V (main_v0 : DevRef τ sig) = out (V (main_arg0 : DevRef τ sig)) (V (main_arg1 : DevRef τ sig)) := by
  simp only [after_cons, after_nil]
  rfl

theorem arg0_eq (V : Valuation τ sig (Elt Ideal)) :
    after ops V (main_arg0 : DevRef τ sig) = V (main_arg0 : DevRef τ sig) := by
  simp only [after_cons, after_nil]
  rfl

theorem arg1_eq (V : Valuation τ sig (Elt Ideal)) :
    after ops V (main_arg1 : DevRef τ sig) = V (main_arg1 : DevRef τ sig) := by
  simp only [after_cons, after_nil]
  rfl

/-! ## The result under the precondition -/

/-- A fold by "and" from 1 over a list whose every word is 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A word below 1000 reads the same signed and unsigned. -/
theorem toInt_of_lt {x : BitVec 32} (h : x.toNat < 1000) : x.toInt = (x.toNat : ℤ) :=
  BitVec.toInt_eq_toNat_of_lt (by omega)

section Value

variable (t : IVec S16384 32) (ht : ∀ x, (t x).toNat < 1000)
include ht

/-- A row number that is not negative is not adjusted. -/
theorem adj_apply (e : Fin 16384) : adj t (ix1 e) = t (ix1 e) := by
  show Scalar.select (IntOp.cmpi .slt (t (ix1 e)) 0#32) (IntOp.addi (t (ix1 e)) 1000#32) (t (ix1 e)) = t (ix1 e)
  have h0 : IntOp.cmpi .slt (t (ix1 e)) 0#32 = 0#1 := eq_zero_of_ne_one fun h => by
    rw [IntOp.cmpi_slt, toInt_of_lt (ht _), show (0#32 : BitVec 32).toInt = 0 from by decide] at h
    omega
  rw [h0, select_zero]

/-- The column of adjusted row numbers reads t. -/
theorem col_apply (e : Fin 16384) (z : Fin 1) : col t (ix2 e z) = t (ix1 e) := by
  unfold col
  rw [broadcastInDim_apply ![0] bcast_S16384_S16384x1_0 (adj t) (ix2 e z) (ix1 e) (fun a => match a with | ⟨0, _⟩ => rfl)]
  exact adj_apply t ht e

/-- Every flag holds: 0 ≤ t[i] ≤ 999 as signed integers. -/
theorem flags_apply (i : S16384x1.Idx) : flags t i = 1#1 := by
  obtain ⟨e, z, rfl⟩ : ∃ (e : Fin 16384) (z : Fin 1), i = ix2 e z := ⟨i 0, i 1, eq_ix2 i⟩
  show IntOp.andi (IntOp.cmpi .sge (col t (ix2 e z)) 0#32) (IntOp.cmpi .sle (col t (ix2 e z)) 999#32) = 1#1
  rw [col_apply t ht e z, IntOp.andi_eq_one, IntOp.cmpi_sge, IntOp.cmpi_sle, toInt_of_lt (ht _),
    show (0#32 : BitVec 32).toInt = 0 from by decide, show (999#32 : BitVec 32).toInt = 999 from by decide]
  have := ht (ix1 e)
  omega

/-- So does its reduction over the unit axis. -/
theorem inb_apply (e : Fin 16384) : inb t (ix1 e) = 1#1 := by
  unfold inb
  rw [Host.reduce_eq_foldl]
  exact foldl_andi_one (flags t) _ fun n _ => flags_apply t ht n

/-- Under the bound on t the program's result is the lookup. -/
theorem out_of_lt (tab : FVec Ideal S1000x128 .f32) : out t tab = Cert.Spec.G t tab := by
  funext i
  obtain ⟨e, k, rfl⟩ : ∃ e k, i = ix2 e k := ⟨i 0, i 1, eq_ix2 i⟩
  show Scalar.select (broadcastInDim S16384x128 ![0] bcast_S16384_S16384x128_0 (inb t) (ix2 e k))
      (Host.gather gather_S1000x128_S16384x1_S16384x128_1_0_n_n_0_1_1128 tab (col t) (ix2 e k))
      (broadcastInDim S16384x128 ![] bcast_S_S16384x128 (constant (F := Ideal) S_ .f32 0x7FC00000#32) (ix2 e k))
    = tab (ix2 (Cert.Spec.rowOf t e) k)
  rw [broadcastInDim_apply ![0] bcast_S16384_S16384x128_0 (inb t) (ix2 e k) (ix1 e) (fun a => match a with | ⟨0, _⟩ => rfl), inb_apply t ht e, select_one,
    Cert.Lib.ScatterGatherAt.gatherRows_apply (by decide) _ rfl rfl rfl rfl rfl rfl rfl,
    Cert.Lib.ScatterGatherAt.gatherRow_of_toInt _ _ e (Cert.Spec.rowOf t e)]
  rw [col_apply t ht, toInt_of_lt (ht _), Cert.Spec.rowOf_val t e (ht _)]

end Value

/-! ## The precondition read back -/

instance : Subsingleton Cert.Pre_input_domain.S_.Idx := ⟨fun a b => funext fun d => d.elim0⟩

/-- From the precondition: every word of t, read as a natural number, is below 1000 (it is between 0 and 999 as a signed
    integer). The float half of the precondition is not used, so this holds at every float instance. -/
theorem t_lt_of_pre {F : FTy → Type} [FloatOps F] (t : IVec Cert.Pre_input_domain.S16384 32)
    (tab : FVec F Cert.Pre_input_domain.S1000x128 .f32)
    (h : Cert.Pre_input_domain.fn (F := F) t tab = fun _ => 1#1) : ∀ x, (t x).toNat < 1000 := by
  intro x
  have h0 := congrFun h ix0
  dsimp only [Cert.Pre_input_domain.fn] at h0
  have h9 := (IntOp.andi_eq_one.1 h0).2
  have hx := Host.reduce_andi_all _ _ _ _ _ h9 x
  obtain ⟨hge, hle⟩ := IntOp.andi_eq_one.1 hx
  have hge' : IntOp.cmpi .sge (t x) 0#32 = 1#1 := hge
  have hle' : IntOp.cmpi .sle (t x) 999#32 = 1#1 := hle
  rw [IntOp.cmpi_sge, show (0#32 : BitVec 32).toInt = 0 from by decide] at hge'
  rw [IntOp.cmpi_sle, show (999#32 : BitVec 32).toInt = 999 from by decide] at hle'
  have := BitVec.toInt_eq_toNat_cond (t x)
  split at this <;> omega

/-! ## The run -/

/-- The reference's run: under the precondition every weakly fair execution terminates without a fault, the result buffer
    ends at the lookup G of the two argument arrays, and both arguments are unchanged. -/
theorem run (m : (ℓ : Loc Cert.ReferenceIdeal.nD Cert.ReferenceIdeal.τ Cert.ReferenceIdeal.sig) → Buf (Elt Ideal) ℓ)
    (g : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0)
            = Cert.Spec.G (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run defs _ _).mono (fun _ h c =>
      ⟨(h c main_v0).trans ((out_eq _).trans (out_of_lt _ (t_lt_of_pre _ _ (hpre c)) _)),
        (h c main_arg0).trans (arg0_eq _), (h c main_arg1).trans (arg1_eq _)⟩)
    (run_fold m g)

end Cert.Proof.RefRun

end
-- ==== Proof.IdealPre.lean ====
/- The lookup kernel on the two SparseCores: what each of the 32 vector subcores holds and hands on.

   Subcore (c, s) is worker w = 2 s + c. It copies the 512 row numbers t[512 w .. 512 w + 511] into its own list; it copies its
   slice of the table into the SparseCore's shared copy of the table (subcores 0 .. 14: rows 64 s .. 64 s + 63, subcore 15: rows
   960 .. 999); all sixteen subcores of a SparseCore meet at the barrier; then each gathers, in eight pieces of 64 rows, the rows
   of the shared table its list names, and copies the eight pieces out to rows w of the result [32, 8, 64, 128].

   The barrier carries the table: subcore n's arrival at subcore j's barrier cell hands over a sixteenth share of the slice n
   staged, at the table's own values; what subcore j collects from its sixteen arrivals is a sixteenth share of the whole shared
   table at the table's values, which is what its gathers read. At the end every subcore returns its share, and the sixteen
   shares are the shared table whole again. The result's rows w are held by subcore w alone, and end at the lookup's values. -/
import proofs.«219841_g10136122819095_week1_w1_367_25_alg».proof.Defs
import Idealize.ShloMosaic.Lib.SparseCore.Launch
import Idealize.ShloMosaic.Lib.SparseCore.Ops
import Idealize.ShloMosaic.Lib.SparseCore.Stream
import Idealize.ShloMosaic.Lib.Batch
import Idealize.ShloMosaic.Lib.StableHlo.Run
import Idealize.ShloMosaic.Lib.Pipeline.Kit
import Idealize.ShloMosaic.Lib.Tactic
import proofs.«219841_g10136122819095_week1_w1_367_25_alg».proof.Proof.Gen.KernelIdeal
import proofs.«219841_g10136122819095_week1_w1_367_25_alg».proof.Proof.Gen.KernelIdeal.Skeleton
import proofs.«219841_g10136122819095_week1_w1_367_25_alg».proof.Proof.Spec

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number c. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and the scratch -/

variable (m : (ℓ : Loc nD τ sig) → Buf (Elt F) ℓ) (ρ : Dev nD → PrngReg)

abbrev tLoc (d : Dev nD) : Loc nD τ sig := (SparseCore.T d).loc main_arg0
abbrev eLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

abbrev tV : Memref sig .scVector .hbm S16384 .i32 := Memref.whole main_arg0_scv
abbrev eV : Memref sig .scVector .hbm S1000x128 .f32 := Memref.whole main_arg1_scv
abbrev oV : Memref sig .scVector .hbm S32x8x64x128 .f32 := Memref.whole main_v0_scv
abbrev iV : Memref sig .scVector .vmem S512 .i32 := Memref.whole cc0_scratch0
abbrev gV : Memref sig .scVector .vmem S8x64x128 .f32 := Memref.whole cc0_scratch1
abbrev shV : Memref sig .scVector .shared S1000x128 .f32 := Memref.whole cc0_scratch2

/-- SparseCore c's shared copy of the table, as every subcore of it addresses it. -/
abbrev shRef (c : Fin τ.nSC) : DevRef τ sig := ⟨.shared, ⟨0, by decide⟩, c⟩
abbrev shLoc (d : Dev nD) (c : Fin τ.nSC) : Loc nD τ sig := (d, shRef c)

/-- The worker number of subcore (c, s). -/
def wid (c : Fin 2) (s : Fin 16) : Fin 32 := ⟨2 * s.val + c.val, by omega⟩

/-- Rows w of the result: the block [w, :, :, :]. -/
theorem odiv : 32 ∣ S32x8x64x128.size 0 := ⟨1, rfl⟩
abbrev orow (w : Fin 32) : Rect S32x8x64x128 := Rect.part (s := S32x8x64x128) (a₀ := 0) odiv w
abbrev oRowSet (w : Fin 32) : Finset S32x8x64x128.Idx := ((oV).view.slice (orow w)).set

/-- The slice of the table subcore s stages: 64 rows from row 64 s, or the last 40 rows. -/
def shLen (s : Fin 16) : Nat := if s.val < 15 then 64 else 40
theorem sh_inb (s : Fin 16) : ∀ a, (![64 * s.val, 0] : Fin 2 → Nat) a + (![shLen s, 128] : Fin 2 → Nat) a ≤ S1000x128.size a := by
  have := s.isLt
  intro a; unfold shLen
  match a with
  | ⟨0, _⟩ => show 64 * s.val + (if s.val < 15 then 64 else 40) ≤ 1000; split <;> omega
  | ⟨1, _⟩ => show 0 + 128 ≤ 128; omega
abbrev shRect (s : Fin 16) : Rect S1000x128 := Rect.unit (s := S1000x128) ![64 * s.val, 0] ![shLen s, 128] (sh_inb s)
abbrev shSet (s : Fin 16) : Finset S1000x128.Idx := (shRect s).set

/-! ## Shares: the two tables are read by all 32 subcores at once -/

/-- The share of t and of the table that SparseCore c holds, -/
abbrev qCore (c : Fin 2) : PosShare TreeShare := pieceOf fullShare 2 (by decide) c
/-- and the share subcore (c, s) holds. -/
abbrev qTile (c : Fin 2) (s : Fin 16) : PosShare TreeShare := pieceOf (qCore c) 16 (by decide) s
/-- The share of the shared table subcore s ends with. -/
abbrev qSh (s : Fin 16) : PosShare TreeShare := pieceOf fullShare 16 (by decide) s

/-! ## The result's rows at the lookup's values -/

/-- The row of the flat result that element (w, j, r, :) of the blocked result belongs to. -/
def flatRow (x : S32x8x64x128.Idx) : Fin 16384 :=
  ⟨512 * (x 0).val + 64 * (x 1).val + (x 2).val, by
    have h0 : (x 0).val < 32 := (x 0).isLt
    have h1 : (x 1).val < 8 := (x 1).isLt
    have h2 : (x 2).val < 64 := (x 2).isLt
    omega⟩

/-- The blocked result at the lookup's values: element (w, j, r, k) is the table's entry (t[512 w + 64 j + r], k). -/
def Gblk (t : S16384.Idx → BitVec 32) (tab : S1000x128.Idx → Elt F .f32) : S32x8x64x128.Idx → Elt F .f32 :=
  fun x => Cert.Spec.G t tab (ValueIdx.ix2 (flatRow x) (x 3))

/-- On device d, from the launch memory. -/
abbrev GblkAt (d : Dev nD) : Buf (Elt F) (oLoc d) := Gblk (F := F) (m (tLoc d)) (m (eLoc d))

end Cert.Proof.KernelIdealRun

end
-- ==== Proof.IdealCells.lean ====
/- The barrier's cells and what the handshakes carry.

   Every subcore's barrier semaphore is a cell with one round of sixteen unit arrivals, one per subcore of its SparseCore.
   Subcore n's arrival at subcore j's cell hands over share number j (of sixteen equal shares) of the slice of the shared
   table that n staged, at the table's values. -/
import proofs.«219841_g10136122819095_week1_w1_367_25_alg».proof.Proof.IdealPre

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The barrier cells -/

/-- Subcore (c, j)'s barrier semaphore on device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- The table's values, as contents of SparseCore c's shared copy. -/
def tabSh (d : Dev nD) (c : Fin τ.nSC) : Buf (Elt F) (shLoc d c) := m (eLoc d)

/-- Share j of the slice subcore n staged, at the table's values. -/
abbrev shPiece (d : Dev nD) (c : Fin τ.nSC) (n j : Fin 16) : sProp 𝕄 := shLoc d c ↦[shSet n]{qSh j} tabSh m d c

/-- What arrival n at subcore j's cell hands over. -/
def bPay (g : GSem nD τ sig) (n : ℕ) : sProp 𝕄 :=
  match g with
  | ((d, .scVector c j), _) => if h : n < 16 then shPiece m d c ⟨n, h⟩ (Fin.cast nSub_eq j) else iprop(emp)
  | _ => iprop(emp)

/-- The barrier cells' schedule: one round on each, of one unit arrival per subcore of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has subcore (c, i) owe for the barrier: a unit on every cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## What the launch deals a subcore for the barrier -/

/-- Subcore (c, i)'s kit: every cell's invariant of its SparseCore and that each has reached round 0, its own position at the
    origin of round 0, its arrival token in every cell's round 0, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

abbrev c2 (c : Fin ((K (F := F)).nCore 0)) : Fin 2 := Fin.cast nCore_zero c
abbrev s16 (i : Fin ((K (F := F)).nSub 0)) : Fin 16 := Fin.cast nSub_zero i

/-- A read share of t and of the table. -/
abbrev inPts (d : Dev nD) (q : PosShare TreeShare) : sProp 𝕄 := iprop((tLoc d ↦{q} m (tLoc d)) ∗ (eLoc d ↦{q} m (eLoc d)))
/-- Rows w of the result at contents f. -/
abbrev oRowPts (d : Dev nD) (w : Fin 32) (f : Buf (Elt F) (oLoc d)) : sProp 𝕄 := oLoc d ↦[oRowSet w]{fullShare} f
/-- The slice of the shared table that subcore s stages, at contents f. -/
abbrev shSlicePts (d : Dev nD) (c : Fin τ.nSC) (s : Fin 16) (f : Buf (Elt F) (shLoc d c)) : sProp 𝕄 := shLoc d c ↦[shSet s]{fullShare} f
/-- Share s of the whole shared table at the table's values. -/
abbrev shSharePts (d : Dev nD) (c : Fin τ.nSC) (s : Fin 16) : sProp 𝕄 := shLoc d c ↦{qSh s} tabSh m d c

/-- The call takes, per SparseCore, a half share of t and of the table and the sixteen result blocks of its subcores; each
    subcore a sixteenth of that share, its result block, and its slice of the shared table; a subcore brings back its
    share, its result block at the lookup's values, and a sixteenth share of the whole shared table at the table's values. -/
def P : (K (F := F)).Pay (nD := nD) (Val := Elt F) (Name := ℕ) (U := UU) where
  st := fun q d c => match q with
    | 0 => iprop(inPts m d (qCore (c2 c)) ∗ bigSep Finset.univ fun s : Fin 16 => oRowPts d (wid (c2 c) s) (m (oLoc d)))
  dn := fun q d c => match q with
    | 0 => iprop(inPts m d (qCore (c2 c)) ∗ bigSep Finset.univ fun s : Fin 16 => oRowPts d (wid (c2 c) s) (GblkAt m d))
  go := fun q d c i => match q with
    | 0 => iprop(inPts m d (qTile (c2 c) (s16 i)) ∗ oRowPts d (wid (c2 c) (s16 i)) (m (oLoc d)) ∗ ∃ f, shSlicePts d (coreOf c) (s16 i) f)
  td := fun q d c i => match q with
    | 0 => iprop(inPts m d (qTile (c2 c) (s16 i)) ∗ oRowPts d (wid (c2 c) (s16 i)) (GblkAt m d) ∗ shSharePts m d (coreOf c) (s16 i))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st q d c := match q with
    | 0 => (inferInstance : BI.Storable (upEmb : UEmb _ 𝕄) iprop(inPts m d (qCore (c2 c)) ∗ bigSep Finset.univ fun s : Fin 16 => oRowPts d (wid (c2 c) s) (m (oLoc d))))
  dn q d c := match q with
    | 0 => (inferInstance : BI.Storable (upEmb : UEmb _ 𝕄) iprop(inPts m d (qCore (c2 c)) ∗ bigSep Finset.univ fun s : Fin 16 => oRowPts d (wid (c2 c) s) (GblkAt m d)))
  go q d c i := match q with
    | 0 => (inferInstance : BI.Storable (upEmb : UEmb _ 𝕄)
      iprop(inPts m d (qTile (c2 c) (s16 i)) ∗ oRowPts d (wid (c2 c) (s16 i)) (m (oLoc d)) ∗ ∃ f, shSlicePts d (coreOf c) (s16 i) f))
  td q d c i := match q with
    | 0 => (inferInstance : BI.Storable (upEmb : UEmb _ 𝕄)
      iprop(inPts m d (qTile (c2 c) (s16 i)) ∗ oRowPts d (wid (c2 c) (s16 i)) (GblkAt m d) ∗ shSharePts m d (coreOf c) (s16 i)))

end Cert.Proof.KernelIdealRun

end
-- ==== Proof.IdealLaunch.lean ====
/- The launch side of the lookup kernel's run.

   The call's operands split among the two SparseCores and their sixteen vector subcores and come back: the list t and
   the table are read by all 32 subcores at once, so each SparseCore takes a half share of both and each subcore a
   sixteenth of that; the result [32, 8, 64, 128] is cut into its 32 blocks along the first axis, block 2 s + c going to
   subcore s of SparseCore c; the SparseCore's shared copy of the table, which is the sequencer's, is cut into the sixteen
   slices the subcores stage (rows 64 s .. 64 s + 63, the last one rows 960 .. 999) and comes back as sixteen equal
   shares of the whole at the table's values. Then the barrier cells are funded in the launch element of the ghost state,
   @main is run on the TensorCore (the one call, then the reshape of the blocked result to [16384, 128]), and the claim is
   read off the final memory. The reshape's value: the blocked result at the lookup's values, read in row-major order as
   [16384, 128], is the lookup. The per-subcore task is a hypothesis of the run theorem. -/
import proofs.«219841_g10136122819095_week1_w1_367_25_alg».proof.Proof.IdealCells

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The result's 32 blocks, and the worker numbers -/

theorem oRowSet_eq (w : Fin 32) : oRowSet w = (orow w).set := by
  show ((View.whole (main_v0_scv : Ref sig .scVector)).slice (orow w)).set = _
  rw [View.set_slice]; exact Finset.map_refl

theorem oRows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h

theorem oRows_cover : (Finset.univ : Finset (Fin 32)).biUnion oRowSet = Finset.univ :=
  (Finset.biUnion_congr rfl fun i _ => oRowSet_eq i).trans (Rect.biUnion_part odiv)

/-- The result whole is its 32 blocks. -/
theorem oPts_rows (d : Dev nD) (f : Buf (Elt F) (oLoc d)) :
    (oLoc d ↦{fullShare} f : sProp 𝕄) = bigSep Finset.univ fun w : Fin 32 => oRowPts d w f := by
  unfold oRowPts
  rw [← pointsTo_biUnion Finset.univ (ℓ := oLoc d) oRowSet oRows_disjoint, oRows_cover]; try rfl

/-- Worker w = 2 s + c is subcore s of SparseCore c. -/
def widEquiv : Fin 2 × Fin 16 ≃ Fin 32 where
  toFun p := wid p.1 p.2
  invFun w := (⟨w.val % 2, by omega⟩, ⟨w.val / 2, by omega⟩)
  left_inv := fun ⟨c, s⟩ => Prod.ext (Fin.ext (by show (2 * s.val + c.val) % 2 = c.val; omega)) (Fin.ext (by show (2 * s.val + c.val) / 2 = s.val; omega))
  right_inv := fun w => Fin.ext (by show 2 * (w.val / 2) + w.val % 2 = w.val; omega)

/-- A family over the 32 workers, by SparseCore and subcore. -/
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

/-! ## The sixteen slices of the shared table -/

theorem shLen_le (s : Fin 16) : shLen s ≤ 64 := by unfold shLen; split <;> omega

theorem shSet_disjoint : ∀ i ∈ (Finset.univ : Finset (Fin 16)), ∀ j ∈ (Finset.univ : Finset (Fin 16)), i ≠ j → Disjoint (shSet i) (shSet j) :=
  fun i _ j _ h => by
    have hi := shLen_le i
    have hj := shLen_le j
    have hne : i.val ≠ j.val := fun e => h (Fin.ext e)
    refine Rect.unit_disjoint (0 : Fin 2) ?_
    show 64 * i.val + shLen i ≤ 64 * j.val ∨ 64 * j.val + shLen j ≤ 64 * i.val
    omega

/-- Row x₀ of the table lies in slice min (x₀ / 64) 15. -/
theorem shSet_cover : (Finset.univ : Finset (Fin 16)).biUnion shSet = Finset.univ := by
  ext x
  simp only [Finset.mem_biUnion, Finset.mem_univ, true_and, iff_true]
  have h0 : (x 0).val < 1000 := (x 0).isLt
  have h1 : (x 1).val < 128 := (x 1).isLt
  refine ⟨⟨min ((x 0).val / 64) 15, by omega⟩, Rect.mem_set_unit.mpr fun a => ?_⟩
  match a with
  | ⟨0, _⟩ =>
    show 64 * min ((x 0).val / 64) 15 ≤ (x 0).val ∧ (x 0).val < 64 * min ((x 0).val / 64) 15 + (if min ((x 0).val / 64) 15 < 15 then 64 else 40)
    split <;> omega
  | ⟨1, _⟩ => show 0 ≤ (x 1).val ∧ (x 1).val < 0 + 128; omega

/-- The shared table whole is its sixteen slices. -/
theorem shPts_slices (d : Dev nD) (c : Fin τ.nSC) (f : Buf (Elt F) (shLoc d c)) :
    (shLoc d c ↦{fullShare} f : sProp 𝕄) = bigSep Finset.univ fun s : Fin 16 => shSlicePts d c s f := by
  unfold shSlicePts
  rw [← pointsTo_biUnion Finset.univ (ℓ := shLoc d c) shSet shSet_disjoint, shSet_cover]; try rfl

/-! ## The value of the reshape -/

/-- The blocked result at the lookup's values, read in row-major order as [16384, 128], is the lookup: flat row i₀ is
    block i₀ / 512, piece i₀ / 64 % 8, row i₀ % 64 of the piece, and 512 (i₀ / 512) + 64 (i₀ / 64 % 8) + i₀ % 64 = i₀. -/
theorem reshape_Gblk (t : S16384.Idx → BitVec 32) (tab : S1000x128.Idx → Elt F .f32) (h : S32x8x64x128.ShapeCasts S16384x128) :
    shapeCast S16384x128 (Gblk (F := F) t tab) h = Cert.Spec.G t tab := by
  funext i
  have hi0 : (i 0).val < 16384 := (i 0).isLt
  have hi1 : (i 1).val < 128 := (i 1).isLt
  have hk : (S32x8x64x128.rowMajor (ValueIdx.ix4 (⟨(i 0).val / 512, by omega⟩ : Fin 32) (⟨(i 0).val / 64 % 8, by omega⟩ : Fin 8)
      (⟨(i 0).val % 64, by omega⟩ : Fin 64) (⟨(i 1).val, hi1⟩ : Fin 128))).val = (S16384x128.rowMajor i).val := by
    rw [Shape.rowMajor_val_four, Shape.rowMajor_val_two]
    show ((((i 0).val / 512) * 8 + (i 0).val / 64 % 8) * 64 + (i 0).val % 64) * 128 + (i 1).val = (i 0).val * 128 + (i 1).val
    omega
  have e : shapeCast S16384x128 (Gblk (F := F) t tab) h i = Gblk (F := F) t tab (ValueIdx.ix4 (⟨(i 0).val / 512, by omega⟩ : Fin 32)
      (⟨(i 0).val / 64 % 8, by omega⟩ : Fin 8) (⟨(i 0).val % 64, by omega⟩ : Fin 64) (⟨(i 1).val, hi1⟩ : Fin 128)) := by
    unfold shapeCast
    exact congrArg (Gblk (F := F) t tab) (Shape.reshapeEquiv_eq_of_rowMajor h hk)
  rw [e]
  show tab (ValueIdx.ix2 (Cert.Spec.rowOf t (⟨512 * ((i 0).val / 512) + 64 * ((i 0).val / 64 % 8) + (i 0).val % 64, _⟩ : Fin 16384)) (⟨(i 1).val, hi1⟩ : Fin 128))
      = tab (ValueIdx.ix2 (Cert.Spec.rowOf t (i 0)) (i 1))
  have e0 : (⟨512 * ((i 0).val / 512) + 64 * ((i 0).val / 64 % 8) + (i 0).val % 64, by omega⟩ : Fin 16384) = i 0 :=
    Fin.ext (by show 512 * ((i 0).val / 512) + 64 * ((i 0).val / 64 % 8) + (i 0).val % 64 = (i 0).val; omega)
  rw [e0]
  rfl

/-! ## Shares: splitting and rejoining are rewrites -/

theorem bigSep_sep3 {I : Type} (s : Finset I) (A B C : I → sProp 𝕄) :
    (bigSep s fun i => iprop(A i ∗ B i ∗ C i)) = iprop(bigSep s A ∗ bigSep s B ∗ bigSep s C) := by
  rw [bigSep_sep' s A (fun i => iprop(B i ∗ C i)), bigSep_sep' s B C]

/-- The whole of t and of the table is the two SparseCores' shares, -/
theorem inPts_cores (d : Dev nD) :
    (inPts m d fullShare : sProp 𝕄) = bigSep Finset.univ fun c : Fin 2 => inPts m d (qCore c) :=
  (congrArg₂ (fun a b : sProp 𝕄 => iprop(a ∗ b)) (pointsTo_piecesOf Finset.univ (m (tLoc d)) (o := 2) (by decide) fullShare)
    (pointsTo_piecesOf Finset.univ (m (eLoc d)) (o := 2) (by decide) fullShare)).trans (bigSep_sep' Finset.univ _ _).symm

/-- and a SparseCore's share is its sixteen subcores' shares. -/
theorem inPts_tiles (d : Dev nD) (c : Fin 2) :
    (inPts m d (qCore c) : sProp 𝕄) = bigSep Finset.univ fun s : Fin 16 => inPts m d (qTile c s) :=
  (congrArg₂ (fun a b : sProp 𝕄 => iprop(a ∗ b)) (pointsTo_piecesOf Finset.univ (m (tLoc d)) (o := 16) (by decide) (qCore c))
    (pointsTo_piecesOf Finset.univ (m (eLoc d)) (o := 16) (by decide) (qCore c))).trans (bigSep_sep' Finset.univ _ _).symm

/-- The shared table whole is sixteen equal shares of it. -/
theorem shPts_shares (d : Dev nD) (c : Fin τ.nSC) (f : Buf (Elt F) (shLoc d c)) :
    (shLoc d c ↦{fullShare} f : sProp 𝕄) = bigSep Finset.univ fun s : Fin 16 => shLoc d c ↦{qSh s} f :=
  pointsTo_piecesOf Finset.univ f (o := 16) (by decide) fullShare

/-! ## How a SparseCore's operands split among its subcores and come back -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(iprop(inPts m d (qCore (c2 c)) ∗ bigSep Finset.univ fun s : Fin 16 => oRowPts d (wid (c2 c) s) (m (oLoc d))) ∗ ownBufs (S d (coreOf c)))
    ⊢ |={Set.univ}=> iprop(
      (bigSep Finset.univ fun i : Fin ((K (F := F)).nSub 0) => iprop(inPts m d (qTile (c2 c) (Fin.cast nSub_zero i)) ∗ oRowPts d (wid (c2 c) (Fin.cast nSub_zero i)) (m (oLoc d))
        ∗ ∃ f, shSlicePts d (coreOf c) (Fin.cast nSub_zero i) f))
      ∗ ((bigSep Finset.univ fun i : Fin ((K (F := F)).nSub 0) => iprop(inPts m d (qTile (c2 c) (Fin.cast nSub_zero i)) ∗ oRowPts d (wid (c2 c) (Fin.cast nSub_zero i)) (GblkAt m d)
            ∗ shSharePts m d (coreOf c) (Fin.cast nSub_zero i)))
          -∗ iprop(iprop(inPts m d (qCore (c2 c)) ∗ bigSep Finset.univ fun s : Fin 16 => oRowPts d (wid (c2 c) s) (GblkAt m d)) ∗ ownBufs (S d (coreOf c)))))
  rw [bigSep_tasks (F := F) (fun s => iprop(inPts m d (qTile (c2 c) s) ∗ oRowPts d (wid (c2 c) s) (m (oLoc d)) ∗ ∃ f, shSlicePts d (coreOf c) s f)),
    bigSep_tasks (F := F) (fun s => iprop(inPts m d (qTile (c2 c) s) ∗ oRowPts d (wid (c2 c) s) (GblkAt m d) ∗ shSharePts m d (coreOf c) s)),
    bigSep_sep3 Finset.univ (fun s : Fin 16 => inPts m d (qTile (c2 c) s)) (fun s => oRowPts d (wid (c2 c) s) (m (oLoc d))) (fun s => iprop(∃ f, shSlicePts d (coreOf c) s f)),
    bigSep_sep3 Finset.univ (fun s : Fin 16 => inPts m d (qTile (c2 c) s)) (fun s => oRowPts d (wid (c2 c) s) (GblkAt m d)) (fun s => shSharePts m d (coreOf c) s),
    ← inPts_tiles, ownBufs_S]
  iintro ⟨⟨Hin, Ho⟩, ⟨%fsh, Hsh⟩, Hrest⟩; imodintro
  isplitl [Hin Ho Hsh]
  · isplitl [Hin]; · iexact Hin
    isplitl [Ho]; · iexact Ho
    ihave Hsh' := ((Entails.of_eq (shPts_slices d (coreOf c) fsh)).trans (SparseCore.ent (bigSep_mono (Φ := fun s => shSlicePts (F := F) d (coreOf c) s fsh)
      (Ψ := fun s => iprop(∃ f, shSlicePts (F := F) d (coreOf c) s f))
      fun s _ => BI.BIClass.exists_intro (Φ := fun f => shSlicePts (F := F) d (coreOf c) s f) fsh))) $$ Hsh
    iexact Hsh'
  iintro ⟨Hin, Ho, Hsh⟩
  isplitl [Hin Ho]
  · isplitl [Hin]; · iexact Hin
    iexact Ho
  isplitl [Hsh]
  · iexists tabSh m d (coreOf c)
    ihave H := (Entails.of_eq (shPts_shares d (coreOf c) (tabSh m d (coreOf c))).symm) $$ Hsh
    iexact H
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore i's token in subcore j's cell, for every pair of subcores of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each subcore the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One subcore's part of the barrier's resources out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each subcore its part. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## @main on the TensorCore -/

abbrev t' : DevRef τ sig := Proc.devRef .tc (main_arg0 : Ref sig .tc)
abbrev e' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
/-- The reshape of the blocked result to [16384, 128]. -/
abbrev opRe : HloOp τ sig (Elt F) := StableHlo.reshape main_v0 main_v1 rfl shapeCasts_S32x8x64x128_S16384x128

/-- The TensorCore's arrays, all unscoped: t, the table, the blocked result, the result. -/
abbrev S4 : Finset (DevRef τ sig) := {t', e', o', r'}

theorem held_S4 (d : Dev nD) (W : Valuation τ sig (Elt F)) :
    (held (T d) S4 W : sProp 𝕄)
      = iprop((tLoc d ↦{fullShare} W t') ∗ (eLoc d ↦{fullShare} W e') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((tLoc d ↦{fullShare} W main_arg0) ∗ (eLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation; after the call, the blocked result at the lookup's values. -/
def V0 (d : Dev nD) : Valuation τ sig (Elt F) := fun b => m (d, b)
def V1 (d : Dev nD) : Valuation τ sig (Elt F) := Function.update (V0 m d) o' (GblkAt m d)

theorem unscoped_held (d : Dev nD) : (unscopedBufs d (fun b => m ((SparseCore.T d).loc b)) : sProp 𝕄) = held (T d) S4 (V0 m d) := by
  rw [unscopedBufs_eq, held_S4]; rfl

theorem V1_t (d : Dev nD) : V1 m d t' = m (tLoc d) := Function.update_of_ne (show t' ≠ o' by decide) _ _
theorem V1_e (d : Dev nD) : V1 m d e' = m (eLoc d) := Function.update_of_ne (show e' ≠ o' by decide) _ _
theorem V1_o (d : Dev nD) : V1 m d o' = GblkAt m d := Function.update_self _ _ _
theorem V1_r (d : Dev nD) : V1 m d r' = V0 m d r' := Function.update_of_ne (show r' ≠ o' by decide) _ _

theorem hRe : (opRe (F := F)).bufs ⊆ S4 := show ({o', r'} : Finset (DevRef τ sig)) ⊆ S4 by decide

/-- What the reshape leaves in the result: the lookup. -/
theorem result_r (d : Dev nD) :
    (opRe (F := F)).result (V1 m d) r' = (Cert.Spec.G (m (tLoc d)) (m (eLoc d)) : Buf (Elt F) (rLoc d)) := by
  refine (StableHlo.reshape_result main_v0 main_v1 rfl shapeCasts_S32x8x64x128_S16384x128 ⟨by decide, rfl⟩ ⟨by decide, rfl⟩ (V1 m d)).trans ?_
  show (fun i => shapeCast S16384x128 (V1 m d o') shapeCasts_S32x8x64x128_S16384x128 i) = _
  rw [V1_o]
  exact reshape_Gblk (m (tLoc d)) (m (eLoc d)) shapeCasts_S32x8x64x128_S16384x128

theorem held_V2 (d : Dev nD) :
    (held (T d) S4 ((opRe (F := F)).result (V1 m d)) : sProp 𝕄)
      = iprop((tLoc d ↦{fullShare} m (tLoc d)) ∗ (eLoc d ↦{fullShare} m (eLoc d)) ∗ (oLoc d ↦{fullShare} GblkAt m d)
          ∗ rLoc d ↦{fullShare} (Cert.Spec.G (m (tLoc d)) (m (eLoc d)) : Buf (Elt F) (rLoc d))) := by
  rw [held_S4, (opRe (F := F)).result_of_not_mem (V1 m d) (b := t') (show t' ∉ ({r'} : Finset (DevRef τ sig)) by decide),
    (opRe (F := F)).result_of_not_mem (V1 m d) (b := e') (show e' ∉ ({r'} : Finset (DevRef τ sig)) by decide),
    (opRe (F := F)).result_of_not_mem (V1 m d) (b := o') (show o' ∉ ({r'} : Finset (DevRef τ sig)) by decide),
    result_r, V1_t, V1_e, V1_o]

/-- The two SparseCores' operands are t and the table whole and the blocked result whole. -/
theorem cores_eq (d : Dev nD) (f : Buf (Elt F) (oLoc d)) :
    (bigSep Finset.univ fun c : Fin ((K (F := F)).nCore 0) =>
        iprop(inPts m d (qCore (Fin.cast nCore_zero c)) ∗ bigSep Finset.univ fun s : Fin 16 => oRowPts d (wid (Fin.cast nCore_zero c) s) f))
      = iprop(inPts m d fullShare ∗ oLoc d ↦{fullShare} f) := by
  rw [bigSep_cores (F := F) (fun c => iprop(inPts m d (qCore c) ∗ bigSep Finset.univ fun s : Fin 16 => oRowPts d (wid c s) f)),
    bigSep_sep' Finset.univ (fun c : Fin 2 => inPts m d (qCore c)) (fun c => bigSep Finset.univ fun s : Fin 16 => oRowPts d (wid c s) f),
    ← inPts_cores, ← bigSep_wid (fun w => oRowPts d w f), ← oPts_rows]

theorem st0_eq (d : Dev nD) : (bigSep Finset.univ fun c : Fin ((K (F := F)).nCore 0) => (P m).st 0 d c)
    = iprop(inPts m d fullShare ∗ oLoc d ↦{fullShare} m (oLoc d)) := cores_eq m d (m (oLoc d))
theorem dn0_eq (d : Dev nD) : (bigSep Finset.univ fun c : Fin ((K (F := F)).nCore 0) => (P m).dn 0 d c)
    = iprop(inPts m d fullShare ∗ oLoc d ↦{fullShare} GblkAt m d) := cores_eq m d (GblkAt m d)

/-- What @main leaves the claim: t and the table at their launch contents, the result at the lookup. -/
abbrev FIN (d : Dev nD) : sProp 𝕄 :=
  iprop((tLoc d ↦{fullShare} m (tLoc d)) ∗ (eLoc d ↦{fullShare} m (eLoc d))
    ∗ rLoc d ↦{fullShare} (Cert.Spec.G (m (tLoc d)) (m (eLoc d)) : Buf (Elt F) (rLoc d)))

/-- @main on device d's TensorCore: the call, from t, the table and the blocked result; then the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  ihave Hh := (Entails.of_eq (held_S4 (F := F) d _)) $$ Hheld
  icases Hh with ⟨Ht, He, Ho, Hr⟩
  iapply ((K (F := F)).wp_run (D (F := F)) 𝒱 (EH := EH) (P := P m) κ d 0) $$ [Hst Ht He Ho Hb Hr]
  isplitr; · iexact Hctx
  isplitl [Hst]; · iexact Hst
  isplitl [Ht He Ho]
  · rw [st0_eq]
    isplitl [Ht He]
    · isplitl [Ht]; · iexact Ht
      iexact He
    · iexact Ho
  iintro ⟨Hst, Hdn⟩
  ihave Hdn' := (Entails.of_eq (dn0_eq m d)) $$ Hdn
  icases Hdn' with ⟨⟨Ht, He⟩, Ho⟩
  iapply (wp_hlo_within 𝒱 (SparseCore.T d) none Set.univ (op := opRe) (S := S4) hRe (V := V1 m d)) $$ [Hb Ht He Ho Hr]
  · isplitl [Hb]; · iexact Hb
    rw [held_S4, V1_t, V1_e, V1_o, V1_r]
    isplitl [Ht]; · iexact Ht
    isplitl [He]; · iexact He
    isplitl [Ho]; · iexact Ho
    iexact Hr
  iintro ⟨Hb, Hheld⟩
  ihave Hh := (Entails.of_eq (held_V2 (F := F) m d)) $$ Hheld
  icases Hh with ⟨Ht, He, -, Hr⟩
  rw [wp_ret]; imodintro; imodintro
  isplitl [Hst]; · iexact Hst
  isplitl [Ht]; · iexact Ht
  isplitl [He]; · iexact He
  iexact Hr

/-! ## Reading the claim off the final memory -/

def fq (d : Dev nD) (s' : Phys nD τ sig (Elt F)) : Prop :=
  s'.mem.mem (rLoc d) = (Cert.Spec.G (m (tLoc d)) (m (eLoc d)) : Buf (Elt F) (rLoc d)) ∧ s'.mem.mem (tLoc d) = m (tLoc d) ∧ s'.mem.mem (eLoc d) = m (eLoc d)

theorem hfin (d : Dev nD) (s' : Phys nD τ sig (Elt F)) : iprop(FIN m d ∗ SI s') ⊢ (⌜fq m d s'⌝ : sProp 𝕄) := by
  iintro ⟨⟨Ht, He, Hr⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := rLoc d) (I := Finset.univ) (q := fullShare)
    (f := (Cert.Spec.G (m (tLoc d)) (m (eLoc d)) : Buf (Elt F) (rLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (rLoc c) = (Cert.Spec.G (m (tLoc c)) (m (eLoc c)) : Buf (Elt F) (rLoc c)) ∧ r.2.mem (tLoc c) = m (tLoc c) ∧ r.2.mem (eLoc c) = m (eLoc c)

/-- The program's run: every weakly fair execution ends, nothing faults, the result is the lookup, t and the table are unchanged. -/
theorem run_main [∀ e, Nonempty (Elt F e)] (hobl : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, r.2.mem (rLoc c) = (Cert.Spec.G (m (tLoc c)) (m (eLoc c)) : Buf (Elt F) (rLoc c))
        ∧ r.2.mem (tLoc c) = m (tLoc c) ∧ r.2.mem (eLoc c) = m (eLoc c)) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => vecSplit m)
    m ρ main (fun _ => iprop(emp)) (FIN m) (u₀ (F := F)) (hu₀ m) (hmain m ρ) (fq m) (hfin m) (QC m) (fun _ h => h)

end Cert.Proof.KernelIdealRun

end
-- ==== Proof.BitsPre.lean ====
/- The lookup kernel on the two SparseCores: what each of the 32 vector subcores holds and hands on.

   Subcore (c, s) is worker w = 2 s + c. It copies the 512 row numbers t[512 w .. 512 w + 511] into its own list; it copies its
   slice of the table into the SparseCore's shared copy of the table (subcores 0 .. 14: rows 64 s .. 64 s + 63, subcore 15: rows
   960 .. 999); all sixteen subcores of a SparseCore meet at the barrier; then each gathers, in eight pieces of 64 rows, the rows
   of the shared table its list names, and copies the eight pieces out to rows w of the result [32, 8, 64, 128].

   The barrier carries the table: subcore n's arrival at subcore j's barrier cell hands over a sixteenth share of the slice n
   staged, at the table's own values; what subcore j collects from its sixteen arrivals is a sixteenth share of the whole shared
   table at the table's values, which is what its gathers read. At the end every subcore returns its share, and the sixteen
   shares are the shared table whole again. The result's rows w are held by subcore w alone, and end at the lookup's values. -/
import proofs.«219841_g10136122819095_week1_w1_367_25_alg».proof.Defs
import Idealize.ShloMosaic.Lib.SparseCore.Launch
import Idealize.ShloMosaic.Lib.SparseCore.Ops
import Idealize.ShloMosaic.Lib.SparseCore.Stream
import Idealize.ShloMosaic.Lib.Batch
import Idealize.ShloMosaic.Lib.StableHlo.Run
import Idealize.ShloMosaic.Lib.Pipeline.Kit
import Idealize.ShloMosaic.Lib.Tactic
import proofs.«219841_g10136122819095_week1_w1_367_25_alg».proof.Proof.Gen.Kernel
import proofs.«219841_g10136122819095_week1_w1_367_25_alg».proof.Proof.Gen.Kernel.Skeleton
import proofs.«219841_g10136122819095_week1_w1_367_25_alg».proof.Proof.Spec

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number c. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and the scratch -/

variable (m : (ℓ : Loc nD τ sig) → Buf (Elt F) ℓ) (ρ : Dev nD → PrngReg)

abbrev tLoc (d : Dev nD) : Loc nD τ sig := (SparseCore.T d).loc main_arg0
abbrev eLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

abbrev tV : Memref sig .scVector .hbm S16384 .i32 := Memref.whole main_arg0_scv
abbrev eV : Memref sig .scVector .hbm S1000x128 .f32 := Memref.whole main_arg1_scv
abbrev oV : Memref sig .scVector .hbm S32x8x64x128 .f32 := Memref.whole main_v0_scv
abbrev iV : Memref sig .scVector .vmem S512 .i32 := Memref.whole cc0_scratch0
abbrev gV : Memref sig .scVector .vmem S8x64x128 .f32 := Memref.whole cc0_scratch1
abbrev shV : Memref sig .scVector .shared S1000x128 .f32 := Memref.whole cc0_scratch2

/-- SparseCore c's shared copy of the table, as every subcore of it addresses it. -/
abbrev shRef (c : Fin τ.nSC) : DevRef τ sig := ⟨.shared, ⟨0, by decide⟩, c⟩
abbrev shLoc (d : Dev nD) (c : Fin τ.nSC) : Loc nD τ sig := (d, shRef c)

/-- The worker number of subcore (c, s). -/
def wid (c : Fin 2) (s : Fin 16) : Fin 32 := ⟨2 * s.val + c.val, by omega⟩

/-- Rows w of the result: the block [w, :, :, :]. -/
theorem odiv : 32 ∣ S32x8x64x128.size 0 := ⟨1, rfl⟩
abbrev orow (w : Fin 32) : Rect S32x8x64x128 := Rect.part (s := S32x8x64x128) (a₀ := 0) odiv w
abbrev oRowSet (w : Fin 32) : Finset S32x8x64x128.Idx := ((oV).view.slice (orow w)).set

/-- The slice of the table subcore s stages: 64 rows from row 64 s, or the last 40 rows. -/
def shLen (s : Fin 16) : Nat := if s.val < 15 then 64 else 40
theorem sh_inb (s : Fin 16) : ∀ a, (![64 * s.val, 0] : Fin 2 → Nat) a + (![shLen s, 128] : Fin 2 → Nat) a ≤ S1000x128.size a := by
  have := s.isLt
  intro a; unfold shLen
  match a with
  | ⟨0, _⟩ => show 64 * s.val + (if s.val < 15 then 64 else 40) ≤ 1000; split <;> omega
  | ⟨1, _⟩ => show 0 + 128 ≤ 128; omega
abbrev shRect (s : Fin 16) : Rect S1000x128 := Rect.unit (s := S1000x128) ![64 * s.val, 0] ![shLen s, 128] (sh_inb s)
abbrev shSet (s : Fin 16) : Finset S1000x128.Idx := (shRect s).set

/-! ## Shares: the two tables are read by all 32 subcores at once -/

/-- The share of t and of the table that SparseCore c holds, -/
abbrev qCore (c : Fin 2) : PosShare TreeShare := pieceOf fullShare 2 (by decide) c
/-- and the share subcore (c, s) holds. -/
abbrev qTile (c : Fin 2) (s : Fin 16) : PosShare TreeShare := pieceOf (qCore c) 16 (by decide) s
/-- The share of the shared table subcore s ends with. -/
abbrev qSh (s : Fin 16) : PosShare TreeShare := pieceOf fullShare 16 (by decide) s

/-! ## The result's rows at the lookup's values -/

/-- The row of the flat result that element (w, j, r, :) of the blocked result belongs to. -/
def flatRow (x : S32x8x64x128.Idx) : Fin 16384 :=
  ⟨512 * (x 0).val + 64 * (x 1).val + (x 2).val, by
    have h0 : (x 0).val < 32 := (x 0).isLt
    have h1 : (x 1).val < 8 := (x 1).isLt
    have h2 : (x 2).val < 64 := (x 2).isLt
    omega⟩

/-- The blocked result at the lookup's values: element (w, j, r, k) is the table's entry (t[512 w + 64 j + r], k). -/
def Gblk (t : S16384.Idx → BitVec 32) (tab : S1000x128.Idx → Elt F .f32) : S32x8x64x128.Idx → Elt F .f32 :=
  fun x => Cert.Spec.G t tab (ValueIdx.ix2 (flatRow x) (x 3))

/-- On device d, from the launch memory. -/
abbrev GblkAt (d : Dev nD) : Buf (Elt F) (oLoc d) := Gblk (F := F) (m (tLoc d)) (m (eLoc d))

end Cert.Proof.KernelRun

end
-- ==== Proof.BitsCells.lean ====
/- The barrier's cells and what the handshakes carry.

   Every subcore's barrier semaphore is a cell with one round of sixteen unit arrivals, one per subcore of its SparseCore.
   Subcore n's arrival at subcore j's cell hands over share number j (of sixteen equal shares) of the slice of the shared
   table that n staged, at the table's values. -/
import proofs.«219841_g10136122819095_week1_w1_367_25_alg».proof.Proof.BitsPre

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The barrier cells -/

/-- Subcore (c, j)'s barrier semaphore on device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- The table's values, as contents of SparseCore c's shared copy. -/
def tabSh (d : Dev nD) (c : Fin τ.nSC) : Buf (Elt F) (shLoc d c) := m (eLoc d)

/-- Share j of the slice subcore n staged, at the table's values. -/
abbrev shPiece (d : Dev nD) (c : Fin τ.nSC) (n j : Fin 16) : sProp 𝕄 := shLoc d c ↦[shSet n]{qSh j} tabSh m d c

/-- What arrival n at subcore j's cell hands over. -/
def bPay (g : GSem nD τ sig) (n : ℕ) : sProp 𝕄 :=
  match g with
  | ((d, .scVector c j), _) => if h : n < 16 then shPiece m d c ⟨n, h⟩ (Fin.cast nSub_eq j) else iprop(emp)
  | _ => iprop(emp)

/-- The barrier cells' schedule: one round on each, of one unit arrival per subcore of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has subcore (c, i) owe for the barrier: a unit on every cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## What the launch deals a subcore for the barrier -/

/-- Subcore (c, i)'s kit: every cell's invariant of its SparseCore and that each has reached round 0, its own position at the
    origin of round 0, its arrival token in every cell's round 0, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

abbrev c2 (c : Fin ((K (F := F)).nCore 0)) : Fin 2 := Fin.cast nCore_zero c
abbrev s16 (i : Fin ((K (F := F)).nSub 0)) : Fin 16 := Fin.cast nSub_zero i

/-- A read share of t and of the table. -/
abbrev inPts (d : Dev nD) (q : PosShare TreeShare) : sProp 𝕄 := iprop((tLoc d ↦{q} m (tLoc d)) ∗ (eLoc d ↦{q} m (eLoc d)))
/-- Rows w of the result at contents f. -/
abbrev oRowPts (d : Dev nD) (w : Fin 32) (f : Buf (Elt F) (oLoc d)) : sProp 𝕄 := oLoc d ↦[oRowSet w]{fullShare} f
/-- The slice of the shared table that subcore s stages, at contents f. -/
abbrev shSlicePts (d : Dev nD) (c : Fin τ.nSC) (s : Fin 16) (f : Buf (Elt F) (shLoc d c)) : sProp 𝕄 := shLoc d c ↦[shSet s]{fullShare} f
/-- Share s of the whole shared table at the table's values. -/
abbrev shSharePts (d : Dev nD) (c : Fin τ.nSC) (s : Fin 16) : sProp 𝕄 := shLoc d c ↦{qSh s} tabSh m d c

/-- The call takes, per SparseCore, a half share of t and of the table and the sixteen result blocks of its subcores; each
    subcore a sixteenth of that share, its result block, and its slice of the shared table; a subcore brings back its
    share, its result block at the lookup's values, and a sixteenth share of the whole shared table at the table's values. -/
def P : (K (F := F)).Pay (nD := nD) (Val := Elt F) (Name := ℕ) (U := UU) where
  st := fun q d c => match q with
    | 0 => iprop(inPts m d (qCore (c2 c)) ∗ bigSep Finset.univ fun s : Fin 16 => oRowPts d (wid (c2 c) s) (m (oLoc d)))
  dn := fun q d c => match q with
    | 0 => iprop(inPts m d (qCore (c2 c)) ∗ bigSep Finset.univ fun s : Fin 16 => oRowPts d (wid (c2 c) s) (GblkAt m d))
  go := fun q d c i => match q with
    | 0 => iprop(inPts m d (qTile (c2 c) (s16 i)) ∗ oRowPts d (wid (c2 c) (s16 i)) (m (oLoc d)) ∗ ∃ f, shSlicePts d (coreOf c) (s16 i) f)
  td := fun q d c i => match q with
    | 0 => iprop(inPts m d (qTile (c2 c) (s16 i)) ∗ oRowPts d (wid (c2 c) (s16 i)) (GblkAt m d) ∗ shSharePts m d (coreOf c) (s16 i))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st q d c := match q with
    | 0 => (inferInstance : BI.Storable (upEmb : UEmb _ 𝕄) iprop(inPts m d (qCore (c2 c)) ∗ bigSep Finset.univ fun s : Fin 16 => oRowPts d (wid (c2 c) s) (m (oLoc d))))
  dn q d c := match q with
    | 0 => (inferInstance : BI.Storable (upEmb : UEmb _ 𝕄) iprop(inPts m d (qCore (c2 c)) ∗ bigSep Finset.univ fun s : Fin 16 => oRowPts d (wid (c2 c) s) (GblkAt m d)))
  go q d c i := match q with
    | 0 => (inferInstance : BI.Storable (upEmb : UEmb _ 𝕄)
      iprop(inPts m d (qTile (c2 c) (s16 i)) ∗ oRowPts d (wid (c2 c) (s16 i)) (m (oLoc d)) ∗ ∃ f, shSlicePts d (coreOf c) (s16 i) f))
  td q d c i := match q with
    | 0 => (inferInstance : BI.Storable (upEmb : UEmb _ 𝕄)
      iprop(inPts m d (qTile (c2 c) (s16 i)) ∗ oRowPts d (wid (c2 c) (s16 i)) (GblkAt m d) ∗ shSharePts m d (coreOf c) (s16 i)))

end Cert.Proof.KernelRun

end
-- ==== Proof.BitsLaunch.lean ====
/- The launch side of the lookup kernel's run.

   The call's operands split among the two SparseCores and their sixteen vector subcores and come back: the list t and
   the table are read by all 32 subcores at once, so each SparseCore takes a half share of both and each subcore a
   sixteenth of that; the result [32, 8, 64, 128] is cut into its 32 blocks along the first axis, block 2 s + c going to
   subcore s of SparseCore c; the SparseCore's shared copy of the table, which is the sequencer's, is cut into the sixteen
   slices the subcores stage (rows 64 s .. 64 s + 63, the last one rows 960 .. 999) and comes back as sixteen equal
   shares of the whole at the table's values. Then the barrier cells are funded in the launch element of the ghost state,
   @main is run on the TensorCore (the one call, then the reshape of the blocked result to [16384, 128]), and the claim is
   read off the final memory. The reshape's value: the blocked result at the lookup's values, read in row-major order as
   [16384, 128], is the lookup. The per-subcore task is a hypothesis of the run theorem. -/
import proofs.«219841_g10136122819095_week1_w1_367_25_alg».proof.Proof.BitsCells

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The result's 32 blocks, and the worker numbers -/

theorem oRowSet_eq (w : Fin 32) : oRowSet w = (orow w).set := by
  show ((View.whole (main_v0_scv : Ref sig .scVector)).slice (orow w)).set = _
  rw [View.set_slice]; exact Finset.map_refl

theorem oRows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h

theorem oRows_cover : (Finset.univ : Finset (Fin 32)).biUnion oRowSet = Finset.univ :=
  (Finset.biUnion_congr rfl fun i _ => oRowSet_eq i).trans (Rect.biUnion_part odiv)

/-- The result whole is its 32 blocks. -/
theorem oPts_rows (d : Dev nD) (f : Buf (Elt F) (oLoc d)) :
    (oLoc d ↦{fullShare} f : sProp 𝕄) = bigSep Finset.univ fun w : Fin 32 => oRowPts d w f := by
  unfold oRowPts
  rw [← pointsTo_biUnion Finset.univ (ℓ := oLoc d) oRowSet oRows_disjoint, oRows_cover]; try rfl

/-- Worker w = 2 s + c is subcore s of SparseCore c. -/
def widEquiv : Fin 2 × Fin 16 ≃ Fin 32 where
  toFun p := wid p.1 p.2
  invFun w := (⟨w.val % 2, by omega⟩, ⟨w.val / 2, by omega⟩)
  left_inv := fun ⟨c, s⟩ => Prod.ext (Fin.ext (by show (2 * s.val + c.val) % 2 = c.val; omega)) (Fin.ext (by show (2 * s.val + c.val) / 2 = s.val; omega))
  right_inv := fun w => Fin.ext (by show 2 * (w.val / 2) + w.val % 2 = w.val; omega)

/-- A family over the 32 workers, by SparseCore and subcore. -/
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

/-! ## The sixteen slices of the shared table -/

theorem shLen_le (s : Fin 16) : shLen s ≤ 64 := by unfold shLen; split <;> omega

theorem shSet_disjoint : ∀ i ∈ (Finset.univ : Finset (Fin 16)), ∀ j ∈ (Finset.univ : Finset (Fin 16)), i ≠ j → Disjoint (shSet i) (shSet j) :=
  fun i _ j _ h => by
    have hi := shLen_le i
    have hj := shLen_le j
    have hne : i.val ≠ j.val := fun e => h (Fin.ext e)
    refine Rect.unit_disjoint (0 : Fin 2) ?_
    show 64 * i.val + shLen i ≤ 64 * j.val ∨ 64 * j.val + shLen j ≤ 64 * i.val
    omega

/-- Row x₀ of the table lies in slice min (x₀ / 64) 15. -/
theorem shSet_cover : (Finset.univ : Finset (Fin 16)).biUnion shSet = Finset.univ := by
  ext x
  simp only [Finset.mem_biUnion, Finset.mem_univ, true_and, iff_true]
  have h0 : (x 0).val < 1000 := (x 0).isLt
  have h1 : (x 1).val < 128 := (x 1).isLt
  refine ⟨⟨min ((x 0).val / 64) 15, by omega⟩, Rect.mem_set_unit.mpr fun a => ?_⟩
  match a with
  | ⟨0, _⟩ =>
    show 64 * min ((x 0).val / 64) 15 ≤ (x 0).val ∧ (x 0).val < 64 * min ((x 0).val / 64) 15 + (if min ((x 0).val / 64) 15 < 15 then 64 else 40)
    split <;> omega
  | ⟨1, _⟩ => show 0 ≤ (x 1).val ∧ (x 1).val < 0 + 128; omega

/-- The shared table whole is its sixteen slices. -/
theorem shPts_slices (d : Dev nD) (c : Fin τ.nSC) (f : Buf (Elt F) (shLoc d c)) :
    (shLoc d c ↦{fullShare} f : sProp 𝕄) = bigSep Finset.univ fun s : Fin 16 => shSlicePts d c s f := by
  unfold shSlicePts
  rw [← pointsTo_biUnion Finset.univ (ℓ := shLoc d c) shSet shSet_disjoint, shSet_cover]; try rfl

/-! ## The value of the reshape -/

/-- The blocked result at the lookup's values, read in row-major order as [16384, 128], is the lookup: flat row i₀ is
    block i₀ / 512, piece i₀ / 64 % 8, row i₀ % 64 of the piece, and 512 (i₀ / 512) + 64 (i₀ / 64 % 8) + i₀ % 64 = i₀. -/
theorem reshape_Gblk (t : S16384.Idx → BitVec 32) (tab : S1000x128.Idx → Elt F .f32) (h : S32x8x64x128.ShapeCasts S16384x128) :
    shapeCast S16384x128 (Gblk (F := F) t tab) h = Cert.Spec.G t tab := by
  funext i
  have hi0 : (i 0).val < 16384 := (i 0).isLt
  have hi1 : (i 1).val < 128 := (i 1).isLt
  have hk : (S32x8x64x128.rowMajor (ValueIdx.ix4 (⟨(i 0).val / 512, by omega⟩ : Fin 32) (⟨(i 0).val / 64 % 8, by omega⟩ : Fin 8)
      (⟨(i 0).val % 64, by omega⟩ : Fin 64) (⟨(i 1).val, hi1⟩ : Fin 128))).val = (S16384x128.rowMajor i).val := by
    rw [Shape.rowMajor_val_four, Shape.rowMajor_val_two]
    show ((((i 0).val / 512) * 8 + (i 0).val / 64 % 8) * 64 + (i 0).val % 64) * 128 + (i 1).val = (i 0).val * 128 + (i 1).val
    omega
  have e : shapeCast S16384x128 (Gblk (F := F) t tab) h i = Gblk (F := F) t tab (ValueIdx.ix4 (⟨(i 0).val / 512, by omega⟩ : Fin 32)
      (⟨(i 0).val / 64 % 8, by omega⟩ : Fin 8) (⟨(i 0).val % 64, by omega⟩ : Fin 64) (⟨(i 1).val, hi1⟩ : Fin 128)) := by
    unfold shapeCast
    exact congrArg (Gblk (F := F) t tab) (Shape.reshapeEquiv_eq_of_rowMajor h hk)
  rw [e]
  show tab (ValueIdx.ix2 (Cert.Spec.rowOf t (⟨512 * ((i 0).val / 512) + 64 * ((i 0).val / 64 % 8) + (i 0).val % 64, _⟩ : Fin 16384)) (⟨(i 1).val, hi1⟩ : Fin 128))
      = tab (ValueIdx.ix2 (Cert.Spec.rowOf t (i 0)) (i 1))
  have e0 : (⟨512 * ((i 0).val / 512) + 64 * ((i 0).val / 64 % 8) + (i 0).val % 64, by omega⟩ : Fin 16384) = i 0 :=
    Fin.ext (by show 512 * ((i 0).val / 512) + 64 * ((i 0).val / 64 % 8) + (i 0).val % 64 = (i 0).val; omega)
  rw [e0]
  rfl

/-! ## Shares: splitting and rejoining are rewrites -/

theorem bigSep_sep3 {I : Type} (s : Finset I) (A B C : I → sProp 𝕄) :
    (bigSep s fun i => iprop(A i ∗ B i ∗ C i)) = iprop(bigSep s A ∗ bigSep s B ∗ bigSep s C) := by
  rw [bigSep_sep' s A (fun i => iprop(B i ∗ C i)), bigSep_sep' s B C]

/-- The whole of t and of the table is the two SparseCores' shares, -/
theorem inPts_cores (d : Dev nD) :
    (inPts m d fullShare : sProp 𝕄) = bigSep Finset.univ fun c : Fin 2 => inPts m d (qCore c) :=
  (congrArg₂ (fun a b : sProp 𝕄 => iprop(a ∗ b)) (pointsTo_piecesOf Finset.univ (m (tLoc d)) (o := 2) (by decide) fullShare)
    (pointsTo_piecesOf Finset.univ (m (eLoc d)) (o := 2) (by decide) fullShare)).trans (bigSep_sep' Finset.univ _ _).symm

/-- and a SparseCore's share is its sixteen subcores' shares. -/
theorem inPts_tiles (d : Dev nD) (c : Fin 2) :
    (inPts m d (qCore c) : sProp 𝕄) = bigSep Finset.univ fun s : Fin 16 => inPts m d (qTile c s) :=
  (congrArg₂ (fun a b : sProp 𝕄 => iprop(a ∗ b)) (pointsTo_piecesOf Finset.univ (m (tLoc d)) (o := 16) (by decide) (qCore c))
    (pointsTo_piecesOf Finset.univ (m (eLoc d)) (o := 16) (by decide) (qCore c))).trans (bigSep_sep' Finset.univ _ _).symm

/-- The shared table whole is sixteen equal shares of it. -/
theorem shPts_shares (d : Dev nD) (c : Fin τ.nSC) (f : Buf (Elt F) (shLoc d c)) :
    (shLoc d c ↦{fullShare} f : sProp 𝕄) = bigSep Finset.univ fun s : Fin 16 => shLoc d c ↦{qSh s} f :=
  pointsTo_piecesOf Finset.univ f (o := 16) (by decide) fullShare

/-! ## How a SparseCore's operands split among its subcores and come back -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(iprop(inPts m d (qCore (c2 c)) ∗ bigSep Finset.univ fun s : Fin 16 => oRowPts d (wid (c2 c) s) (m (oLoc d))) ∗ ownBufs (S d (coreOf c)))
    ⊢ |={Set.univ}=> iprop(
      (bigSep Finset.univ fun i : Fin ((K (F := F)).nSub 0) => iprop(inPts m d (qTile (c2 c) (Fin.cast nSub_zero i)) ∗ oRowPts d (wid (c2 c) (Fin.cast nSub_zero i)) (m (oLoc d))
        ∗ ∃ f, shSlicePts d (coreOf c) (Fin.cast nSub_zero i) f))
      ∗ ((bigSep Finset.univ fun i : Fin ((K (F := F)).nSub 0) => iprop(inPts m d (qTile (c2 c) (Fin.cast nSub_zero i)) ∗ oRowPts d (wid (c2 c) (Fin.cast nSub_zero i)) (GblkAt m d)
            ∗ shSharePts m d (coreOf c) (Fin.cast nSub_zero i)))
          -∗ iprop(iprop(inPts m d (qCore (c2 c)) ∗ bigSep Finset.univ fun s : Fin 16 => oRowPts d (wid (c2 c) s) (GblkAt m d)) ∗ ownBufs (S d (coreOf c)))))
  rw [bigSep_tasks (F := F) (fun s => iprop(inPts m d (qTile (c2 c) s) ∗ oRowPts d (wid (c2 c) s) (m (oLoc d)) ∗ ∃ f, shSlicePts d (coreOf c) s f)),
    bigSep_tasks (F := F) (fun s => iprop(inPts m d (qTile (c2 c) s) ∗ oRowPts d (wid (c2 c) s) (GblkAt m d) ∗ shSharePts m d (coreOf c) s)),
    bigSep_sep3 Finset.univ (fun s : Fin 16 => inPts m d (qTile (c2 c) s)) (fun s => oRowPts d (wid (c2 c) s) (m (oLoc d))) (fun s => iprop(∃ f, shSlicePts d (coreOf c) s f)),
    bigSep_sep3 Finset.univ (fun s : Fin 16 => inPts m d (qTile (c2 c) s)) (fun s => oRowPts d (wid (c2 c) s) (GblkAt m d)) (fun s => shSharePts m d (coreOf c) s),
    ← inPts_tiles, ownBufs_S]
  iintro ⟨⟨Hin, Ho⟩, ⟨%fsh, Hsh⟩, Hrest⟩; imodintro
  isplitl [Hin Ho Hsh]
  · isplitl [Hin]; · iexact Hin
    isplitl [Ho]; · iexact Ho
    ihave Hsh' := ((Entails.of_eq (shPts_slices d (coreOf c) fsh)).trans (SparseCore.ent (bigSep_mono (Φ := fun s => shSlicePts (F := F) d (coreOf c) s fsh)
      (Ψ := fun s => iprop(∃ f, shSlicePts (F := F) d (coreOf c) s f))
      fun s _ => BI.BIClass.exists_intro (Φ := fun f => shSlicePts (F := F) d (coreOf c) s f) fsh))) $$ Hsh
    iexact Hsh'
  iintro ⟨Hin, Ho, Hsh⟩
  isplitl [Hin Ho]
  · isplitl [Hin]; · iexact Hin
    iexact Ho
  isplitl [Hsh]
  · iexists tabSh m d (coreOf c)
    ihave H := (Entails.of_eq (shPts_shares d (coreOf c) (tabSh m d (coreOf c))).symm) $$ Hsh
    iexact H
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore i's token in subcore j's cell, for every pair of subcores of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each subcore the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One subcore's part of the barrier's resources out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each subcore its part. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## @main on the TensorCore -/

abbrev t' : DevRef τ sig := Proc.devRef .tc (main_arg0 : Ref sig .tc)
abbrev e' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
/-- The reshape of the blocked result to [16384, 128]. -/
abbrev opRe : HloOp τ sig (Elt F) := StableHlo.reshape main_v0 main_v1 rfl shapeCasts_S32x8x64x128_S16384x128

/-- The TensorCore's arrays, all unscoped: t, the table, the blocked result, the result. -/
abbrev S4 : Finset (DevRef τ sig) := {t', e', o', r'}

theorem held_S4 (d : Dev nD) (W : Valuation τ sig (Elt F)) :
    (held (T d) S4 W : sProp 𝕄)
      = iprop((tLoc d ↦{fullShare} W t') ∗ (eLoc d ↦{fullShare} W e') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((tLoc d ↦{fullShare} W main_arg0) ∗ (eLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation; after the call, the blocked result at the lookup's values. -/
def V0 (d : Dev nD) : Valuation τ sig (Elt F) := fun b => m (d, b)
def V1 (d : Dev nD) : Valuation τ sig (Elt F) := Function.update (V0 m d) o' (GblkAt m d)

theorem unscoped_held (d : Dev nD) : (unscopedBufs d (fun b => m ((SparseCore.T d).loc b)) : sProp 𝕄) = held (T d) S4 (V0 m d) := by
  rw [unscopedBufs_eq, held_S4]; rfl

theorem V1_t (d : Dev nD) : V1 m d t' = m (tLoc d) := Function.update_of_ne (show t' ≠ o' by decide) _ _
theorem V1_e (d : Dev nD) : V1 m d e' = m (eLoc d) := Function.update_of_ne (show e' ≠ o' by decide) _ _
theorem V1_o (d : Dev nD) : V1 m d o' = GblkAt m d := Function.update_self _ _ _
theorem V1_r (d : Dev nD) : V1 m d r' = V0 m d r' := Function.update_of_ne (show r' ≠ o' by decide) _ _

theorem hRe : (opRe (F := F)).bufs ⊆ S4 := show ({o', r'} : Finset (DevRef τ sig)) ⊆ S4 by decide

/-- What the reshape leaves in the result: the lookup. -/
theorem result_r (d : Dev nD) :
    (opRe (F := F)).result (V1 m d) r' = (Cert.Spec.G (m (tLoc d)) (m (eLoc d)) : Buf (Elt F) (rLoc d)) := by
  refine (StableHlo.reshape_result main_v0 main_v1 rfl shapeCasts_S32x8x64x128_S16384x128 ⟨by decide, rfl⟩ ⟨by decide, rfl⟩ (V1 m d)).trans ?_
  show (fun i => shapeCast S16384x128 (V1 m d o') shapeCasts_S32x8x64x128_S16384x128 i) = _
  rw [V1_o]
  exact reshape_Gblk (m (tLoc d)) (m (eLoc d)) shapeCasts_S32x8x64x128_S16384x128

theorem held_V2 (d : Dev nD) :
    (held (T d) S4 ((opRe (F := F)).result (V1 m d)) : sProp 𝕄)
      = iprop((tLoc d ↦{fullShare} m (tLoc d)) ∗ (eLoc d ↦{fullShare} m (eLoc d)) ∗ (oLoc d ↦{fullShare} GblkAt m d)
          ∗ rLoc d ↦{fullShare} (Cert.Spec.G (m (tLoc d)) (m (eLoc d)) : Buf (Elt F) (rLoc d))) := by
  rw [held_S4, (opRe (F := F)).result_of_not_mem (V1 m d) (b := t') (show t' ∉ ({r'} : Finset (DevRef τ sig)) by decide),
    (opRe (F := F)).result_of_not_mem (V1 m d) (b := e') (show e' ∉ ({r'} : Finset (DevRef τ sig)) by decide),
    (opRe (F := F)).result_of_not_mem (V1 m d) (b := o') (show o' ∉ ({r'} : Finset (DevRef τ sig)) by decide),
    result_r, V1_t, V1_e, V1_o]

/-- The two SparseCores' operands are t and the table whole and the blocked result whole. -/
theorem cores_eq (d : Dev nD) (f : Buf (Elt F) (oLoc d)) :
    (bigSep Finset.univ fun c : Fin ((K (F := F)).nCore 0) =>
        iprop(inPts m d (qCore (Fin.cast nCore_zero c)) ∗ bigSep Finset.univ fun s : Fin 16 => oRowPts d (wid (Fin.cast nCore_zero c) s) f))
      = iprop(inPts m d fullShare ∗ oLoc d ↦{fullShare} f) := by
  rw [bigSep_cores (F := F) (fun c => iprop(inPts m d (qCore c) ∗ bigSep Finset.univ fun s : Fin 16 => oRowPts d (wid c s) f)),
    bigSep_sep' Finset.univ (fun c : Fin 2 => inPts m d (qCore c)) (fun c => bigSep Finset.univ fun s : Fin 16 => oRowPts d (wid c s) f),
    ← inPts_cores, ← bigSep_wid (fun w => oRowPts d w f), ← oPts_rows]

theorem st0_eq (d : Dev nD) : (bigSep Finset.univ fun c : Fin ((K (F := F)).nCore 0) => (P m).st 0 d c)
    = iprop(inPts m d fullShare ∗ oLoc d ↦{fullShare} m (oLoc d)) := cores_eq m d (m (oLoc d))
theorem dn0_eq (d : Dev nD) : (bigSep Finset.univ fun c : Fin ((K (F := F)).nCore 0) => (P m).dn 0 d c)
    = iprop(inPts m d fullShare ∗ oLoc d ↦{fullShare} GblkAt m d) := cores_eq m d (GblkAt m d)

/-- What @main leaves the claim: t and the table at their launch contents, the result at the lookup. -/
abbrev FIN (d : Dev nD) : sProp 𝕄 :=
  iprop((tLoc d ↦{fullShare} m (tLoc d)) ∗ (eLoc d ↦{fullShare} m (eLoc d))
    ∗ rLoc d ↦{fullShare} (Cert.Spec.G (m (tLoc d)) (m (eLoc d)) : Buf (Elt F) (rLoc d)))

/-- @main on device d's TensorCore: the call, from t, the table and the blocked result; then the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  ihave Hh := (Entails.of_eq (held_S4 (F := F) d _)) $$ Hheld
  icases Hh with ⟨Ht, He, Ho, Hr⟩
  iapply ((K (F := F)).wp_run (D (F := F)) 𝒱 (EH := EH) (P := P m) κ d 0) $$ [Hst Ht He Ho Hb Hr]
  isplitr; · iexact Hctx
  isplitl [Hst]; · iexact Hst
  isplitl [Ht He Ho]
  · rw [st0_eq]
    isplitl [Ht He]
    · isplitl [Ht]; · iexact Ht
      iexact He
    · iexact Ho
  iintro ⟨Hst, Hdn⟩
  ihave Hdn' := (Entails.of_eq (dn0_eq m d)) $$ Hdn
  icases Hdn' with ⟨⟨Ht, He⟩, Ho⟩
  iapply (wp_hlo_within 𝒱 (SparseCore.T d) none Set.univ (op := opRe) (S := S4) hRe (V := V1 m d)) $$ [Hb Ht He Ho Hr]
  · isplitl [Hb]; · iexact Hb
    rw [held_S4, V1_t, V1_e, V1_o, V1_r]
    isplitl [Ht]; · iexact Ht
    isplitl [He]; · iexact He
    isplitl [Ho]; · iexact Ho
    iexact Hr
  iintro ⟨Hb, Hheld⟩
  ihave Hh := (Entails.of_eq (held_V2 (F := F) m d)) $$ Hheld
  icases Hh with ⟨Ht, He, -, Hr⟩
  rw [wp_ret]; imodintro; imodintro
  isplitl [Hst]; · iexact Hst
  isplitl [Ht]; · iexact Ht
  isplitl [He]; · iexact He
  iexact Hr

/-! ## Reading the claim off the final memory -/

def fq (d : Dev nD) (s' : Phys nD τ sig (Elt F)) : Prop :=
  s'.mem.mem (rLoc d) = (Cert.Spec.G (m (tLoc d)) (m (eLoc d)) : Buf (Elt F) (rLoc d)) ∧ s'.mem.mem (tLoc d) = m (tLoc d) ∧ s'.mem.mem (eLoc d) = m (eLoc d)

theorem hfin (d : Dev nD) (s' : Phys nD τ sig (Elt F)) : iprop(FIN m d ∗ SI s') ⊢ (⌜fq m d s'⌝ : sProp 𝕄) := by
  iintro ⟨⟨Ht, He, Hr⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := rLoc d) (I := Finset.univ) (q := fullShare)
    (f := (Cert.Spec.G (m (tLoc d)) (m (eLoc d)) : Buf (Elt F) (rLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (rLoc c) = (Cert.Spec.G (m (tLoc c)) (m (eLoc c)) : Buf (Elt F) (rLoc c)) ∧ r.2.mem (tLoc c) = m (tLoc c) ∧ r.2.mem (eLoc c) = m (eLoc c)

/-- The program's run: every weakly fair execution ends, nothing faults, the result is the lookup, t and the table are unchanged. -/
theorem run_main [∀ e, Nonempty (Elt F e)] (hobl : (K (F := F)).TileObl (D (F := F)) 𝒱 (P m) v₀ 0) :
    θ_run (Cert.Kernel.defs (F := F)) (Cert.Kernel.threads (F := F)) ⟨m, fun _ => 0, ρ⟩
      (fun r => ∀ c : Dev nD, r.2.mem (rLoc c) = (Cert.Spec.G (m (tLoc c)) (m (eLoc c)) : Buf (Elt F) (rLoc c))
        ∧ r.2.mem (tLoc c) = m (tLoc c) ∧ r.2.mem (eLoc c) = m (eLoc c)) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => vecSplit m)
    m ρ main (fun _ => iprop(emp)) (FIN m) (u₀ (F := F)) (hu₀ m) (hmain m ρ) (fq m) (hfin m) (QC m) (fun _ h => h)

end Cert.Proof.KernelRun

end
-- ==== Proof.Assemble.lean ====
/- The five claims, from the runs.

   The kernel's run (on the two SparseCores, then the reshape) ends with the result at the lookup of Spec and with t and
   the table unchanged, at either float instance, once each vector subcore's task is proved; the reference's run ends with
   its result at the same lookup. So: each frame is its run with the value dropped; at the ideal instance, from memories
   that agree on t and the table, both results are the one lookup of the one pair of arguments; and the ideal pass
   rewrote nothing. The row numbers are below 1000 by the precondition. The two task obligations are hypotheses here. -/
import proofs.«219841_g10136122819095_week1_w1_367_25_alg».proof.Defs
import proofs.«219841_g10136122819095_week1_w1_367_25_alg».proof.Proof.RefRun
import proofs.«219841_g10136122819095_week1_w1_367_25_alg».proof.Proof.IdealLaunch
import proofs.«219841_g10136122819095_week1_w1_367_25_alg».proof.Proof.BitsLaunch

noncomputable section

namespace Cert.Proof.Assemble

open Idealize.ShloMosaic Idealize.SL.Sem

/-- The word-level program's frame: its run with the value dropped. -/
theorem frame_k
    (hB : ∀ m : (ℓ : Loc Cert.Kernel.nD Cert.Kernel.τ Cert.Kernel.sig) → Buf (Elt Bits) ℓ,
      (∀ (d : Dev Cert.Kernel.nD) (x : Cert.Kernel.S16384.Idx), (m (KernelRun.tLoc d) x).toNat < 1000) →
      (KernelRun.K (F := Bits)).TileObl (KernelRun.D (F := Bits)) KernelRun.𝒱 (KernelRun.P m) KernelRun.v₀ 0) :
    Cert.frame_Kernel := fun m g hpre =>
  (θ_run Cert.Kernel.defs _ _).mono (fun _ h c => (h c).2)
    (KernelRun.run_main (F := Bits) m g (hB m fun d x => RefRun.t_lt_of_pre (F := Bits) _ _ (hpre d) x))

/-- The idealized program's frame: its run with the value dropped. -/
theorem frame_ki
    (hI : ∀ m : (ℓ : Loc Cert.KernelIdeal.nD Cert.KernelIdeal.τ Cert.KernelIdeal.sig) → Buf (Elt Ideal) ℓ,
      (∀ (d : Dev Cert.KernelIdeal.nD) (x : Cert.KernelIdeal.S16384.Idx), (m (KernelIdealRun.tLoc d) x).toNat < 1000) →
      (KernelIdealRun.K (F := Ideal)).TileObl (KernelIdealRun.D (F := Ideal)) KernelIdealRun.𝒱 (KernelIdealRun.P m) KernelIdealRun.v₀ 0) :
    Cert.frame_KernelIdeal := fun m g hpre =>
  (θ_run Cert.KernelIdeal.defs _ _).mono (fun _ h c => (h c).2)
    (KernelIdealRun.run_main (F := Ideal) m g (hI m fun d x => RefRun.t_lt_of_pre (F := Ideal) _ _ (hpre d) x))

/-- The reference's frame: its run with the value dropped. -/
theorem frame_ri : Cert.frame_ReferenceIdeal := fun m g hpre =>
  (θ_run Cert.ReferenceIdeal.defs _ _).mono (fun _ h c => (h c).2) (RefRun.run m g hpre)

/-- The ideal pass rewrote no operation. -/
theorem preserves : Cert.preserves_Kernel_KernelIdeal := trivial

/-- At the ideal instance, from memories that agree on t and the table, both programs end with the lookup of the one
    pair of arguments, and leave the arguments unchanged. -/
theorem algebraic
    (hI : ∀ m : (ℓ : Loc Cert.KernelIdeal.nD Cert.KernelIdeal.τ Cert.KernelIdeal.sig) → Buf (Elt Ideal) ℓ,
      (∀ (d : Dev Cert.KernelIdeal.nD) (x : Cert.KernelIdeal.S16384.Idx), (m (KernelIdealRun.tLoc d) x).toNat < 1000) →
      (KernelIdealRun.K (F := Ideal)).TileObl (KernelIdealRun.D (F := Ideal)) KernelIdealRun.𝒱 (KernelIdealRun.P m) KernelIdealRun.v₀ 0) :
    Cert.algebraic_KernelIdeal_ReferenceIdeal := by
  intro m g m' g' hpre hagree
  have hpre' : Cert.Pre_ReferenceIdeal (hPre_input_domain := Cert.Pre_input_domain.Gen.facts) m' := fun c =>
    (congrArg₂ (Cert.Pre_input_domain.fn (F := Ideal)) (hagree c).1 (hagree c).2).trans (hpre c)
  refine ⟨fun c => (Cert.Spec.G (m (KernelIdealRun.tLoc c)) (m (KernelIdealRun.eLoc c)) : Buf (Elt Ideal) (KernelIdealRun.rLoc c)), ?_, ?_⟩
  · exact (θ_run Cert.KernelIdeal.defs _ _).mono (fun _ h c => h c)
      (KernelIdealRun.run_main (F := Ideal) m g (hI m fun d x => RefRun.t_lt_of_pre (F := Ideal) _ _ (hpre d) x))
  · exact (θ_run Cert.ReferenceIdeal.defs _ _).mono
      (fun _ h c => ⟨(h c).1.trans (congrArg₂ (Cert.Spec.G (α := Elt Ideal .f32)) (hagree c).1 (hagree c).2), (h c).2⟩)
      (RefRun.run m' g' hpre')

/-- The certificate's claim, from the two task obligations. -/
theorem claim_of
    (hI : ∀ m : (ℓ : Loc Cert.KernelIdeal.nD Cert.KernelIdeal.τ Cert.KernelIdeal.sig) → Buf (Elt Ideal) ℓ,
      (∀ (d : Dev Cert.KernelIdeal.nD) (x : Cert.KernelIdeal.S16384.Idx), (m (KernelIdealRun.tLoc d) x).toNat < 1000) →
      (KernelIdealRun.K (F := Ideal)).TileObl (KernelIdealRun.D (F := Ideal)) KernelIdealRun.𝒱 (KernelIdealRun.P m) KernelIdealRun.v₀ 0)
    (hB : ∀ m : (ℓ : Loc Cert.Kernel.nD Cert.Kernel.τ Cert.Kernel.sig) → Buf (Elt Bits) ℓ,
      (∀ (d : Dev Cert.Kernel.nD) (x : Cert.Kernel.S16384.Idx), (m (KernelRun.tLoc d) x).toNat < 1000) →
      (KernelRun.K (F := Bits)).TileObl (KernelRun.D (F := Bits)) KernelRun.𝒱 (KernelRun.P m) KernelRun.v₀ 0) :
    Cert.Claim :=
  ⟨Cert.Kernel.Gen.facts, Cert.KernelIdeal.Gen.facts, Cert.ReferenceIdeal.Gen.facts, Cert.Pre_input_domain.Gen.facts,
    frame_k hB, frame_ki hI, frame_ri, preserves, algebraic hI⟩

end Cert.Proof.Assemble

end
-- ==== Proof.IdealGeom.lean ====
/- The geometry and the value of one vector subcore's task.

   Subcore (c, s) is worker w = 2 s + c. Its list of 512 row numbers is cut into eight pieces of 64; piece j names the rows
   gathered into block j of its staging array [8, 64, 128], and block j is copied out to block (w, j) of the result
   [32, 8, 64, 128]. This file says where each of these windows sits in its buffer (an index of the window, as an index of
   the buffer), which elements of the buffer each window covers, that the eight result windows of a worker are disjoint
   and together are the worker's rows, and that what piece j gathers is the lookup's values on result window (w, j). -/
import proofs.«219841_g10136122819095_week1_w1_367_25_alg».proof.Proof.IdealCells
import Idealize.ShloMosaic.Lib.ValueLayout
import Idealize.ShloMosaic.Lib.ValueIdx

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The windows -/

omit [FloatOps F] in
theorem g_inb (j : Fin 8) : ∀ a, (![j.val, 0, 0] : Fin 3 → Nat) a + S1x64x128.size a ≤ S8x64x128.size a := by
  have := j.isLt
  intro a
  match a with
  | ⟨0, _⟩ => show j.val + 1 ≤ 8; omega
  | ⟨1, _⟩ => show 0 + 64 ≤ 64; omega
  | ⟨2, _⟩ => show 0 + 128 ≤ 128; omega

omit [FloatOps F] in
theorem i_inb (j : Fin 8) : ∀ a, (![64 * j.val] : Fin 1 → Nat) a + S64.size a ≤ S512.size a := by
  have := j.isLt
  intro a
  match a with
  | ⟨0, _⟩ => show 64 * j.val + 64 ≤ 512; omega

/-- Block j of the staging array, as a matrix of 64 rows. -/
abbrev gKg (j : Fin 8) : Memref sig .scVector .vmem S64x128 .f32 :=
  (gV.slice (Rect.unit (s := S8x64x128) ![j.val, 0, 0] S1x64x128.size (g_inb j)) (fun _ => rfl)).squeeze S64x128 squeezes_S1x64x128_S64x128
/-- Piece j of the list of row numbers. -/
abbrev iKg (j : Fin 8) : Memref sig .scVector .vmem S64 .i32 :=
  iV.slice (Rect.unit (s := S512) ![64 * j.val] S64.size (i_inb j)) (fun _ => rfl)
/-- The worker's rows of the result, as an array [8, 64, 128]. -/
abbrev oRowK (L : grid0.Coords) : Memref sig .scVector .hbm S8x64x128 .f32 :=
  (oV.slice (Rect.unit (s := S32x8x64x128) (k0_off3 L) S1x8x64x128.size (k0_off3_inb L)) (fun _ => rfl)).squeeze S8x64x128 squeezes_S1x8x64x128_S8x64x128
/-- Block j of the worker's rows of the result, as a matrix of 64 rows. -/
abbrev oKg (L : grid0.Coords) (j : Fin 8) : Memref sig .scVector .hbm S64x128 .f32 :=
  ((oRowK L).slice (Rect.unit (s := S8x64x128) ![j.val, 0, 0] S1x64x128.size (g_inb j)) (fun _ => rfl)).squeeze S64x128 squeezes_S1x64x128_S64x128
/-- The worker's 512 row numbers. -/
abbrev tK (L : grid0.Coords) : Memref sig .scVector .hbm S512 .i32 :=
  tV.slice (Rect.unit (s := S16384) (k0_off1 L) S512.size (k0_off1_inb L)) (fun _ => rfl)
/-- The shared copy of the table, whole. -/
abbrev shAll : Memref sig .scVector .shared S1000x128 .f32 :=
  shV.slice (Rect.unit (s := S1000x128) ![0, 0] S1000x128.size inb_S1000x128_S1000x128_0_0) (fun _ => rfl)

/-- The subcore's coordinates, and its worker number. -/
abbrev cL (L : grid0.Coords) : Fin 2 := Fin.cast rfl (L 0)
abbrev jL (L : grid0.Coords) : Fin 16 := Fin.cast rfl (L 1)

/-! These are the program's own windows. -/

example : gKg 0 = (gV.slice (Rect.unit (s := S8x64x128) ![0, 0, 0] S1x64x128.size inb_S8x64x128_S1x64x128_0_0_0) (fun _ => rfl)).squeeze S64x128 squeezes_S1x64x128_S64x128 := rfl
example : gKg 1 = (gV.slice (Rect.unit (s := S8x64x128) ![1, 0, 0] S1x64x128.size inb_S8x64x128_S1x64x128_1_0_0) (fun _ => rfl)).squeeze S64x128 squeezes_S1x64x128_S64x128 := rfl
example : gKg 2 = (gV.slice (Rect.unit (s := S8x64x128) ![2, 0, 0] S1x64x128.size inb_S8x64x128_S1x64x128_2_0_0) (fun _ => rfl)).squeeze S64x128 squeezes_S1x64x128_S64x128 := rfl
example : gKg 3 = (gV.slice (Rect.unit (s := S8x64x128) ![3, 0, 0] S1x64x128.size inb_S8x64x128_S1x64x128_3_0_0) (fun _ => rfl)).squeeze S64x128 squeezes_S1x64x128_S64x128 := rfl
example : gKg 4 = (gV.slice (Rect.unit (s := S8x64x128) ![4, 0, 0] S1x64x128.size inb_S8x64x128_S1x64x128_4_0_0) (fun _ => rfl)).squeeze S64x128 squeezes_S1x64x128_S64x128 := rfl
example : gKg 5 = (gV.slice (Rect.unit (s := S8x64x128) ![5, 0, 0] S1x64x128.size inb_S8x64x128_S1x64x128_5_0_0) (fun _ => rfl)).squeeze S64x128 squeezes_S1x64x128_S64x128 := rfl
example : gKg 6 = (gV.slice (Rect.unit (s := S8x64x128) ![6, 0, 0] S1x64x128.size inb_S8x64x128_S1x64x128_6_0_0) (fun _ => rfl)).squeeze S64x128 squeezes_S1x64x128_S64x128 := rfl
example : gKg 7 = (gV.slice (Rect.unit (s := S8x64x128) ![7, 0, 0] S1x64x128.size inb_S8x64x128_S1x64x128_7_0_0) (fun _ => rfl)).squeeze S64x128 squeezes_S1x64x128_S64x128 := rfl
example : iKg 0 = iV.slice (Rect.unit (s := S512) ![0] S64.size inb_S512_S64_0) (fun _ => rfl) := rfl
example : iKg 1 = iV.slice (Rect.unit (s := S512) ![64] S64.size inb_S512_S64_64) (fun _ => rfl) := rfl
example : iKg 2 = iV.slice (Rect.unit (s := S512) ![128] S64.size inb_S512_S64_128) (fun _ => rfl) := rfl
example : iKg 3 = iV.slice (Rect.unit (s := S512) ![192] S64.size inb_S512_S64_192) (fun _ => rfl) := rfl
example : iKg 4 = iV.slice (Rect.unit (s := S512) ![256] S64.size inb_S512_S64_256) (fun _ => rfl) := rfl
example : iKg 5 = iV.slice (Rect.unit (s := S512) ![320] S64.size inb_S512_S64_320) (fun _ => rfl) := rfl
example : iKg 6 = iV.slice (Rect.unit (s := S512) ![384] S64.size inb_S512_S64_384) (fun _ => rfl) := rfl
example : iKg 7 = iV.slice (Rect.unit (s := S512) ![448] S64.size inb_S512_S64_448) (fun _ => rfl) := rfl
example (L : grid0.Coords) : oKg L 0 = ((oRowK L).slice (Rect.unit (s := S8x64x128) ![0, 0, 0] S1x64x128.size inb_S8x64x128_S1x64x128_0_0_0) (fun _ => rfl)).squeeze S64x128 squeezes_S1x64x128_S64x128 := rfl
example (L : grid0.Coords) : oKg L 1 = ((oRowK L).slice (Rect.unit (s := S8x64x128) ![1, 0, 0] S1x64x128.size inb_S8x64x128_S1x64x128_1_0_0) (fun _ => rfl)).squeeze S64x128 squeezes_S1x64x128_S64x128 := rfl
example (L : grid0.Coords) : oKg L 2 = ((oRowK L).slice (Rect.unit (s := S8x64x128) ![2, 0, 0] S1x64x128.size inb_S8x64x128_S1x64x128_2_0_0) (fun _ => rfl)).squeeze S64x128 squeezes_S1x64x128_S64x128 := rfl
example (L : grid0.Coords) : oKg L 3 = ((oRowK L).slice (Rect.unit (s := S8x64x128) ![3, 0, 0] S1x64x128.size inb_S8x64x128_S1x64x128_3_0_0) (fun _ => rfl)).squeeze S64x128 squeezes_S1x64x128_S64x128 := rfl
example (L : grid0.Coords) : oKg L 4 = ((oRowK L).slice (Rect.unit (s := S8x64x128) ![4, 0, 0] S1x64x128.size inb_S8x64x128_S1x64x128_4_0_0) (fun _ => rfl)).squeeze S64x128 squeezes_S1x64x128_S64x128 := rfl
example (L : grid0.Coords) : oKg L 5 = ((oRowK L).slice (Rect.unit (s := S8x64x128) ![5, 0, 0] S1x64x128.size inb_S8x64x128_S1x64x128_5_0_0) (fun _ => rfl)).squeeze S64x128 squeezes_S1x64x128_S64x128 := rfl
example (L : grid0.Coords) : oKg L 6 = ((oRowK L).slice (Rect.unit (s := S8x64x128) ![6, 0, 0] S1x64x128.size inb_S8x64x128_S1x64x128_6_0_0) (fun _ => rfl)).squeeze S64x128 squeezes_S1x64x128_S64x128 := rfl
example (L : grid0.Coords) : oKg L 7 = ((oRowK L).slice (Rect.unit (s := S8x64x128) ![7, 0, 0] S1x64x128.size inb_S8x64x128_S1x64x128_7_0_0) (fun _ => rfl)).squeeze S64x128 squeezes_S1x64x128_S64x128 := rfl

/-! ## Where a window's index sits in its buffer -/

omit [FloatOps F] in
theorem L0_lt (L : grid0.Coords) : (L 0).val < 2 := (L 0).isLt
omit [FloatOps F] in
theorem L1_lt (L : grid0.Coords) : (L 1).val < 16 := (L 1).isLt

omit [FloatOps F] in
/-- The block-j rectangle of an array [8, 64, 128] puts (0, r, k) at (j, r, k). -/
theorem g_rect_emb (j : Fin 8) (r : Fin 64) (k : Fin 128) :
    (Rect.unit (s := S8x64x128) ![j.val, 0, 0] S1x64x128.size (g_inb j)).emb (ix3 (⟨0, Nat.one_pos⟩ : Fin 1) r k) = ix3 j r k := by
  funext a; refine Fin.ext ?_
  match a with
  | ⟨0, _⟩ => show j.val + 1 * 0 = j.val; omega
  | ⟨1, _⟩ => show 0 + 1 * r.val = r.val; omega
  | ⟨2, _⟩ => show 0 + 1 * k.val = k.val; omega

omit [FloatOps F] in
/-- Element (r, k) of staging block j is element (j, r, k) of the staging array. -/
theorem gK_emb (j : Fin 8) (r : Fin 64) (k : Fin 128) : ((gKg j).view.emb (ix2 r k) : S8x64x128.Idx) = ix3 j r k :=
  (congrArg (Rect.unit (s := S8x64x128) ![j.val, 0, 0] S1x64x128.size (g_inb j)).emb
    (reshapeEquiv_ix2_1ab squeezes_S1x64x128_S64x128.numel_eq r k)).trans (g_rect_emb j r k)

omit [FloatOps F] in
/-- Word r of piece j of the list is word 64 j + r of the list. -/
theorem iK_emb (j : Fin 8) (r : Fin 64) :
    ((iKg j).view.emb (ix1 r) : S512.Idx) = ix1 ⟨64 * j.val + r.val, by have := j.isLt; have := r.isLt; omega⟩ := by
  funext a; refine Fin.ext ?_
  match a with
  | ⟨0, _⟩ => show 64 * j.val + 1 * r.val = 64 * j.val + r.val; omega

omit [FloatOps F] in
/-- Word z of the worker's row numbers is word 1024 s + 512 c + z of t. -/
theorem tK_emb (L : grid0.Coords) (z : Fin 512) :
    ((tK L).view.emb (ix1 z) : S16384.Idx)
      = ix1 ⟨1024 * (L 1).val + 512 * (L 0).val + z.val, by have := L0_lt L; have := L1_lt L; have := z.isLt; omega⟩ := by
  funext a; refine Fin.ext ?_
  match a with
  | ⟨0, _⟩ =>
    show k0_off1 L 0 + 1 * z.val = 1024 * (L 1).val + 512 * (L 0).val + z.val
    rw [k0_off1_eq L]
    show 1024 * (L 1).val + 512 * (L 0).val + 1 * z.val = _
    omega

omit [FloatOps F] in
/-- Element (r, k) of result block (w, j) is element (w, j, r, k) of the result. -/
theorem oK_emb (L : grid0.Coords) (j : Fin 8) (r : Fin 64) (k : Fin 128) :
    ((oKg L j).view.emb (ix2 r k) : S32x8x64x128.Idx) = ix4 (wid (cL L) (jL L)) j r k := by
  have h1 : ((oKg L j).view.emb (ix2 r k) : S32x8x64x128.Idx)
      = (Rect.unit (s := S32x8x64x128) (k0_off3 L) S1x8x64x128.size (k0_off3_inb L)).emb
          (Shape.reshapeEquiv squeezes_S1x8x64x128_S8x64x128.numel_eq
            ((Rect.unit (s := S8x64x128) ![j.val, 0, 0] S1x64x128.size (g_inb j)).emb
              (Shape.reshapeEquiv squeezes_S1x64x128_S64x128.numel_eq (ix2 r k)))) := rfl
  rw [h1, reshapeEquiv_ix2_1ab squeezes_S1x64x128_S64x128.numel_eq r k, g_rect_emb j r k,
    reshapeEquiv_ix3_1abc squeezes_S1x8x64x128_S8x64x128.numel_eq j r k]
  funext a; refine Fin.ext ?_
  match a with
  | ⟨0, _⟩ =>
    show k0_off3 L 0 + 1 * 0 = 2 * (L 1).val + (L 0).val
    rw [k0_off3_eq L]; show 2 * (L 1).val + (L 0).val + 1 * 0 = _; omega
  | ⟨1, _⟩ =>
    show k0_off3 L 1 + 1 * j.val = j.val
    rw [k0_off3_eq L]; show 0 + 1 * j.val = _; omega
  | ⟨2, _⟩ =>
    show k0_off3 L 2 + 1 * r.val = r.val
    rw [k0_off3_eq L]; show 0 + 1 * r.val = _; omega
  | ⟨3, _⟩ =>
    show k0_off3 L 3 + 1 * k.val = k.val
    rw [k0_off3_eq L]; show 0 + 1 * k.val = _; omega

/-! ## Which elements a window covers -/

omit [FloatOps F] in
/-- Staging block j is the elements whose first coordinate is j. -/
theorem mem_gK (j : Fin 8) (x : S8x64x128.Idx) : x ∈ (gKg j).view.set ↔ x 0 = j := by
  obtain ⟨a, b, c, rfl⟩ : ∃ (a : Fin 8) (b : Fin 64) (c : Fin 128), x = ix3 a b c := ⟨x 0, x 1, x 2, eq_ix3 x⟩
  show ix3 a b c ∈ Finset.univ.map (gKg j).view.emb ↔ a = j
  rw [Finset.mem_map]
  constructor
  · rintro ⟨p, -, hp⟩
    obtain ⟨r, k, rfl⟩ : ∃ (r : Fin 64) (k : Fin 128), p = ix2 r k := ⟨p 0, p 1, eq_ix2 p⟩
    have h := (gK_emb j r k).symm.trans hp
    exact (congrFun h 0).symm
  · rintro rfl
    exact ⟨ix2 b c, Finset.mem_univ _, gK_emb a b c⟩

omit [FloatOps F] in
/-- Result block (w, j) is the elements whose first two coordinates are w and j. -/
theorem mem_oK (L : grid0.Coords) (j : Fin 8) (x : S32x8x64x128.Idx) :
    x ∈ (oKg L j).view.set ↔ (x 0 = wid (cL L) (jL L) ∧ x 1 = j) := by
  obtain ⟨a, b, c, e, rfl⟩ : ∃ (a : Fin 32) (b : Fin 8) (c : Fin 64) (e : Fin 128), x = ix4 a b c e := ⟨x 0, x 1, x 2, x 3, eq_ix4 x⟩
  show ix4 a b c e ∈ Finset.univ.map (oKg L j).view.emb ↔ (a = wid (cL L) (jL L) ∧ b = j)
  rw [Finset.mem_map]
  constructor
  · rintro ⟨p, -, hp⟩
    obtain ⟨r, k, rfl⟩ : ∃ (r : Fin 64) (k : Fin 128), p = ix2 r k := ⟨p 0, p 1, eq_ix2 p⟩
    have h := (oK_emb L j r k).symm.trans hp
    exact ⟨(congrFun h 0).symm, (congrFun h 1).symm⟩
  · rintro ⟨rfl, rfl⟩
    exact ⟨ix2 c e, Finset.mem_univ _, oK_emb L b c e⟩

omit [FloatOps F] in
/-- Rows w of the result are the elements whose first coordinate is w. -/
theorem mem_oRowSet (w : Fin 32) (x : S32x8x64x128.Idx) : x ∈ oRowSet w ↔ x 0 = w := by
  show x ∈ ((oV).view.slice (orow w)).set ↔ _
  rw [View.set_slice_whole, Rect.mem_set_unit]
  have h0 : (x 0).val < 32 := (x 0).isLt
  have h1 : (x 1).val < 8 := (x 1).isLt
  have h2 : (x 2).val < 64 := (x 2).isLt
  have h3 : (x 3).val < 128 := (x 3).isLt
  constructor
  · intro h
    have := h 0
    refine Fin.ext ?_
    have e1 : S32x8x64x128.partIx 0 w.val 0 = w.val := rfl
    have e2 : S32x8x64x128.partSize 0 32 0 = 1 := rfl
    rw [e1, e2] at this
    omega
  · intro h a
    match a with
    | ⟨0, _⟩ =>
      show w.val * 1 ≤ (x 0).val ∧ (x 0).val < w.val * 1 + 1
      rw [h]; omega
    | ⟨1, _⟩ => show 0 * 8 ≤ (x 1).val ∧ (x 1).val < 0 * 8 + 8; omega
    | ⟨2, _⟩ => show 0 * 64 ≤ (x 2).val ∧ (x 2).val < 0 * 64 + 64; omega
    | ⟨3, _⟩ => show 0 * 128 ≤ (x 3).val ∧ (x 3).val < 0 * 128 + 128; omega

omit [FloatOps F] in
/-- A worker's eight result blocks are pairwise disjoint, -/
theorem oK_disjoint (L : grid0.Coords) :
    ∀ i ∈ (Finset.univ : Finset (Fin 8)), ∀ j ∈ (Finset.univ : Finset (Fin 8)), i ≠ j →
      Disjoint ((oKg L i).view.set) ((oKg L j).view.set) := by
  intro i _ j _ hij
  rw [Finset.disjoint_left]
  intro x hi hj
  exact hij (((mem_oK L i x).1 hi).2.symm.trans ((mem_oK L j x).1 hj).2)

omit [FloatOps F] in
/-- and together they are the worker's rows. -/
theorem oK_cover (L : grid0.Coords) :
    (Finset.univ : Finset (Fin 8)).biUnion (fun j => (oKg L j).view.set) = oRowSet (wid (cL L) (jL L)) := by
  ext x
  rw [Finset.mem_biUnion, mem_oRowSet]
  constructor
  · rintro ⟨j, -, hj⟩
    exact ((mem_oK L j x).1 hj).1
  · intro h
    exact ⟨x 1, Finset.mem_univ _, (mem_oK L (x 1) x).2 ⟨h, rfl⟩⟩

/-- Holding a worker's rows of the result is holding its eight blocks. -/
theorem oRow_split (d : Dev nD) (L : grid0.Coords) (f : Buf (Elt F) (oLoc d)) :
    (oRowPts d (wid (cL L) (jL L)) f : sProp 𝕄)
      = bigSep Finset.univ fun j : Fin 8 =>
          (oKg L j).view.loc (V d ((L 0).castLE hcore0) ((L 1).castLE hsub0)) ↦[(oKg L j).view.set]{fullShare} f := by
  show (oLoc d ↦[oRowSet (wid (cL L) (jL L))]{fullShare} f : sProp 𝕄) = _
  rw [← oK_cover L, pointsTo_biUnion _ _ (oK_disjoint L)]

/-! ## The value of one gather -/

section Value

variable (d : Dev nD) (L : grid0.Coords)

/-- The worker's row numbers read t from word 1024 s + 512 c on. -/
theorem tK_read (z : Fin 512) :
    (tK L).view.read (Elt F) (m (tLoc d)) (ix1 z)
      = m (tLoc d) (ix1 ⟨1024 * (L 1).val + 512 * (L 0).val + z.val, by have := L0_lt L; have := L1_lt L; have := z.isLt; omega⟩) :=
  congrArg (m (tLoc d)) (tK_emb L z)

/-- Word r of piece j of the list, once the worker's row numbers have landed in the list, is word 512 w + 64 j + r of t. -/
theorem list_read (j : Fin 8) (r : Fin 64) (fi : (iV).view.ty.Contents (Elt F)) :
    (iKg j).view.read (Elt F) (View.write (Elt F) (iV).view fi ((tK L).view.read (Elt F) (m (tLoc d))) Finset.univ) (ix1 r)
      = m (tLoc d) (ix1 ⟨1024 * (L 1).val + 512 * (L 0).val + (64 * j.val + r.val),
          by have := L0_lt L; have := L1_lt L; have := j.isLt; have := r.isLt; omega⟩) := by
  have hC : View.write (Elt F) (iV).view fi ((tK L).view.read (Elt F) (m (tLoc d))) Finset.univ
      = (tK L).view.read (Elt F) (m (tLoc d)) := View.write_whole_univ cc0_scratch0 fi _
  rw [hC]
  show (tK L).view.read (Elt F) (m (tLoc d)) ((iKg j).view.emb (ix1 r)) = _
  rw [iK_emb]
  exact tK_read m d L ⟨64 * j.val + r.val, by have := j.isLt; have := r.isLt; omega⟩

/-- The shared table, at the table's values, reads the table. -/
theorem sh_read (c : Fin τ.nSC) (y : S1000x128.Idx) : (shAll).view.read (Elt F) (tabSh m d c) y = m (eLoc d) y := by
  show m (eLoc d) ((Rect.unit (s := S1000x128) ![0, 0] S1000x128.size inb_S1000x128_S1000x128_0_0).emb y) = m (eLoc d) y
  refine congrArg (m (eLoc d)) ?_
  funext a; refine Fin.ext ?_
  match a with
  | ⟨0, _⟩ => show 0 + 1 * (y 0).val = (y 0).val; omega
  | ⟨1, _⟩ => show 0 + 1 * (y 1).val = (y 1).val; omega

omit [FloatOps F] in
/-- A rank-one shape's k-th index in row-major order is k. -/
theorem rowMajor_symm_ix1 (r : Fin 64) (h : 64 = S64.numel) : S64.rowMajor.symm (r.cast h) = ix1 r :=
  (Equiv.symm_apply_eq _).2 (Fin.ext (by rw [Shape.rowMajor_val_one]; rfl))

/-- What piece j gathers is the lookup's values on result block (w, j). -/
theorem gath_eq_G (hpre : ∀ d x, (m (tLoc d) x).toNat < 1000) (c : Fin τ.nSC) (j : Fin 8) (fi : (iV).view.ty.Contents (Elt F))
    (hin : ∀ x, ((iKg j).view.read (Elt F) (View.write (Elt F) (iV).view fi ((tK L).view.read (Elt F) (m (tLoc d))) Finset.univ) x).toNat
      < S1000x128.size gathers_S1000x128_S64x128.axis) :
    SparseCore.gatherPayload gathers_S1000x128_S64x128 ((shAll).view.read (Elt F) (tabSh m d c))
        (SparseCore.rows ((iKg j).view.read (Elt F) (View.write (Elt F) (iV).view fi ((tK L).view.read (Elt F) (m (tLoc d))) Finset.univ)) rfl hin)
      = (oKg L j).view.read (Elt F) (GblkAt m d) := by
  funext x
  obtain ⟨r, k, rfl⟩ : ∃ (r : Fin 64) (k : Fin 128), x = ix2 r k := ⟨x 0, x 1, eq_ix2 x⟩
  have hw : (wid (cL L) (jL L)).val = 2 * (L 1).val + (L 0).val := rfl
  have hR : (oKg L j).view.read (Elt F) (GblkAt m d) (ix2 r k)
      = m (eLoc d) (ix2 (Cert.Spec.rowOf (m (tLoc d)) (flatRow (ix4 (wid (cL L) (jL L)) j r k))) k) := by
    show GblkAt m d ((oKg L j).view.emb (ix2 r k)) = _
    rw [oK_emb]; rfl
  have hL : SparseCore.gatherPayload gathers_S1000x128_S64x128 ((shAll).view.read (Elt F) (tabSh m d c))
        (SparseCore.rows ((iKg j).view.read (Elt F) (View.write (Elt F) (iV).view fi ((tK L).view.read (Elt F) (m (tLoc d))) Finset.univ)) rfl hin) (ix2 r k)
      = m (eLoc d) (ix2 (SparseCore.rows ((iKg j).view.read (Elt F) (View.write (Elt F) (iV).view fi ((tK L).view.read (Elt F) (m (tLoc d))) Finset.univ)) rfl hin r) k) := by
    show (shAll).view.read (Elt F) (tabSh m d c) (gathers_S1000x128_S64x128.idx _ (ix2 r k)) = _
    rw [sh_read]
    refine congrArg (m (eLoc d)) ?_
    funext b; refine Fin.ext ?_
    match b with
    | ⟨0, _⟩ => rfl
    | ⟨1, _⟩ => rfl
  rw [hL, hR]
  refine congrArg (fun i : Fin 1000 => m (eLoc d) (ix2 i k)) (Fin.ext ?_)
  refine (congrArg (fun y => ((iKg j).view.read (Elt F) (View.write (Elt F) (iV).view fi ((tK L).view.read (Elt F) (m (tLoc d))) Finset.univ) y).toNat) (rowMajor_symm_ix1 r rfl)).trans ?_
  show ((iKg j).view.read (Elt F) (View.write (Elt F) (iV).view fi ((tK L).view.read (Elt F) (m (tLoc d))) Finset.univ) (ix1 r)).toNat
    = (Cert.Spec.rowOf (m (tLoc d)) (flatRow (ix4 (wid (cL L) (jL L)) j r k))).val
  rw [list_read, Cert.Spec.rowOf_val _ _ (hpre d _)]
  have hN : (⟨1024 * (L 1).val + 512 * (L 0).val + (64 * j.val + r.val),
        by have := L0_lt L; have := L1_lt L; have := j.isLt; have := r.isLt; omega⟩ : Fin 16384)
      = flatRow (ix4 (wid (cL L) (jL L)) j r k) := Fin.ext (by
    show 1024 * (L 1).val + 512 * (L 0).val + (64 * j.val + r.val) = 512 * (wid (cL L) (jL L)).val + 64 * j.val + r.val
    rw [hw]; omega)
  rw [hN]

end Value

/-! ## Eight blocks written one after the other -/

section Nested

variable (p : Fin 8 → S64x128.Idx → Elt F .f32) (fg : (gV).view.ty.Contents (Elt F))

/-- A write into one block leaves what another block reads. -/
theorem read_write_other {i j : Fin 8} (hij : j ≠ i) (f : (gV).view.ty.Contents (Elt F)) (w : S64x128.Idx → Elt F .f32) :
    (gKg j).view.read (Elt F) (View.write (Elt F) (gKg i).view f w Finset.univ) = (gKg j).view.read (Elt F) f := by
  funext x
  obtain ⟨r, k, rfl⟩ : ∃ (r : Fin 64) (k : Fin 128), x = ix2 r k := ⟨x 0, x 1, eq_ix2 x⟩
  have hx : ((gKg j).view.emb (ix2 r k) : S8x64x128.Idx) ∉ (gKg i).view.setOn Finset.univ := by
    rw [View.setOn_univ, mem_gK, gK_emb]; exact hij
  show View.write (Elt F) (gKg i).view f w Finset.univ ((gKg j).view.emb (ix2 r k)) = f ((gKg j).view.emb (ix2 r k))
  exact View.write_of_not_mem (v := (gKg i).view) f w Finset.univ hx

/-- The staging array after blocks 0 … n − 1 have been written, in that order, with the payloads p 0 … p (n − 1). -/
def nest : (n : Nat) → n ≤ 8 → (gV).view.ty.Contents (Elt F)
  | 0, _ => fg
  | n + 1, h => View.write (Elt F) (gKg ⟨n, h⟩).view (nest n (Nat.le_of_succ_le h)) (p ⟨n, h⟩) Finset.univ

/-- Each block written so far reads its own payload: the later writes go to other blocks. -/
theorem read_nest : ∀ (n : Nat) (h : n ≤ 8) (j : Fin 8), j.val < n → (gKg j).view.read (Elt F) (nest p fg n h) = p j
  | 0, _, j, hj => absurd hj (Nat.not_lt_zero _)
  | n + 1, h, j, hj => by
    by_cases e : j.val = n
    · obtain rfl : j = ⟨n, h⟩ := Fin.ext e
      exact View.read_write_univ _ _
    · have hne : j ≠ ⟨n, h⟩ := fun e' => e (congrArg Fin.val e')
      show (gKg j).view.read (Elt F) (View.write (Elt F) (gKg ⟨n, h⟩).view (nest p fg n (Nat.le_of_succ_le h)) (p ⟨n, h⟩) Finset.univ) = p j
      rw [read_write_other hne]
      exact read_nest n _ j (by omega)

/-- All eight, written out. -/
theorem read_nested (j : Fin 8) :
    (gKg j).view.read (Elt F)
      (View.write (Elt F) (gKg 7).view (View.write (Elt F) (gKg 6).view (View.write (Elt F) (gKg 5).view
        (View.write (Elt F) (gKg 4).view (View.write (Elt F) (gKg 3).view (View.write (Elt F) (gKg 2).view
          (View.write (Elt F) (gKg 1).view (View.write (Elt F) (gKg 0).view fg (p 0) Finset.univ) (p 1) Finset.univ)
            (p 2) Finset.univ) (p 3) Finset.univ) (p 4) Finset.univ) (p 5) Finset.univ) (p 6) Finset.univ) (p 7) Finset.univ)
      = p j :=
  read_nest p fg 8 le_rfl j j.isLt

end Nested

end Cert.Proof.KernelIdealRun

end
-- ==== Proof.IdealTile.lean ====
/- One vector subcore's task, run once at a symbolic subcore (c, s). -/
import proofs.«219841_g10136122819095_week1_w1_367_25_alg».proof.Proof.IdealGeom

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- Every row number is in range: what the precondition gives. -/
def PreOK : Prop := ∀ (d : Dev nD) (x : S16384.Idx), (m (tLoc d) x).toNat < 1000

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl

/-- The two staging conditions, decided over the grid: subcores 0 .. 14 stage 64 rows, subcore 15 the last 40. -/
theorem cond1_iff : ∀ i : grid0.Coords, (k0_cond1 i = 1#1) ↔ (i 1).val < 15 := by decide +kernel
theorem cond2_iff : ∀ i : grid0.Coords,
    (Scalar.cmpi .ne (Scalar.extui (Scalar.cmpi .eq (BitVec.ofNat 32 (i 1).val) 15#32)) 0#32 = 1#1) ↔ (i 1).val = 15 := by decide +kernel

/-! ### The scratch as the body slices it -/

abbrev iK0 : Memref sig .scVector .vmem S64 .i32 := iV.slice (Rect.unit (s := S512) ![0] S64.size inb_S512_S64_0) (fun _ => rfl)
abbrev gK0 : Memref sig .scVector .vmem S64x128 .f32 := (gV.slice (Rect.unit (s := S8x64x128) ![0, 0, 0] S1x64x128.size inb_S8x64x128_S1x64x128_0_0_0) (fun _ => rfl)).squeeze S64x128 squeezes_S1x64x128_S64x128
abbrev gs0 : DmaSem sig := ((cc0_scratch3.slice (Rect.unit (s := S8) ![0] S1.size inb_S8_S1_0)).squeeze S_ squeezes_S1_S_).sem
abbrev iK1 : Memref sig .scVector .vmem S64 .i32 := iV.slice (Rect.unit (s := S512) ![64] S64.size inb_S512_S64_64) (fun _ => rfl)
abbrev gK1 : Memref sig .scVector .vmem S64x128 .f32 := (gV.slice (Rect.unit (s := S8x64x128) ![1, 0, 0] S1x64x128.size inb_S8x64x128_S1x64x128_1_0_0) (fun _ => rfl)).squeeze S64x128 squeezes_S1x64x128_S64x128
abbrev gs1 : DmaSem sig := ((cc0_scratch3.slice (Rect.unit (s := S8) ![1] S1.size inb_S8_S1_1)).squeeze S_ squeezes_S1_S_).sem
abbrev iK2 : Memref sig .scVector .vmem S64 .i32 := iV.slice (Rect.unit (s := S512) ![128] S64.size inb_S512_S64_128) (fun _ => rfl)
abbrev gK2 : Memref sig .scVector .vmem S64x128 .f32 := (gV.slice (Rect.unit (s := S8x64x128) ![2, 0, 0] S1x64x128.size inb_S8x64x128_S1x64x128_2_0_0) (fun _ => rfl)).squeeze S64x128 squeezes_S1x64x128_S64x128
abbrev gs2 : DmaSem sig := ((cc0_scratch3.slice (Rect.unit (s := S8) ![2] S1.size inb_S8_S1_2)).squeeze S_ squeezes_S1_S_).sem
abbrev iK3 : Memref sig .scVector .vmem S64 .i32 := iV.slice (Rect.unit (s := S512) ![192] S64.size inb_S512_S64_192) (fun _ => rfl)
abbrev gK3 : Memref sig .scVector .vmem S64x128 .f32 := (gV.slice (Rect.unit (s := S8x64x128) ![3, 0, 0] S1x64x128.size inb_S8x64x128_S1x64x128_3_0_0) (fun _ => rfl)).squeeze S64x128 squeezes_S1x64x128_S64x128
abbrev gs3 : DmaSem sig := ((cc0_scratch3.slice (Rect.unit (s := S8) ![3] S1.size inb_S8_S1_3)).squeeze S_ squeezes_S1_S_).sem
abbrev iK4 : Memref sig .scVector .vmem S64 .i32 := iV.slice (Rect.unit (s := S512) ![256] S64.size inb_S512_S64_256) (fun _ => rfl)
abbrev gK4 : Memref sig .scVector .vmem S64x128 .f32 := (gV.slice (Rect.unit (s := S8x64x128) ![4, 0, 0] S1x64x128.size inb_S8x64x128_S1x64x128_4_0_0) (fun _ => rfl)).squeeze S64x128 squeezes_S1x64x128_S64x128
abbrev gs4 : DmaSem sig := ((cc0_scratch3.slice (Rect.unit (s := S8) ![4] S1.size inb_S8_S1_4)).squeeze S_ squeezes_S1_S_).sem
abbrev iK5 : Memref sig .scVector .vmem S64 .i32 := iV.slice (Rect.unit (s := S512) ![320] S64.size inb_S512_S64_320) (fun _ => rfl)
abbrev gK5 : Memref sig .scVector .vmem S64x128 .f32 := (gV.slice (Rect.unit (s := S8x64x128) ![5, 0, 0] S1x64x128.size inb_S8x64x128_S1x64x128_5_0_0) (fun _ => rfl)).squeeze S64x128 squeezes_S1x64x128_S64x128
abbrev gs5 : DmaSem sig := ((cc0_scratch3.slice (Rect.unit (s := S8) ![5] S1.size inb_S8_S1_5)).squeeze S_ squeezes_S1_S_).sem
abbrev iK6 : Memref sig .scVector .vmem S64 .i32 := iV.slice (Rect.unit (s := S512) ![384] S64.size inb_S512_S64_384) (fun _ => rfl)
abbrev gK6 : Memref sig .scVector .vmem S64x128 .f32 := (gV.slice (Rect.unit (s := S8x64x128) ![6, 0, 0] S1x64x128.size inb_S8x64x128_S1x64x128_6_0_0) (fun _ => rfl)).squeeze S64x128 squeezes_S1x64x128_S64x128
abbrev gs6 : DmaSem sig := ((cc0_scratch3.slice (Rect.unit (s := S8) ![6] S1.size inb_S8_S1_6)).squeeze S_ squeezes_S1_S_).sem
abbrev iK7 : Memref sig .scVector .vmem S64 .i32 := iV.slice (Rect.unit (s := S512) ![448] S64.size inb_S512_S64_448) (fun _ => rfl)
abbrev gK7 : Memref sig .scVector .vmem S64x128 .f32 := (gV.slice (Rect.unit (s := S8x64x128) ![7, 0, 0] S1x64x128.size inb_S8x64x128_S1x64x128_7_0_0) (fun _ => rfl)).squeeze S64x128 squeezes_S1x64x128_S64x128
abbrev gs7 : DmaSem sig := ((cc0_scratch3.slice (Rect.unit (s := S8) ![7] S1.size inb_S8_S1_7)).squeeze S_ squeezes_S1_S_).sem

abbrev cellOf (d : Dev nD) (c : Fin τ.nSC) (i : Fin τ.nSub) (s : DmaSem sig) : GSem nD τ sig := (V d c i, .dma s)

omit [FloatOps F] in
theorem reg_not_scoped : ∀ s : Sem sig, (SemLoc.reg s : SemLoc sig).isScoped .scVector = false := by decide
omit [FloatOps F] in
theorem dma_scoped : ∀ s : DmaSem sig, (SemLoc.dma s : SemLoc sig).isScoped .scVector = true := by decide

omit [FloatOps F] in
theorem ownCells_V (c : Fin τ.nSC) (i : Fin τ.nSub) :
    ownCells (V d c i) = (Finset.univ : Finset (DmaSem sig)).image (cellOf d c i) := by
  ext g
  rcases g with ⟨thr, sm⟩
  simp only [mem_ownCells, Finset.mem_image, Finset.mem_univ, true_and, cellOf]
  constructor
  · rintro ⟨rfl, h⟩
    cases sm with
    | reg s => exact absurd (show (SemLoc.reg s : SemLoc sig).isScoped .scVector = true from h) (by rw [reg_not_scoped s]; exact Bool.false_ne_true)
    | dma s => exact ⟨s, rfl⟩
  · rintro ⟨s, hs⟩
    obtain ⟨rfl, rfl⟩ := Prod.mk.inj hs
    exact ⟨rfl, dma_scoped s⟩

omit [FloatOps F] in
theorem ownSems0_V (c : Fin τ.nSC) (i : Fin τ.nSub) :
    (ownSems0 (V d c i) : sProp 𝕄)
      = iprop(semVal (cellOf d c i gs0) 0 ∗ semVal (cellOf d c i gs1) 0 ∗ semVal (cellOf d c i gs2) 0 ∗ semVal (cellOf d c i gs3) 0 ∗ semVal (cellOf d c i gs4) 0 ∗ semVal (cellOf d c i gs5) 0 ∗ semVal (cellOf d c i gs6) 0 ∗ semVal (cellOf d c i gs7) 0
          ∗ semVal (cellOf d c i cc0_scratch4.sem) 0 ∗ semVal (cellOf d c i cc0_scoped0.sem) 0 ∗ semVal (cellOf d c i cc0_scoped1.sem) 0
          ∗ semVal (cellOf d c i cc0_scoped2.sem) 0) := by
  unfold SparseCore.Cfg.ownSems0
  rw [ownCells_V, SparseCore.bigSep_image_of_injOn (fun a _ b _ e => SemLoc.dma.inj (Prod.mk.inj e).2),
    show (Finset.univ : Finset (DmaSem sig)) = {0, 1, 2, 3, 4, 5, 6, 7, 8, 9, 10, 11} by decide]
  rw [bigSep_insert (by decide), bigSep_insert (by decide), bigSep_insert (by decide), bigSep_insert (by decide), bigSep_insert (by decide),
    bigSep_insert (by decide), bigSep_insert (by decide), bigSep_insert (by decide), bigSep_insert (by decide), bigSep_insert (by decide),
    bigSep_insert (by decide), bigSep_singleton]
  rfl

omit [FloatOps F] in
/-- The two scratch buffers are the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### The arrays as the subcore addresses them -/

omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_eV (q : PosShare TreeShare) (f : Buf (Elt F) (eLoc d)) :
    ((eV).view.loc (V d (cV L) (jV L)) ↦{q} f : sProp 𝕄) = eLoc d ↦{q} f := rfl
omit [FloatOps F] in
theorem pts_iV (f : Buf (Elt F) ((V d (cV L) (jV L)).loc cc0_scratch0)) :
    ((iV).view.loc (V d (cV L) (jV L)) ↦{fullShare} f : sProp 𝕄) = (V d (cV L) (jV L)).loc cc0_scratch0 ↦{fullShare} f := rfl
omit [FloatOps F] in
theorem pts_gV (f : Buf (Elt F) ((V d (cV L) (jV L)).loc cc0_scratch1)) :
    ((gV).view.loc (V d (cV L) (jV L)) ↦{fullShare} f : sProp 𝕄) = (V d (cV L) (jV L)).loc cc0_scratch1 ↦{fullShare} f := rfl

/-- The slice of the shared table the body stages into, when the subcore is one of the first fifteen, -/
abbrev shK1 (h : k0_cond1 L = 1#1) : Memref sig .scVector .shared S64x128 .f32 :=
  shV.slice (Rect.unit (s := S1000x128) (k0_off2 L) S64x128.size (k0_off2_inb L h)) (fun _ => rfl)
/-- and when it is the last. -/
abbrev shK2 : Memref sig .scVector .shared S40x128 .f32 :=
  shV.slice (Rect.unit (s := S1000x128) ![960, 0] S40x128.size inb_S1000x128_S40x128_960_0) (fun _ => rfl)

omit [FloatOps F] in
theorem set_shK1 (h : k0_cond1 L = 1#1) : (shK1 L h).view.set = shSet (jL L) := by
  have hlt : (L 1).val < 15 := (cond1_iff L).mp h
  show ((shV).view.slice _).set = _
  rw [View.set_slice, show ∀ (r : Rect S1000x128), r.set.map (shV).view.emb = r.set from fun r => Finset.map_refl]
  ext x
  rw [Rect.mem_set_unit, Rect.mem_set_unit, k0_off2_eq]
  have e : shLen (jL L) = 64 := by unfold shLen; rw [if_pos (show (jL L).val < 15 from hlt)]
  rw [e]
  exact forall_congr' fun a => by
    match a with
    | ⟨0, _⟩ => exact Iff.rfl
    | ⟨1, _⟩ => exact Iff.rfl

omit [FloatOps F] in
theorem set_shK2 (h : (L 1).val = 15) : (shK2).view.set = shSet (jL L) := by
  show ((shV).view.slice _).set = _
  rw [View.set_slice, show ∀ (r : Rect S1000x128), r.set.map (shV).view.emb = r.set from fun r => Finset.map_refl]
  ext x
  rw [Rect.mem_set_unit, Rect.mem_set_unit]
  have e : shLen (jL L) = 40 := by
    unfold shLen; rw [if_neg (show ¬ (jL L).val < 15 from by show ¬ (L 1).val < 15; omega)]
  rw [e]
  have e2 : (jL L).val = 15 := h
  exact forall_congr' fun a => by
    match a with
    | ⟨0, _⟩ => show (960 ≤ (x 0).val ∧ (x 0).val < 960 + 40) ↔ (64 * (jL L).val ≤ (x 0).val ∧ (x 0).val < 64 * (jL L).val + 40); rw [e2]
    | ⟨1, _⟩ => exact Iff.rfl

/-! ### The slices of the shared table are disjoint and cover it -/

omit [FloatOps F] in
theorem sh_disjoint : ∀ i ∈ (Finset.univ : Finset (Fin 16)), ∀ j ∈ (Finset.univ : Finset (Fin 16)), i ≠ j → Disjoint (shSet i) (shSet j) := by
  intro i _ j _ hij
  have hi : shLen i ≤ 64 := by unfold shLen; split <;> omega
  have hj : shLen j ≤ 64 := by unfold shLen; split <;> omega
  have hne : i.val ≠ j.val := fun e => hij (Fin.ext e)
  refine Rect.unit_disjoint (0 : Fin 2) ?_
  show 64 * i.val + shLen i ≤ 64 * j.val ∨ 64 * j.val + shLen j ≤ 64 * i.val
  omega

omit [FloatOps F] in
theorem sh_cover : (Finset.univ : Finset (Fin 16)).biUnion shSet = Finset.univ := by
  ext x
  simp only [Finset.mem_biUnion, Finset.mem_univ, true_and, iff_true]
  have h0 : (x 0).val < 1000 := (x 0).isLt
  have h1 : (x 1).val < 128 := (x 1).isLt
  refine ⟨⟨min ((x 0).val / 64) 15, by omega⟩, ?_⟩
  rw [Rect.mem_set_unit]
  intro a
  match a with
  | ⟨0, _⟩ =>
    show 64 * min ((x 0).val / 64) 15 ≤ (x 0).val ∧ (x 0).val < 64 * min ((x 0).val / 64) 15 + shLen ⟨min ((x 0).val / 64) 15, _⟩
    unfold shLen; dsimp only
    split <;> omega
  | ⟨1, _⟩ => exact ⟨Nat.zero_le _, by show (x 1).val < 0 + 128; omega⟩

/-! ### The barrier carries the table -/

/-- A points-to over exactly a memory reference's own elements depends only on what the reference reads. -/
theorem pts_congr_read {cs : Space} {s : Shape} {e : EltTy} (c : Thread nD τ) (mr : Memref sig c.2.kind cs s e) (f g : Buf (Elt F) (mr.view.loc c))
    (q : PosShare TreeShare) (h : mr.view.read (Elt F) f = mr.view.read (Elt F) g) :
    (mr.view.loc c ↦[mr.view.set]{q} f : sProp 𝕄) = mr.view.loc c ↦[mr.view.set]{q} g :=
  pointsTo_congr fun i hi => by
    obtain ⟨x, -, rfl⟩ := Finset.mem_map.mp hi
    have := congrFun h x
    rw [View.read_apply, View.read_apply] at this
    exact (cast_inj _).mp this

/-- The slices of the table the body copies from. -/
abbrev eK1 (h : k0_cond1 L = 1#1) : Memref sig .scVector .hbm S64x128 .f32 :=
  eV.slice (Rect.unit (s := S1000x128) (k0_off2 L) S64x128.size (k0_off2_inb L h)) (fun _ => rfl)
abbrev eK2 : Memref sig .scVector .hbm S40x128 .f32 :=
  eV.slice (Rect.unit (s := S1000x128) ![960, 0] S40x128.size inb_S1000x128_S40x128_960_0) (fun _ => rfl)

/-- Once the copy has landed, the staged slice holds the table's values on its own elements. -/
theorem stage1_eq (hc1 : k0_cond1 L = 1#1) (fsh : Buf (Elt F) (shLoc d (cV L))) (w : S64x128.Idx → Elt F .f32)
    (hw : w = (eK1 L hc1).view.read (Elt F) (m (eLoc d))) :
    ((shK1 L hc1).view.loc (V d (cV L) (jV L)) ↦[(shK1 L hc1).view.set]{fullShare} (shK1 L hc1).view.writes (Elt F) fsh [⟨Rect.whole S64x128, w⟩] : sProp 𝕄)
      = shLoc d (cV L) ↦[shSet (jL L)]{fullShare} tabSh m d (cV L) := by
  subst hw
  rw [pts_congr_read (F := F) (V d (cV L) (jV L)) (shK1 L hc1) _ (tabSh m d (cV L)) fullShare (by rw [View.read_writes_whole]; rfl), set_shK1]
  rfl
theorem stage2_eq (h15 : (L 1).val = 15) (fsh : Buf (Elt F) (shLoc d (cV L))) (w : S40x128.Idx → Elt F .f32)
    (hw : w = (eK2).view.read (Elt F) (m (eLoc d))) :
    ((shK2).view.loc (V d (cV L) (jV L)) ↦[(shK2).view.set]{fullShare} (shK2).view.writes (Elt F) fsh [⟨Rect.whole S40x128, w⟩] : sProp 𝕄)
      = shLoc d (cV L) ↦[shSet (jL L)]{fullShare} tabSh m d (cV L) := by
  subst hw
  rw [pts_congr_read (F := F) (V d (cV L) (jV L)) (shK2) _ (tabSh m d (cV L)) fullShare (by rw [View.read_writes_whole]; rfl), set_shK2 L h15]
  rfl

/-- Before the barrier: the slice a subcore staged, at the table's values, is what its sixteen arrivals hand over. -/
theorem pays_intro : (shLoc d (cV L) ↦[shSet (jL L)]{fullShare} tabSh m d (cV L) : sProp 𝕄)
    ⊢ bigSep Finset.univ fun j : Fin (grid0.bound 1) => (bRd (F := F) m).payload (bcell d (cV L) (j.castLE hsub0)) 0 (jV L).val := by
  rw [pointsTo_piecesOf (shSet (jL L)) (tabSh m d (cV L)) (by decide : 0 < 16) fullShare]
  refine bigSep_mono (s := (Finset.univ : Finset (Fin 16))) fun j _ => ?_
  show _ ⊢ bPay m (bcell d (cV L) (j.castLE hsub0)) (jV L).val
  unfold bPay; dsimp only
  rw [dif_pos (show (jV L).val < 16 from (jV L).isLt)]
  try exact Entails.of_eq rfl

/-- After it: what a subcore's own round collected is its share of the whole shared table at the table's values. -/
theorem pays_elim : (bigSep ((bRd (F := F) m).duties (bcell d (cV L) (jV L)) 0 \ ∅) fun n => (bRd (F := F) m).payload (bcell d (cV L) (jV L)) 0 n)
    ⊢ (shSharePts m d (cV L) (jL L) : sProp 𝕄) := by
  rw [Finset.sdiff_empty, bRd_duties₀, SparseCore.bigSep_image_of_injOn (fun a _ b _ e => Fin.val_injective e)]
  refine (bigSep_mono (Ψ := fun n : Fin τ.nSub => (shLoc d (cV L) ↦[shSet (Fin.cast nSub_eq n)]{qSh (jL L)} tabSh m d (cV L) : sProp 𝕄)) fun n _ => ?_).trans ?_
  · show bPay m (bcell d (cV L) (jV L)) n.val ⊢ _
    unfold bPay; dsimp only
    rw [dif_pos (show n.val < 16 from n.isLt)]
    try exact Entails.of_eq rfl
  · show bigSep (Finset.univ : Finset (Fin 16)) (fun n => (shLoc d (cV L) ↦[shSet n]{qSh (jL L)} tabSh m d (cV L) : sProp 𝕄)) ⊢ _
    rw [← pointsTo_biUnion Finset.univ (ℓ := shLoc d (cV L)) shSet sh_disjoint, sh_cover]
    try exact Entails.of_eq rfl

abbrev oK0 : Memref sig .scVector .hbm S64x128 .f32 := ((oRowK L).slice (Rect.unit (s := S8x64x128) ![0, 0, 0] S1x64x128.size inb_S8x64x128_S1x64x128_0_0_0) (fun _ => rfl)).squeeze S64x128 squeezes_S1x64x128_S64x128
abbrev oK1 : Memref sig .scVector .hbm S64x128 .f32 := ((oRowK L).slice (Rect.unit (s := S8x64x128) ![1, 0, 0] S1x64x128.size inb_S8x64x128_S1x64x128_1_0_0) (fun _ => rfl)).squeeze S64x128 squeezes_S1x64x128_S64x128
abbrev oK2 : Memref sig .scVector .hbm S64x128 .f32 := ((oRowK L).slice (Rect.unit (s := S8x64x128) ![2, 0, 0] S1x64x128.size inb_S8x64x128_S1x64x128_2_0_0) (fun _ => rfl)).squeeze S64x128 squeezes_S1x64x128_S64x128
abbrev oK3 : Memref sig .scVector .hbm S64x128 .f32 := ((oRowK L).slice (Rect.unit (s := S8x64x128) ![3, 0, 0] S1x64x128.size inb_S8x64x128_S1x64x128_3_0_0) (fun _ => rfl)).squeeze S64x128 squeezes_S1x64x128_S64x128
abbrev oK4 : Memref sig .scVector .hbm S64x128 .f32 := ((oRowK L).slice (Rect.unit (s := S8x64x128) ![4, 0, 0] S1x64x128.size inb_S8x64x128_S1x64x128_4_0_0) (fun _ => rfl)).squeeze S64x128 squeezes_S1x64x128_S64x128
abbrev oK5 : Memref sig .scVector .hbm S64x128 .f32 := ((oRowK L).slice (Rect.unit (s := S8x64x128) ![5, 0, 0] S1x64x128.size inb_S8x64x128_S1x64x128_5_0_0) (fun _ => rfl)).squeeze S64x128 squeezes_S1x64x128_S64x128
abbrev oK6 : Memref sig .scVector .hbm S64x128 .f32 := ((oRowK L).slice (Rect.unit (s := S8x64x128) ![6, 0, 0] S1x64x128.size inb_S8x64x128_S1x64x128_6_0_0) (fun _ => rfl)).squeeze S64x128 squeezes_S1x64x128_S64x128
abbrev oK7 : Memref sig .scVector .hbm S64x128 .f32 := ((oRowK L).slice (Rect.unit (s := S8x64x128) ![7, 0, 0] S1x64x128.size inb_S8x64x128_S1x64x128_7_0_0) (fun _ => rfl)).squeeze S64x128 squeezes_S1x64x128_S64x128

/-- The subcore's block of the result is its eight pieces. -/
theorem oRow_split8 (f : Buf (Elt F) (oLoc d)) : (oRowPts d (wid (cL L) (jL L)) f : sProp 𝕄)
    = iprop(((oK0 L).view.loc (V d (cV L) (jV L)) ↦[(oK0 L).view.set]{fullShare} f) ∗ ((oK1 L).view.loc (V d (cV L) (jV L)) ↦[(oK1 L).view.set]{fullShare} f) ∗ ((oK2 L).view.loc (V d (cV L) (jV L)) ↦[(oK2 L).view.set]{fullShare} f) ∗ ((oK3 L).view.loc (V d (cV L) (jV L)) ↦[(oK3 L).view.set]{fullShare} f) ∗ ((oK4 L).view.loc (V d (cV L) (jV L)) ↦[(oK4 L).view.set]{fullShare} f) ∗ ((oK5 L).view.loc (V d (cV L) (jV L)) ↦[(oK5 L).view.set]{fullShare} f) ∗ ((oK6 L).view.loc (V d (cV L) (jV L)) ↦[(oK6 L).view.set]{fullShare} f) ∗ ((oK7 L).view.loc (V d (cV L) (jV L)) ↦[(oK7 L).view.set]{fullShare} f)) := by
  rw [oRow_split (F := F) d L f, show (Finset.univ : Finset (Fin 8)) = {0, 1, 2, 3, 4, 5, 6, 7} by decide,
    bigSep_insert (by decide), bigSep_insert (by decide), bigSep_insert (by decide), bigSep_insert (by decide), bigSep_insert (by decide),
    bigSep_insert (by decide), bigSep_insert (by decide), bigSep_singleton]
  rfl

/-- Every word of the list, once the slice of t has landed in it, is a row number in range. -/
theorem idx_inb (hpre : PreOK m) (fi : Buf (Elt F) ((V d (cV L) (jV L)).loc cc0_scratch0)) (pay : S512.Idx → Elt F .i32)
    (hpay : pay = (tK L).view.read (Elt F) (m (tLoc d))) :
    ∀ y : S512.Idx, ((View.write (Elt F) (iV).view fi pay Finset.univ : S512.Idx → BitVec 32) y).toNat < 1000 := by
  subst hpay; intro y
  rw [View.write_whole_univ]
  rw [show ∀ j, (tK L).view.read (Elt F) (m (tLoc d)) j = m (tLoc d) ((tK L).view.emb j) from fun j => (View.read_apply _ _).trans (cast_eq _ _)]
  exact hpre d _

set_option maxHeartbeats 4000000 in
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (inPts m d (qTile (cL L) (jL L)) ∗ oRowPts d (wid (cL L) (jL L)) (m (oLoc d)) ∗ ∃ f, shSlicePts d (cV L) (jL L) f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather L tV (Memref.isWhole_whole _) eV (Memref.isWhole_whole _) oV (Memref.isWhole_whole _) iV (Memref.isWhole_whole _)
            gV (Memref.isWhole_whole _) shV (Memref.isWhole_whole _) cc0_scratch3 cc0_scratch4 cc0_scoped0 cc0_scoped1 cc0_scoped2)
          fun _ => iprop((inPts m d (qTile (cL L) (jL L)) ∗ oRowPts d (wid (cL L) (jL L)) (GblkAt m d) ∗ shSharePts m d (cV L) (jL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__gather_eq_skeleton]; unfold cc0__gather_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨⟨Ht, He⟩, Ho, %fsh, Hsh⟩, ⟨⟨%fi, Hi⟩, ⟨%fg, Hg⟩, Hbufs⟩,
    ⟨Hg0, Hg1, Hg2, Hg3, Hg4, Hg5, Hg6, Hg7, Hss, HsA, HsB, HsC⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tV (F := F) d L _ _).symm) $$ Ht
  ihave He' := (Entails.of_eq (pts_eV (F := F) d L _ _).symm) $$ He
  ihave Hi' := (Entails.of_eq (pts_iV (F := F) d L _).symm) $$ Hi
  ihave Hg' := (Entails.of_eq (pts_gV (F := F) d L _).symm) $$ Hg
  by_cases hc1 : k0_cond1 L = 1#1
  · have hlt : (L 1).val < 15 := (cond1_iff L).mp hc1
    have hc2 : ¬ (Scalar.cmpi .ne (Scalar.extui (Scalar.cmpi .eq (BitVec.ofNat 32 (L 1).val) 15#32)) 0#32 = 1#1) := fun h => by
      have := (cond2_iff L).mp h; omega
    ihave Hsh' := (Entails.of_eq (show (shSlicePts (F := F) d (cV L) (jL L) fsh : sProp 𝕄)
        = (shK1 L hc1).view.loc (V d (cV L) (jV L)) ↦[(shK1 L hc1).view.set]{fullShare} fsh by rw [set_shK1]; rfl)) $$ Hsh
    sl_exec
    -- the slice staged is at the table's values on its own elements
    ihave Hsh2 := (Entails.of_eq (stage1_eq (F := F) m d L hc1 fsh (tile_body.sl.dma0_1 m d L hc1) rfl)) $$ Hsh'
    -- the barrier: the slice handed over in sixteen shares, a share of the whole table received
    ihave Hpays := (pays_intro (F := F) m d L) $$ Hsh2
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsrc := (pays_elim (F := F) m d L) $$ Hgot
    -- the gathers read the list: its words are row numbers in range
    have hC := idx_inb (F := F) m d L hpre fi (tile_body.sl.dma0 m d L) rfl
    have hin0 : ∀ x, ((iK0).view.read (Elt F) (View.write (Elt F) (iV).view fi (tile_body.sl.dma0 m d L) Finset.univ) x).toNat < S1000x128.size gathers_S1000x128_S64x128.axis := fun x => hC _
    have hin1 : ∀ x, ((iK1).view.read (Elt F) (View.write (Elt F) (iV).view fi (tile_body.sl.dma0 m d L) Finset.univ) x).toNat < S1000x128.size gathers_S1000x128_S64x128.axis := fun x => hC _
    have hin2 : ∀ x, ((iK2).view.read (Elt F) (View.write (Elt F) (iV).view fi (tile_body.sl.dma0 m d L) Finset.univ) x).toNat < S1000x128.size gathers_S1000x128_S64x128.axis := fun x => hC _
    have hin3 : ∀ x, ((iK3).view.read (Elt F) (View.write (Elt F) (iV).view fi (tile_body.sl.dma0 m d L) Finset.univ) x).toNat < S1000x128.size gathers_S1000x128_S64x128.axis := fun x => hC _
    have hin4 : ∀ x, ((iK4).view.read (Elt F) (View.write (Elt F) (iV).view fi (tile_body.sl.dma0 m d L) Finset.univ) x).toNat < S1000x128.size gathers_S1000x128_S64x128.axis := fun x => hC _
    have hin5 : ∀ x, ((iK5).view.read (Elt F) (View.write (Elt F) (iV).view fi (tile_body.sl.dma0 m d L) Finset.univ) x).toNat < S1000x128.size gathers_S1000x128_S64x128.axis := fun x => hC _
    have hin6 : ∀ x, ((iK6).view.read (Elt F) (View.write (Elt F) (iV).view fi (tile_body.sl.dma0 m d L) Finset.univ) x).toNat < S1000x128.size gathers_S1000x128_S64x128.axis := fun x => hC _
    have hin7 : ∀ x, ((iK7).view.read (Elt F) (View.write (Elt F) (iV).view fi (tile_body.sl.dma0 m d L) Finset.univ) x).toNat < S1000x128.size gathers_S1000x128_S64x128.axis := fun x => hC _
    have _plan : Transfers.BatchOf (V d (cV L) (jV L)) (SemLoc.dma (sig := sig) cc0_scratch4.sem) 8 := trivial
    have hsplit : (oRowPts d (wid (cL L) (jL L)) (m (oLoc d)) : sProp 𝕄)
        = iprop(((oK0 L).view.loc (V d (cV L) (jV L)) ↦[(oK0 L).view.set]{fullShare} m (oLoc d)) ∗ ((oK1 L).view.loc (V d (cV L) (jV L)) ↦[(oK1 L).view.set]{fullShare} m (oLoc d)) ∗ ((oK2 L).view.loc (V d (cV L) (jV L)) ↦[(oK2 L).view.set]{fullShare} m (oLoc d)) ∗ ((oK3 L).view.loc (V d (cV L) (jV L)) ↦[(oK3 L).view.set]{fullShare} m (oLoc d)) ∗ ((oK4 L).view.loc (V d (cV L) (jV L)) ↦[(oK4 L).view.set]{fullShare} m (oLoc d)) ∗ ((oK5 L).view.loc (V d (cV L) (jV L)) ↦[(oK5 L).view.set]{fullShare} m (oLoc d)) ∗ ((oK6 L).view.loc (V d (cV L) (jV L)) ↦[(oK6 L).view.set]{fullShare} m (oLoc d)) ∗ ((oK7 L).view.loc (V d (cV L) (jV L)) ↦[(oK7 L).view.set]{fullShare} m (oLoc d))) := oRow_split8 (F := F) d L (m (oLoc d))
    ihave Ho' := (Entails.of_eq hsplit) $$ Ho
    icases Ho' with ⟨Ho0, Ho1, Ho2, Ho3, Ho4, Ho5, Ho6, Ho7⟩
    -- eight gathers in flight at once: eight shares of the table
    ihave Hsrc' := (Entails.of_eq (show (shSharePts (F := F) m d (cV L) (jL L) : sProp 𝕄) = (shV).view.loc (V d (cV L) (jV L)) ↦{qSh (jL L)} tabSh m d (cV L) from rfl)) $$ Hsrc
    ihave H2 := (pointsTo_share (PosShare.mem_left_op_right (qSh (jL L)))).1 $$ Hsrc'
    icases H2 with ⟨Hl, Hr⟩
    ihave H2 := (pointsTo_share (PosShare.mem_left_op_right (qSh (jL L)).left)).1 $$ Hl
    icases H2 with ⟨Hll, Hlr⟩
    ihave H2 := (pointsTo_share (PosShare.mem_left_op_right (qSh (jL L)).right)).1 $$ Hr
    icases H2 with ⟨Hrl, Hrr⟩
    ihave H2 := (pointsTo_share (PosShare.mem_left_op_right (qSh (jL L)).left.left)).1 $$ Hll
    icases H2 with ⟨Hlll, Hllr⟩
    ihave H2 := (pointsTo_share (PosShare.mem_left_op_right (qSh (jL L)).left.right)).1 $$ Hlr
    icases H2 with ⟨Hlrl, Hlrr⟩
    ihave H2 := (pointsTo_share (PosShare.mem_left_op_right (qSh (jL L)).right.left)).1 $$ Hrl
    icases H2 with ⟨Hrll, Hrlr⟩
    ihave H2 := (pointsTo_share (PosShare.mem_left_op_right (qSh (jL L)).right.right)).1 $$ Hrr
    icases H2 with ⟨Hrrl, Hrrr⟩
    sl_exec
    sl_step
    -- each piece of the block holds the rows its gather named: the lookup's values
    have hval0 : (oK0 L).view.read (Elt F) ((oK0 L).view.writes (Elt F) (m (oLoc d)) [⟨Rect.whole S64x128, tile_body.sl.dma8 m d L fi fg hin0 hin1 hin2 hin3 hin4 hin5 hin6 hin7⟩]) = (oK0 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 0).trans (gath_eq_G (F := F) m d L hpre (cV L) 0 fi hin0)
    have hval1 : (oK1 L).view.read (Elt F) ((oK1 L).view.writes (Elt F) (m (oLoc d)) [⟨Rect.whole S64x128, tile_body.sl.dma9 m d L fi fg hin0 hin1 hin2 hin3 hin4 hin5 hin6 hin7⟩]) = (oK1 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 1).trans (gath_eq_G (F := F) m d L hpre (cV L) 1 fi hin1)
    have hval2 : (oK2 L).view.read (Elt F) ((oK2 L).view.writes (Elt F) (m (oLoc d)) [⟨Rect.whole S64x128, tile_body.sl.dma10 m d L fi fg hin0 hin1 hin2 hin3 hin4 hin5 hin6 hin7⟩]) = (oK2 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 2).trans (gath_eq_G (F := F) m d L hpre (cV L) 2 fi hin2)
    have hval3 : (oK3 L).view.read (Elt F) ((oK3 L).view.writes (Elt F) (m (oLoc d)) [⟨Rect.whole S64x128, tile_body.sl.dma11 m d L fi fg hin0 hin1 hin2 hin3 hin4 hin5 hin6 hin7⟩]) = (oK3 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 3).trans (gath_eq_G (F := F) m d L hpre (cV L) 3 fi hin3)
    have hval4 : (oK4 L).view.read (Elt F) ((oK4 L).view.writes (Elt F) (m (oLoc d)) [⟨Rect.whole S64x128, tile_body.sl.dma12 m d L fi fg hin0 hin1 hin2 hin3 hin4 hin5 hin6 hin7⟩]) = (oK4 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 4).trans (gath_eq_G (F := F) m d L hpre (cV L) 4 fi hin4)
    have hval5 : (oK5 L).view.read (Elt F) ((oK5 L).view.writes (Elt F) (m (oLoc d)) [⟨Rect.whole S64x128, tile_body.sl.dma13 m d L fi fg hin0 hin1 hin2 hin3 hin4 hin5 hin6 hin7⟩]) = (oK5 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 5).trans (gath_eq_G (F := F) m d L hpre (cV L) 5 fi hin5)
    have hval6 : (oK6 L).view.read (Elt F) ((oK6 L).view.writes (Elt F) (m (oLoc d)) [⟨Rect.whole S64x128, tile_body.sl.dma14 m d L fi fg hin0 hin1 hin2 hin3 hin4 hin5 hin6 hin7⟩]) = (oK6 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 6).trans (gath_eq_G (F := F) m d L hpre (cV L) 6 fi hin6)
    have hval7 : (oK7 L).view.read (Elt F) ((oK7 L).view.writes (Elt F) (m (oLoc d)) [⟨Rect.whole S64x128, tile_body.sl.dma15 m d L fi fg hin0 hin1 hin2 hin3 hin4 hin5 hin6 hin7⟩]) = (oK7 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 7).trans (gath_eq_G (F := F) m d L hpre (cV L) 7 fi hin7)
    ihave Ho0 := (Entails.of_eq (pts_congr_read (F := F) (V d (cV L) (jV L)) (oK0 L) ((oK0 L).view.writes (Elt F) (m (oLoc d)) [⟨Rect.whole S64x128, tile_body.sl.dma8 m d L fi fg hin0 hin1 hin2 hin3 hin4 hin5 hin6 hin7⟩]) (GblkAt m d) fullShare hval0)) $$ Ho0
    ihave Ho1 := (Entails.of_eq (pts_congr_read (F := F) (V d (cV L) (jV L)) (oK1 L) ((oK1 L).view.writes (Elt F) (m (oLoc d)) [⟨Rect.whole S64x128, tile_body.sl.dma9 m d L fi fg hin0 hin1 hin2 hin3 hin4 hin5 hin6 hin7⟩]) (GblkAt m d) fullShare hval1)) $$ Ho1
    ihave Ho2 := (Entails.of_eq (pts_congr_read (F := F) (V d (cV L) (jV L)) (oK2 L) ((oK2 L).view.writes (Elt F) (m (oLoc d)) [⟨Rect.whole S64x128, tile_body.sl.dma10 m d L fi fg hin0 hin1 hin2 hin3 hin4 hin5 hin6 hin7⟩]) (GblkAt m d) fullShare hval2)) $$ Ho2
    ihave Ho3 := (Entails.of_eq (pts_congr_read (F := F) (V d (cV L) (jV L)) (oK3 L) ((oK3 L).view.writes (Elt F) (m (oLoc d)) [⟨Rect.whole S64x128, tile_body.sl.dma11 m d L fi fg hin0 hin1 hin2 hin3 hin4 hin5 hin6 hin7⟩]) (GblkAt m d) fullShare hval3)) $$ Ho3
    ihave Ho4 := (Entails.of_eq (pts_congr_read (F := F) (V d (cV L) (jV L)) (oK4 L) ((oK4 L).view.writes (Elt F) (m (oLoc d)) [⟨Rect.whole S64x128, tile_body.sl.dma12 m d L fi fg hin0 hin1 hin2 hin3 hin4 hin5 hin6 hin7⟩]) (GblkAt m d) fullShare hval4)) $$ Ho4
    ihave Ho5 := (Entails.of_eq (pts_congr_read (F := F) (V d (cV L) (jV L)) (oK5 L) ((oK5 L).view.writes (Elt F) (m (oLoc d)) [⟨Rect.whole S64x128, tile_body.sl.dma13 m d L fi fg hin0 hin1 hin2 hin3 hin4 hin5 hin6 hin7⟩]) (GblkAt m d) fullShare hval5)) $$ Ho5
    ihave Ho6 := (Entails.of_eq (pts_congr_read (F := F) (V d (cV L) (jV L)) (oK6 L) ((oK6 L).view.writes (Elt F) (m (oLoc d)) [⟨Rect.whole S64x128, tile_body.sl.dma14 m d L fi fg hin0 hin1 hin2 hin3 hin4 hin5 hin6 hin7⟩]) (GblkAt m d) fullShare hval6)) $$ Ho6
    ihave Ho7 := (Entails.of_eq (pts_congr_read (F := F) (V d (cV L) (jV L)) (oK7 L) ((oK7 L).view.writes (Elt F) (m (oLoc d)) [⟨Rect.whole S64x128, tile_body.sl.dma15 m d L fi fg hin0 hin1 hin2 hin3 hin4 hin5 hin6 hin7⟩]) (GblkAt m d) fullShare hval7)) $$ Ho7
    have hsplitG : (oRowPts d (wid (cL L) (jL L)) (GblkAt m d) : sProp 𝕄)
        = iprop(((oK0 L).view.loc (V d (cV L) (jV L)) ↦[(oK0 L).view.set]{fullShare} GblkAt m d) ∗ ((oK1 L).view.loc (V d (cV L) (jV L)) ↦[(oK1 L).view.set]{fullShare} GblkAt m d) ∗ ((oK2 L).view.loc (V d (cV L) (jV L)) ↦[(oK2 L).view.set]{fullShare} GblkAt m d) ∗ ((oK3 L).view.loc (V d (cV L) (jV L)) ↦[(oK3 L).view.set]{fullShare} GblkAt m d) ∗ ((oK4 L).view.loc (V d (cV L) (jV L)) ↦[(oK4 L).view.set]{fullShare} GblkAt m d) ∗ ((oK5 L).view.loc (V d (cV L) (jV L)) ↦[(oK5 L).view.set]{fullShare} GblkAt m d) ∗ ((oK6 L).view.loc (V d (cV L) (jV L)) ↦[(oK6 L).view.set]{fullShare} GblkAt m d) ∗ ((oK7 L).view.loc (V d (cV L) (jV L)) ↦[(oK7 L).view.set]{fullShare} GblkAt m d)) := oRow_split8 (F := F) d L (GblkAt m d)
    isplitl [Ht' He' Ho0 Ho1 Ho2 Ho3 Ho4 Ho5 Ho6 Ho7 Hlll Hllr Hlrl Hlrr Hrll Hrlr Hrrl Hrrr]
    · isplitl [Ht' He']
      · isplitl [Ht']; · iexact Ht'
        iexact He'
      isplitl [Ho0 Ho1 Ho2 Ho3 Ho4 Ho5 Ho6 Ho7]
      · iapply (Entails.of_eq hsplitG.symm)
        isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        iexact Ho7
      · ihave Hll := (pointsTo_share (PosShare.mem_left_op_right (qSh (jL L)).left.left)).2 $$ [Hlll Hllr]
        · isplitl [Hlll] <;> iassumption
        ihave Hlr := (pointsTo_share (PosShare.mem_left_op_right (qSh (jL L)).left.right)).2 $$ [Hlrl Hlrr]
        · isplitl [Hlrl] <;> iassumption
        ihave Hrl := (pointsTo_share (PosShare.mem_left_op_right (qSh (jL L)).right.left)).2 $$ [Hrll Hrlr]
        · isplitl [Hrll] <;> iassumption
        ihave Hrr := (pointsTo_share (PosShare.mem_left_op_right (qSh (jL L)).right.right)).2 $$ [Hrrl Hrrr]
        · isplitl [Hrrl] <;> iassumption
        ihave Hl := (pointsTo_share (PosShare.mem_left_op_right (qSh (jL L)).left)).2 $$ [Hll Hlr]
        · isplitl [Hll] <;> iassumption
        ihave Hr := (pointsTo_share (PosShare.mem_left_op_right (qSh (jL L)).right)).2 $$ [Hrl Hrr]
        · isplitl [Hrl] <;> iassumption
        ihave Hs := (pointsTo_share (PosShare.mem_left_op_right (qSh (jL L)))).2 $$ [Hl Hr]
        · isplitl [Hl] <;> iassumption
        iexact Hs
    isplitl [Hi' Hg' Hbufs]
    · isplitl [Hi']; · iexists _; iexact Hi'
      isplitl [Hg']; · iexists _; iexact Hg'
      iexact Hbufs
    isplitl [Hg0 Hg1 Hg2 Hg3 Hg4 Hg5 Hg6 Hg7 Hss HsA HsB HsC]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Hss]; · iexact Hss
      isplitl [HsA]; · iexact HsA
      isplitl [HsB]; · iexact HsB
      iexact HsC
    iexists _; isplitr
    swap; · iexact HO
    ipureintro; intro p hp
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    exact .inl hp
  · have h16 : (L 1).val < 16 := (L 1).isLt
    have h15 : (L 1).val = 15 := by
      have := mt (cond1_iff L).mpr hc1
      omega
    have hc2 : Scalar.cmpi .ne (Scalar.extui (Scalar.cmpi .eq (BitVec.ofNat 32 (L 1).val) 15#32)) 0#32 = 1#1 := (cond2_iff L).mpr h15
    ihave Hsh' := (Entails.of_eq (show (shSlicePts (F := F) d (cV L) (jL L) fsh : sProp 𝕄)
        = (shK2).view.loc (V d (cV L) (jV L)) ↦[(shK2).view.set]{fullShare} fsh by rw [set_shK2 L h15]; rfl)) $$ Hsh
    sl_exec
    -- the slice staged is at the table's values on its own elements
    ihave Hsh2 := (Entails.of_eq (stage2_eq (F := F) m d L h15 fsh (tile_body.sl.dma0_3 m d) rfl)) $$ Hsh'
    -- the barrier: the slice handed over in sixteen shares, a share of the whole table received
    ihave Hpays := (pays_intro (F := F) m d L) $$ Hsh2
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsrc := (pays_elim (F := F) m d L) $$ Hgot
    -- the gathers read the list: its words are row numbers in range
    have hC := idx_inb (F := F) m d L hpre fi (tile_body.sl.dma0_2 m d L) rfl
    have hin0 : ∀ x, ((iK0).view.read (Elt F) (View.write (Elt F) (iV).view fi (tile_body.sl.dma0_2 m d L) Finset.univ) x).toNat < S1000x128.size gathers_S1000x128_S64x128.axis := fun x => hC _
    have hin1 : ∀ x, ((iK1).view.read (Elt F) (View.write (Elt F) (iV).view fi (tile_body.sl.dma0_2 m d L) Finset.univ) x).toNat < S1000x128.size gathers_S1000x128_S64x128.axis := fun x => hC _
    have hin2 : ∀ x, ((iK2).view.read (Elt F) (View.write (Elt F) (iV).view fi (tile_body.sl.dma0_2 m d L) Finset.univ) x).toNat < S1000x128.size gathers_S1000x128_S64x128.axis := fun x => hC _
    have hin3 : ∀ x, ((iK3).view.read (Elt F) (View.write (Elt F) (iV).view fi (tile_body.sl.dma0_2 m d L) Finset.univ) x).toNat < S1000x128.size gathers_S1000x128_S64x128.axis := fun x => hC _
    have hin4 : ∀ x, ((iK4).view.read (Elt F) (View.write (Elt F) (iV).view fi (tile_body.sl.dma0_2 m d L) Finset.univ) x).toNat < S1000x128.size gathers_S1000x128_S64x128.axis := fun x => hC _
    have hin5 : ∀ x, ((iK5).view.read (Elt F) (View.write (Elt F) (iV).view fi (tile_body.sl.dma0_2 m d L) Finset.univ) x).toNat < S1000x128.size gathers_S1000x128_S64x128.axis := fun x => hC _
    have hin6 : ∀ x, ((iK6).view.read (Elt F) (View.write (Elt F) (iV).view fi (tile_body.sl.dma0_2 m d L) Finset.univ) x).toNat < S1000x128.size gathers_S1000x128_S64x128.axis := fun x => hC _
    have hin7 : ∀ x, ((iK7).view.read (Elt F) (View.write (Elt F) (iV).view fi (tile_body.sl.dma0_2 m d L) Finset.univ) x).toNat < S1000x128.size gathers_S1000x128_S64x128.axis := fun x => hC _
    have _plan : Transfers.BatchOf (V d (cV L) (jV L)) (SemLoc.dma (sig := sig) cc0_scratch4.sem) 8 := trivial
    have hsplit : (oRowPts d (wid (cL L) (jL L)) (m (oLoc d)) : sProp 𝕄)
        = iprop(((oK0 L).view.loc (V d (cV L) (jV L)) ↦[(oK0 L).view.set]{fullShare} m (oLoc d)) ∗ ((oK1 L).view.loc (V d (cV L) (jV L)) ↦[(oK1 L).view.set]{fullShare} m (oLoc d)) ∗ ((oK2 L).view.loc (V d (cV L) (jV L)) ↦[(oK2 L).view.set]{fullShare} m (oLoc d)) ∗ ((oK3 L).view.loc (V d (cV L) (jV L)) ↦[(oK3 L).view.set]{fullShare} m (oLoc d)) ∗ ((oK4 L).view.loc (V d (cV L) (jV L)) ↦[(oK4 L).view.set]{fullShare} m (oLoc d)) ∗ ((oK5 L).view.loc (V d (cV L) (jV L)) ↦[(oK5 L).view.set]{fullShare} m (oLoc d)) ∗ ((oK6 L).view.loc (V d (cV L) (jV L)) ↦[(oK6 L).view.set]{fullShare} m (oLoc d)) ∗ ((oK7 L).view.loc (V d (cV L) (jV L)) ↦[(oK7 L).view.set]{fullShare} m (oLoc d))) := oRow_split8 (F := F) d L (m (oLoc d))
    ihave Ho' := (Entails.of_eq hsplit) $$ Ho
    icases Ho' with ⟨Ho0, Ho1, Ho2, Ho3, Ho4, Ho5, Ho6, Ho7⟩
    -- eight gathers in flight at once: eight shares of the table
    ihave Hsrc' := (Entails.of_eq (show (shSharePts (F := F) m d (cV L) (jL L) : sProp 𝕄) = (shV).view.loc (V d (cV L) (jV L)) ↦{qSh (jL L)} tabSh m d (cV L) from rfl)) $$ Hsrc
    ihave H2 := (pointsTo_share (PosShare.mem_left_op_right (qSh (jL L)))).1 $$ Hsrc'
    icases H2 with ⟨Hl, Hr⟩
    ihave H2 := (pointsTo_share (PosShare.mem_left_op_right (qSh (jL L)).left)).1 $$ Hl
    icases H2 with ⟨Hll, Hlr⟩
    ihave H2 := (pointsTo_share (PosShare.mem_left_op_right (qSh (jL L)).right)).1 $$ Hr
    icases H2 with ⟨Hrl, Hrr⟩
    ihave H2 := (pointsTo_share (PosShare.mem_left_op_right (qSh (jL L)).left.left)).1 $$ Hll
    icases H2 with ⟨Hlll, Hllr⟩
    ihave H2 := (pointsTo_share (PosShare.mem_left_op_right (qSh (jL L)).left.right)).1 $$ Hlr
    icases H2 with ⟨Hlrl, Hlrr⟩
    ihave H2 := (pointsTo_share (PosShare.mem_left_op_right (qSh (jL L)).right.left)).1 $$ Hrl
    icases H2 with ⟨Hrll, Hrlr⟩
    ihave H2 := (pointsTo_share (PosShare.mem_left_op_right (qSh (jL L)).right.right)).1 $$ Hrr
    icases H2 with ⟨Hrrl, Hrrr⟩
    sl_exec
    sl_step
    -- each piece of the block holds the rows its gather named: the lookup's values
    have hval0 : (oK0 L).view.read (Elt F) ((oK0 L).view.writes (Elt F) (m (oLoc d)) [⟨Rect.whole S64x128, tile_body.sl.dma8_1 m d L fi fg hin0 hin1 hin2 hin3 hin4 hin5 hin6 hin7⟩]) = (oK0 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 0).trans (gath_eq_G (F := F) m d L hpre (cV L) 0 fi hin0)
    have hval1 : (oK1 L).view.read (Elt F) ((oK1 L).view.writes (Elt F) (m (oLoc d)) [⟨Rect.whole S64x128, tile_body.sl.dma9_1 m d L fi fg hin0 hin1 hin2 hin3 hin4 hin5 hin6 hin7⟩]) = (oK1 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 1).trans (gath_eq_G (F := F) m d L hpre (cV L) 1 fi hin1)
    have hval2 : (oK2 L).view.read (Elt F) ((oK2 L).view.writes (Elt F) (m (oLoc d)) [⟨Rect.whole S64x128, tile_body.sl.dma10_1 m d L fi fg hin0 hin1 hin2 hin3 hin4 hin5 hin6 hin7⟩]) = (oK2 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 2).trans (gath_eq_G (F := F) m d L hpre (cV L) 2 fi hin2)
    have hval3 : (oK3 L).view.read (Elt F) ((oK3 L).view.writes (Elt F) (m (oLoc d)) [⟨Rect.whole S64x128, tile_body.sl.dma11_1 m d L fi fg hin0 hin1 hin2 hin3 hin4 hin5 hin6 hin7⟩]) = (oK3 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 3).trans (gath_eq_G (F := F) m d L hpre (cV L) 3 fi hin3)
    have hval4 : (oK4 L).view.read (Elt F) ((oK4 L).view.writes (Elt F) (m (oLoc d)) [⟨Rect.whole S64x128, tile_body.sl.dma12_1 m d L fi fg hin0 hin1 hin2 hin3 hin4 hin5 hin6 hin7⟩]) = (oK4 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 4).trans (gath_eq_G (F := F) m d L hpre (cV L) 4 fi hin4)
    have hval5 : (oK5 L).view.read (Elt F) ((oK5 L).view.writes (Elt F) (m (oLoc d)) [⟨Rect.whole S64x128, tile_body.sl.dma13_1 m d L fi fg hin0 hin1 hin2 hin3 hin4 hin5 hin6 hin7⟩]) = (oK5 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 5).trans (gath_eq_G (F := F) m d L hpre (cV L) 5 fi hin5)
    have hval6 : (oK6 L).view.read (Elt F) ((oK6 L).view.writes (Elt F) (m (oLoc d)) [⟨Rect.whole S64x128, tile_body.sl.dma14_1 m d L fi fg hin0 hin1 hin2 hin3 hin4 hin5 hin6 hin7⟩]) = (oK6 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 6).trans (gath_eq_G (F := F) m d L hpre (cV L) 6 fi hin6)
    have hval7 : (oK7 L).view.read (Elt F) ((oK7 L).view.writes (Elt F) (m (oLoc d)) [⟨Rect.whole S64x128, tile_body.sl.dma15_1 m d L fi fg hin0 hin1 hin2 hin3 hin4 hin5 hin6 hin7⟩]) = (oK7 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 7).trans (gath_eq_G (F := F) m d L hpre (cV L) 7 fi hin7)
    ihave Ho0 := (Entails.of_eq (pts_congr_read (F := F) (V d (cV L) (jV L)) (oK0 L) ((oK0 L).view.writes (Elt F) (m (oLoc d)) [⟨Rect.whole S64x128, tile_body.sl.dma8_1 m d L fi fg hin0 hin1 hin2 hin3 hin4 hin5 hin6 hin7⟩]) (GblkAt m d) fullShare hval0)) $$ Ho0
    ihave Ho1 := (Entails.of_eq (pts_congr_read (F := F) (V d (cV L) (jV L)) (oK1 L) ((oK1 L).view.writes (Elt F) (m (oLoc d)) [⟨Rect.whole S64x128, tile_body.sl.dma9_1 m d L fi fg hin0 hin1 hin2 hin3 hin4 hin5 hin6 hin7⟩]) (GblkAt m d) fullShare hval1)) $$ Ho1
    ihave Ho2 := (Entails.of_eq (pts_congr_read (F := F) (V d (cV L) (jV L)) (oK2 L) ((oK2 L).view.writes (Elt F) (m (oLoc d)) [⟨Rect.whole S64x128, tile_body.sl.dma10_1 m d L fi fg hin0 hin1 hin2 hin3 hin4 hin5 hin6 hin7⟩]) (GblkAt m d) fullShare hval2)) $$ Ho2
    ihave Ho3 := (Entails.of_eq (pts_congr_read (F := F) (V d (cV L) (jV L)) (oK3 L) ((oK3 L).view.writes (Elt F) (m (oLoc d)) [⟨Rect.whole S64x128, tile_body.sl.dma11_1 m d L fi fg hin0 hin1 hin2 hin3 hin4 hin5 hin6 hin7⟩]) (GblkAt m d) fullShare hval3)) $$ Ho3
    ihave Ho4 := (Entails.of_eq (pts_congr_read (F := F) (V d (cV L) (jV L)) (oK4 L) ((oK4 L).view.writes (Elt F) (m (oLoc d)) [⟨Rect.whole S64x128, tile_body.sl.dma12_1 m d L fi fg hin0 hin1 hin2 hin3 hin4 hin5 hin6 hin7⟩]) (GblkAt m d) fullShare hval4)) $$ Ho4
    ihave Ho5 := (Entails.of_eq (pts_congr_read (F := F) (V d (cV L) (jV L)) (oK5 L) ((oK5 L).view.writes (Elt F) (m (oLoc d)) [⟨Rect.whole S64x128, tile_body.sl.dma13_1 m d L fi fg hin0 hin1 hin2 hin3 hin4 hin5 hin6 hin7⟩]) (GblkAt m d) fullShare hval5)) $$ Ho5
    ihave Ho6 := (Entails.of_eq (pts_congr_read (F := F) (V d (cV L) (jV L)) (oK6 L) ((oK6 L).view.writes (Elt F) (m (oLoc d)) [⟨Rect.whole S64x128, tile_body.sl.dma14_1 m d L fi fg hin0 hin1 hin2 hin3 hin4 hin5 hin6 hin7⟩]) (GblkAt m d) fullShare hval6)) $$ Ho6
    ihave Ho7 := (Entails.of_eq (pts_congr_read (F := F) (V d (cV L) (jV L)) (oK7 L) ((oK7 L).view.writes (Elt F) (m (oLoc d)) [⟨Rect.whole S64x128, tile_body.sl.dma15_1 m d L fi fg hin0 hin1 hin2 hin3 hin4 hin5 hin6 hin7⟩]) (GblkAt m d) fullShare hval7)) $$ Ho7
    have hsplitG : (oRowPts d (wid (cL L) (jL L)) (GblkAt m d) : sProp 𝕄)
        = iprop(((oK0 L).view.loc (V d (cV L) (jV L)) ↦[(oK0 L).view.set]{fullShare} GblkAt m d) ∗ ((oK1 L).view.loc (V d (cV L) (jV L)) ↦[(oK1 L).view.set]{fullShare} GblkAt m d) ∗ ((oK2 L).view.loc (V d (cV L) (jV L)) ↦[(oK2 L).view.set]{fullShare} GblkAt m d) ∗ ((oK3 L).view.loc (V d (cV L) (jV L)) ↦[(oK3 L).view.set]{fullShare} GblkAt m d) ∗ ((oK4 L).view.loc (V d (cV L) (jV L)) ↦[(oK4 L).view.set]{fullShare} GblkAt m d) ∗ ((oK5 L).view.loc (V d (cV L) (jV L)) ↦[(oK5 L).view.set]{fullShare} GblkAt m d) ∗ ((oK6 L).view.loc (V d (cV L) (jV L)) ↦[(oK6 L).view.set]{fullShare} GblkAt m d) ∗ ((oK7 L).view.loc (V d (cV L) (jV L)) ↦[(oK7 L).view.set]{fullShare} GblkAt m d)) := oRow_split8 (F := F) d L (GblkAt m d)
    isplitl [Ht' He' Ho0 Ho1 Ho2 Ho3 Ho4 Ho5 Ho6 Ho7 Hlll Hllr Hlrl Hlrr Hrll Hrlr Hrrl Hrrr]
    · isplitl [Ht' He']
      · isplitl [Ht']; · iexact Ht'
        iexact He'
      isplitl [Ho0 Ho1 Ho2 Ho3 Ho4 Ho5 Ho6 Ho7]
      · iapply (Entails.of_eq hsplitG.symm)
        isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        iexact Ho7
      · ihave Hll := (pointsTo_share (PosShare.mem_left_op_right (qSh (jL L)).left.left)).2 $$ [Hlll Hllr]
        · isplitl [Hlll] <;> iassumption
        ihave Hlr := (pointsTo_share (PosShare.mem_left_op_right (qSh (jL L)).left.right)).2 $$ [Hlrl Hlrr]
        · isplitl [Hlrl] <;> iassumption
        ihave Hrl := (pointsTo_share (PosShare.mem_left_op_right (qSh (jL L)).right.left)).2 $$ [Hrll Hrlr]
        · isplitl [Hrll] <;> iassumption
        ihave Hrr := (pointsTo_share (PosShare.mem_left_op_right (qSh (jL L)).right.right)).2 $$ [Hrrl Hrrr]
        · isplitl [Hrrl] <;> iassumption
        ihave Hl := (pointsTo_share (PosShare.mem_left_op_right (qSh (jL L)).left)).2 $$ [Hll Hlr]
        · isplitl [Hll] <;> iassumption
        ihave Hr := (pointsTo_share (PosShare.mem_left_op_right (qSh (jL L)).right)).2 $$ [Hrl Hrr]
        · isplitl [Hrl] <;> iassumption
        ihave Hs := (pointsTo_share (PosShare.mem_left_op_right (qSh (jL L)))).2 $$ [Hl Hr]
        · isplitl [Hl] <;> iassumption
        iexact Hs
    isplitl [Hi' Hg' Hbufs]
    · isplitl [Hi']; · iexists _; iexact Hi'
      isplitl [Hg']; · iexists _; iexact Hg'
      iexact Hbufs
    isplitl [Hg0 Hg1 Hg2 Hg3 Hg4 Hg5 Hg6 Hg7 Hss HsA HsB HsC]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Hss]; · iexact Hss
      isplitl [HsA]; · iexact HsA
      isplitl [HsB]; · iexact HsB
      iexact HsC
    iexists _; isplitr
    swap; · iexact HO
    ipureintro; intro p hp
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather (coordsV c s)
          tV (Memref.isWhole_whole _) eV (Memref.isWhole_whole _) oV (Memref.isWhole_whole _) iV (Memref.isWhole_whole _)
          gV (Memref.isWhole_whole _) shV (Memref.isWhole_whole _) cc0_scratch3 cc0_scratch4 cc0_scoped0 cc0_scoped1 cc0_scoped2) ⟨⟩ c s := rfl

set_option maxRecDepth 16384 in
theorem tileObl (hF : (K (F := F)).Facts) (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Tile

end Cert.Proof.KernelIdealRun

end
-- ==== Proof.BitsGeom.lean ====
/- The geometry and the value of one vector subcore's task.

   Subcore (c, s) is worker w = 2 s + c. Its list of 512 row numbers is cut into eight pieces of 64; piece j names the rows
   gathered into block j of its staging array [8, 64, 128], and block j is copied out to block (w, j) of the result
   [32, 8, 64, 128]. This file says where each of these windows sits in its buffer (an index of the window, as an index of
   the buffer), which elements of the buffer each window covers, that the eight result windows of a worker are disjoint
   and together are the worker's rows, and that what piece j gathers is the lookup's values on result window (w, j). -/
import proofs.«219841_g10136122819095_week1_w1_367_25_alg».proof.Proof.BitsCells
import Idealize.ShloMosaic.Lib.ValueLayout
import Idealize.ShloMosaic.Lib.ValueIdx

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The windows -/

omit [FloatOps F] in
theorem g_inb (j : Fin 8) : ∀ a, (![j.val, 0, 0] : Fin 3 → Nat) a + S1x64x128.size a ≤ S8x64x128.size a := by
  have := j.isLt
  intro a
  match a with
  | ⟨0, _⟩ => show j.val + 1 ≤ 8; omega
  | ⟨1, _⟩ => show 0 + 64 ≤ 64; omega
  | ⟨2, _⟩ => show 0 + 128 ≤ 128; omega

omit [FloatOps F] in
theorem i_inb (j : Fin 8) : ∀ a, (![64 * j.val] : Fin 1 → Nat) a + S64.size a ≤ S512.size a := by
  have := j.isLt
  intro a
  match a with
  | ⟨0, _⟩ => show 64 * j.val + 64 ≤ 512; omega

/-- Block j of the staging array, as a matrix of 64 rows. -/
abbrev gKg (j : Fin 8) : Memref sig .scVector .vmem S64x128 .f32 :=
  (gV.slice (Rect.unit (s := S8x64x128) ![j.val, 0, 0] S1x64x128.size (g_inb j)) (fun _ => rfl)).squeeze S64x128 squeezes_S1x64x128_S64x128
/-- Piece j of the list of row numbers. -/
abbrev iKg (j : Fin 8) : Memref sig .scVector .vmem S64 .i32 :=
  iV.slice (Rect.unit (s := S512) ![64 * j.val] S64.size (i_inb j)) (fun _ => rfl)
/-- The worker's rows of the result, as an array [8, 64, 128]. -/
abbrev oRowK (L : grid0.Coords) : Memref sig .scVector .hbm S8x64x128 .f32 :=
  (oV.slice (Rect.unit (s := S32x8x64x128) (k0_off3 L) S1x8x64x128.size (k0_off3_inb L)) (fun _ => rfl)).squeeze S8x64x128 squeezes_S1x8x64x128_S8x64x128
/-- Block j of the worker's rows of the result, as a matrix of 64 rows. -/
abbrev oKg (L : grid0.Coords) (j : Fin 8) : Memref sig .scVector .hbm S64x128 .f32 :=
  ((oRowK L).slice (Rect.unit (s := S8x64x128) ![j.val, 0, 0] S1x64x128.size (g_inb j)) (fun _ => rfl)).squeeze S64x128 squeezes_S1x64x128_S64x128
/-- The worker's 512 row numbers. -/
abbrev tK (L : grid0.Coords) : Memref sig .scVector .hbm S512 .i32 :=
  tV.slice (Rect.unit (s := S16384) (k0_off1 L) S512.size (k0_off1_inb L)) (fun _ => rfl)
/-- The shared copy of the table, whole. -/
abbrev shAll : Memref sig .scVector .shared S1000x128 .f32 :=
  shV.slice (Rect.unit (s := S1000x128) ![0, 0] S1000x128.size inb_S1000x128_S1000x128_0_0) (fun _ => rfl)

/-- The subcore's coordinates, and its worker number. -/
abbrev cL (L : grid0.Coords) : Fin 2 := Fin.cast rfl (L 0)
abbrev jL (L : grid0.Coords) : Fin 16 := Fin.cast rfl (L 1)

/-! These are the program's own windows. -/

example : gKg 0 = (gV.slice (Rect.unit (s := S8x64x128) ![0, 0, 0] S1x64x128.size inb_S8x64x128_S1x64x128_0_0_0) (fun _ => rfl)).squeeze S64x128 squeezes_S1x64x128_S64x128 := rfl
example : gKg 1 = (gV.slice (Rect.unit (s := S8x64x128) ![1, 0, 0] S1x64x128.size inb_S8x64x128_S1x64x128_1_0_0) (fun _ => rfl)).squeeze S64x128 squeezes_S1x64x128_S64x128 := rfl
example : gKg 2 = (gV.slice (Rect.unit (s := S8x64x128) ![2, 0, 0] S1x64x128.size inb_S8x64x128_S1x64x128_2_0_0) (fun _ => rfl)).squeeze S64x128 squeezes_S1x64x128_S64x128 := rfl
example : gKg 3 = (gV.slice (Rect.unit (s := S8x64x128) ![3, 0, 0] S1x64x128.size inb_S8x64x128_S1x64x128_3_0_0) (fun _ => rfl)).squeeze S64x128 squeezes_S1x64x128_S64x128 := rfl
example : gKg 4 = (gV.slice (Rect.unit (s := S8x64x128) ![4, 0, 0] S1x64x128.size inb_S8x64x128_S1x64x128_4_0_0) (fun _ => rfl)).squeeze S64x128 squeezes_S1x64x128_S64x128 := rfl
example : gKg 5 = (gV.slice (Rect.unit (s := S8x64x128) ![5, 0, 0] S1x64x128.size inb_S8x64x128_S1x64x128_5_0_0) (fun _ => rfl)).squeeze S64x128 squeezes_S1x64x128_S64x128 := rfl
example : gKg 6 = (gV.slice (Rect.unit (s := S8x64x128) ![6, 0, 0] S1x64x128.size inb_S8x64x128_S1x64x128_6_0_0) (fun _ => rfl)).squeeze S64x128 squeezes_S1x64x128_S64x128 := rfl
example : gKg 7 = (gV.slice (Rect.unit (s := S8x64x128) ![7, 0, 0] S1x64x128.size inb_S8x64x128_S1x64x128_7_0_0) (fun _ => rfl)).squeeze S64x128 squeezes_S1x64x128_S64x128 := rfl
example : iKg 0 = iV.slice (Rect.unit (s := S512) ![0] S64.size inb_S512_S64_0) (fun _ => rfl) := rfl
example : iKg 1 = iV.slice (Rect.unit (s := S512) ![64] S64.size inb_S512_S64_64) (fun _ => rfl) := rfl
example : iKg 2 = iV.slice (Rect.unit (s := S512) ![128] S64.size inb_S512_S64_128) (fun _ => rfl) := rfl
example : iKg 3 = iV.slice (Rect.unit (s := S512) ![192] S64.size inb_S512_S64_192) (fun _ => rfl) := rfl
example : iKg 4 = iV.slice (Rect.unit (s := S512) ![256] S64.size inb_S512_S64_256) (fun _ => rfl) := rfl
example : iKg 5 = iV.slice (Rect.unit (s := S512) ![320] S64.size inb_S512_S64_320) (fun _ => rfl) := rfl
example : iKg 6 = iV.slice (Rect.unit (s := S512) ![384] S64.size inb_S512_S64_384) (fun _ => rfl) := rfl
example : iKg 7 = iV.slice (Rect.unit (s := S512) ![448] S64.size inb_S512_S64_448) (fun _ => rfl) := rfl
example (L : grid0.Coords) : oKg L 0 = ((oRowK L).slice (Rect.unit (s := S8x64x128) ![0, 0, 0] S1x64x128.size inb_S8x64x128_S1x64x128_0_0_0) (fun _ => rfl)).squeeze S64x128 squeezes_S1x64x128_S64x128 := rfl
example (L : grid0.Coords) : oKg L 1 = ((oRowK L).slice (Rect.unit (s := S8x64x128) ![1, 0, 0] S1x64x128.size inb_S8x64x128_S1x64x128_1_0_0) (fun _ => rfl)).squeeze S64x128 squeezes_S1x64x128_S64x128 := rfl
example (L : grid0.Coords) : oKg L 2 = ((oRowK L).slice (Rect.unit (s := S8x64x128) ![2, 0, 0] S1x64x128.size inb_S8x64x128_S1x64x128_2_0_0) (fun _ => rfl)).squeeze S64x128 squeezes_S1x64x128_S64x128 := rfl
example (L : grid0.Coords) : oKg L 3 = ((oRowK L).slice (Rect.unit (s := S8x64x128) ![3, 0, 0] S1x64x128.size inb_S8x64x128_S1x64x128_3_0_0) (fun _ => rfl)).squeeze S64x128 squeezes_S1x64x128_S64x128 := rfl
example (L : grid0.Coords) : oKg L 4 = ((oRowK L).slice (Rect.unit (s := S8x64x128) ![4, 0, 0] S1x64x128.size inb_S8x64x128_S1x64x128_4_0_0) (fun _ => rfl)).squeeze S64x128 squeezes_S1x64x128_S64x128 := rfl
example (L : grid0.Coords) : oKg L 5 = ((oRowK L).slice (Rect.unit (s := S8x64x128) ![5, 0, 0] S1x64x128.size inb_S8x64x128_S1x64x128_5_0_0) (fun _ => rfl)).squeeze S64x128 squeezes_S1x64x128_S64x128 := rfl
example (L : grid0.Coords) : oKg L 6 = ((oRowK L).slice (Rect.unit (s := S8x64x128) ![6, 0, 0] S1x64x128.size inb_S8x64x128_S1x64x128_6_0_0) (fun _ => rfl)).squeeze S64x128 squeezes_S1x64x128_S64x128 := rfl
example (L : grid0.Coords) : oKg L 7 = ((oRowK L).slice (Rect.unit (s := S8x64x128) ![7, 0, 0] S1x64x128.size inb_S8x64x128_S1x64x128_7_0_0) (fun _ => rfl)).squeeze S64x128 squeezes_S1x64x128_S64x128 := rfl

/-! ## Where a window's index sits in its buffer -/

omit [FloatOps F] in
theorem L0_lt (L : grid0.Coords) : (L 0).val < 2 := (L 0).isLt
omit [FloatOps F] in
theorem L1_lt (L : grid0.Coords) : (L 1).val < 16 := (L 1).isLt

omit [FloatOps F] in
/-- The block-j rectangle of an array [8, 64, 128] puts (0, r, k) at (j, r, k). -/
theorem g_rect_emb (j : Fin 8) (r : Fin 64) (k : Fin 128) :
    (Rect.unit (s := S8x64x128) ![j.val, 0, 0] S1x64x128.size (g_inb j)).emb (ix3 (⟨0, Nat.one_pos⟩ : Fin 1) r k) = ix3 j r k := by
  funext a; refine Fin.ext ?_
  match a with
  | ⟨0, _⟩ => show j.val + 1 * 0 = j.val; omega
  | ⟨1, _⟩ => show 0 + 1 * r.val = r.val; omega
  | ⟨2, _⟩ => show 0 + 1 * k.val = k.val; omega

omit [FloatOps F] in
/-- Element (r, k) of staging block j is element (j, r, k) of the staging array. -/
theorem gK_emb (j : Fin 8) (r : Fin 64) (k : Fin 128) : ((gKg j).view.emb (ix2 r k) : S8x64x128.Idx) = ix3 j r k :=
  (congrArg (Rect.unit (s := S8x64x128) ![j.val, 0, 0] S1x64x128.size (g_inb j)).emb
    (reshapeEquiv_ix2_1ab squeezes_S1x64x128_S64x128.numel_eq r k)).trans (g_rect_emb j r k)

omit [FloatOps F] in
/-- Word r of piece j of the list is word 64 j + r of the list. -/
theorem iK_emb (j : Fin 8) (r : Fin 64) :
    ((iKg j).view.emb (ix1 r) : S512.Idx) = ix1 ⟨64 * j.val + r.val, by have := j.isLt; have := r.isLt; omega⟩ := by
  funext a; refine Fin.ext ?_
  match a with
  | ⟨0, _⟩ => show 64 * j.val + 1 * r.val = 64 * j.val + r.val; omega

omit [FloatOps F] in
/-- Word z of the worker's row numbers is word 1024 s + 512 c + z of t. -/
theorem tK_emb (L : grid0.Coords) (z : Fin 512) :
    ((tK L).view.emb (ix1 z) : S16384.Idx)
      = ix1 ⟨1024 * (L 1).val + 512 * (L 0).val + z.val, by have := L0_lt L; have := L1_lt L; have := z.isLt; omega⟩ := by
  funext a; refine Fin.ext ?_
  match a with
  | ⟨0, _⟩ =>
    show k0_off1 L 0 + 1 * z.val = 1024 * (L 1).val + 512 * (L 0).val + z.val
    rw [k0_off1_eq L]
    show 1024 * (L 1).val + 512 * (L 0).val + 1 * z.val = _
    omega

omit [FloatOps F] in
/-- Element (r, k) of result block (w, j) is element (w, j, r, k) of the result. -/
theorem oK_emb (L : grid0.Coords) (j : Fin 8) (r : Fin 64) (k : Fin 128) :
    ((oKg L j).view.emb (ix2 r k) : S32x8x64x128.Idx) = ix4 (wid (cL L) (jL L)) j r k := by
  have h1 : ((oKg L j).view.emb (ix2 r k) : S32x8x64x128.Idx)
      = (Rect.unit (s := S32x8x64x128) (k0_off3 L) S1x8x64x128.size (k0_off3_inb L)).emb
          (Shape.reshapeEquiv squeezes_S1x8x64x128_S8x64x128.numel_eq
            ((Rect.unit (s := S8x64x128) ![j.val, 0, 0] S1x64x128.size (g_inb j)).emb
              (Shape.reshapeEquiv squeezes_S1x64x128_S64x128.numel_eq (ix2 r k)))) := rfl
  rw [h1, reshapeEquiv_ix2_1ab squeezes_S1x64x128_S64x128.numel_eq r k, g_rect_emb j r k,
    reshapeEquiv_ix3_1abc squeezes_S1x8x64x128_S8x64x128.numel_eq j r k]
  funext a; refine Fin.ext ?_
  match a with
  | ⟨0, _⟩ =>
    show k0_off3 L 0 + 1 * 0 = 2 * (L 1).val + (L 0).val
    rw [k0_off3_eq L]; show 2 * (L 1).val + (L 0).val + 1 * 0 = _; omega
  | ⟨1, _⟩ =>
    show k0_off3 L 1 + 1 * j.val = j.val
    rw [k0_off3_eq L]; show 0 + 1 * j.val = _; omega
  | ⟨2, _⟩ =>
    show k0_off3 L 2 + 1 * r.val = r.val
    rw [k0_off3_eq L]; show 0 + 1 * r.val = _; omega
  | ⟨3, _⟩ =>
    show k0_off3 L 3 + 1 * k.val = k.val
    rw [k0_off3_eq L]; show 0 + 1 * k.val = _; omega

/-! ## Which elements a window covers -/

omit [FloatOps F] in
/-- Staging block j is the elements whose first coordinate is j. -/
theorem mem_gK (j : Fin 8) (x : S8x64x128.Idx) : x ∈ (gKg j).view.set ↔ x 0 = j := by
  obtain ⟨a, b, c, rfl⟩ : ∃ (a : Fin 8) (b : Fin 64) (c : Fin 128), x = ix3 a b c := ⟨x 0, x 1, x 2, eq_ix3 x⟩
  show ix3 a b c ∈ Finset.univ.map (gKg j).view.emb ↔ a = j
  rw [Finset.mem_map]
  constructor
  · rintro ⟨p, -, hp⟩
    obtain ⟨r, k, rfl⟩ : ∃ (r : Fin 64) (k : Fin 128), p = ix2 r k := ⟨p 0, p 1, eq_ix2 p⟩
    have h := (gK_emb j r k).symm.trans hp
    exact (congrFun h 0).symm
  · rintro rfl
    exact ⟨ix2 b c, Finset.mem_univ _, gK_emb a b c⟩

omit [FloatOps F] in
/-- Result block (w, j) is the elements whose first two coordinates are w and j. -/
theorem mem_oK (L : grid0.Coords) (j : Fin 8) (x : S32x8x64x128.Idx) :
    x ∈ (oKg L j).view.set ↔ (x 0 = wid (cL L) (jL L) ∧ x 1 = j) := by
  obtain ⟨a, b, c, e, rfl⟩ : ∃ (a : Fin 32) (b : Fin 8) (c : Fin 64) (e : Fin 128), x = ix4 a b c e := ⟨x 0, x 1, x 2, x 3, eq_ix4 x⟩
  show ix4 a b c e ∈ Finset.univ.map (oKg L j).view.emb ↔ (a = wid (cL L) (jL L) ∧ b = j)
  rw [Finset.mem_map]
  constructor
  · rintro ⟨p, -, hp⟩
    obtain ⟨r, k, rfl⟩ : ∃ (r : Fin 64) (k : Fin 128), p = ix2 r k := ⟨p 0, p 1, eq_ix2 p⟩
    have h := (oK_emb L j r k).symm.trans hp
    exact ⟨(congrFun h 0).symm, (congrFun h 1).symm⟩
  · rintro ⟨rfl, rfl⟩
    exact ⟨ix2 c e, Finset.mem_univ _, oK_emb L b c e⟩

omit [FloatOps F] in
/-- Rows w of the result are the elements whose first coordinate is w. -/
theorem mem_oRowSet (w : Fin 32) (x : S32x8x64x128.Idx) : x ∈ oRowSet w ↔ x 0 = w := by
  show x ∈ ((oV).view.slice (orow w)).set ↔ _
  rw [View.set_slice_whole, Rect.mem_set_unit]
  have h0 : (x 0).val < 32 := (x 0).isLt
  have h1 : (x 1).val < 8 := (x 1).isLt
  have h2 : (x 2).val < 64 := (x 2).isLt
  have h3 : (x 3).val < 128 := (x 3).isLt
  constructor
  · intro h
    have := h 0
    refine Fin.ext ?_
    have e1 : S32x8x64x128.partIx 0 w.val 0 = w.val := rfl
    have e2 : S32x8x64x128.partSize 0 32 0 = 1 := rfl
    rw [e1, e2] at this
    omega
  · intro h a
    match a with
    | ⟨0, _⟩ =>
      show w.val * 1 ≤ (x 0).val ∧ (x 0).val < w.val * 1 + 1
      rw [h]; omega
    | ⟨1, _⟩ => show 0 * 8 ≤ (x 1).val ∧ (x 1).val < 0 * 8 + 8; omega
    | ⟨2, _⟩ => show 0 * 64 ≤ (x 2).val ∧ (x 2).val < 0 * 64 + 64; omega
    | ⟨3, _⟩ => show 0 * 128 ≤ (x 3).val ∧ (x 3).val < 0 * 128 + 128; omega

omit [FloatOps F] in
/-- A worker's eight result blocks are pairwise disjoint, -/
theorem oK_disjoint (L : grid0.Coords) :
    ∀ i ∈ (Finset.univ : Finset (Fin 8)), ∀ j ∈ (Finset.univ : Finset (Fin 8)), i ≠ j →
      Disjoint ((oKg L i).view.set) ((oKg L j).view.set) := by
  intro i _ j _ hij
  rw [Finset.disjoint_left]
  intro x hi hj
  exact hij (((mem_oK L i x).1 hi).2.symm.trans ((mem_oK L j x).1 hj).2)

omit [FloatOps F] in
/-- and together they are the worker's rows. -/
theorem oK_cover (L : grid0.Coords) :
    (Finset.univ : Finset (Fin 8)).biUnion (fun j => (oKg L j).view.set) = oRowSet (wid (cL L) (jL L)) := by
  ext x
  rw [Finset.mem_biUnion, mem_oRowSet]
  constructor
  · rintro ⟨j, -, hj⟩
    exact ((mem_oK L j x).1 hj).1
  · intro h
    exact ⟨x 1, Finset.mem_univ _, (mem_oK L (x 1) x).2 ⟨h, rfl⟩⟩

/-- Holding a worker's rows of the result is holding its eight blocks. -/
theorem oRow_split (d : Dev nD) (L : grid0.Coords) (f : Buf (Elt F) (oLoc d)) :
    (oRowPts d (wid (cL L) (jL L)) f : sProp 𝕄)
      = bigSep Finset.univ fun j : Fin 8 =>
          (oKg L j).view.loc (V d ((L 0).castLE hcore0) ((L 1).castLE hsub0)) ↦[(oKg L j).view.set]{fullShare} f := by
  show (oLoc d ↦[oRowSet (wid (cL L) (jL L))]{fullShare} f : sProp 𝕄) = _
  rw [← oK_cover L, pointsTo_biUnion _ _ (oK_disjoint L)]

/-! ## The value of one gather -/

section Value

variable (d : Dev nD) (L : grid0.Coords)

/-- The worker's row numbers read t from word 1024 s + 512 c on. -/
theorem tK_read (z : Fin 512) :
    (tK L).view.read (Elt F) (m (tLoc d)) (ix1 z)
      = m (tLoc d) (ix1 ⟨1024 * (L 1).val + 512 * (L 0).val + z.val, by have := L0_lt L; have := L1_lt L; have := z.isLt; omega⟩) :=
  congrArg (m (tLoc d)) (tK_emb L z)

/-- Word r of piece j of the list, once the worker's row numbers have landed in the list, is word 512 w + 64 j + r of t. -/
theorem list_read (j : Fin 8) (r : Fin 64) (fi : (iV).view.ty.Contents (Elt F)) :
    (iKg j).view.read (Elt F) (View.write (Elt F) (iV).view fi ((tK L).view.read (Elt F) (m (tLoc d))) Finset.univ) (ix1 r)
      = m (tLoc d) (ix1 ⟨1024 * (L 1).val + 512 * (L 0).val + (64 * j.val + r.val),
          by have := L0_lt L; have := L1_lt L; have := j.isLt; have := r.isLt; omega⟩) := by
  have hC : View.write (Elt F) (iV).view fi ((tK L).view.read (Elt F) (m (tLoc d))) Finset.univ
      = (tK L).view.read (Elt F) (m (tLoc d)) := View.write_whole_univ cc0_scratch0 fi _
  rw [hC]
  show (tK L).view.read (Elt F) (m (tLoc d)) ((iKg j).view.emb (ix1 r)) = _
  rw [iK_emb]
  exact tK_read m d L ⟨64 * j.val + r.val, by have := j.isLt; have := r.isLt; omega⟩

/-- The shared table, at the table's values, reads the table. -/
theorem sh_read (c : Fin τ.nSC) (y : S1000x128.Idx) : (shAll).view.read (Elt F) (tabSh m d c) y = m (eLoc d) y := by
  show m (eLoc d) ((Rect.unit (s := S1000x128) ![0, 0] S1000x128.size inb_S1000x128_S1000x128_0_0).emb y) = m (eLoc d) y
  refine congrArg (m (eLoc d)) ?_
  funext a; refine Fin.ext ?_
  match a with
  | ⟨0, _⟩ => show 0 + 1 * (y 0).val = (y 0).val; omega
  | ⟨1, _⟩ => show 0 + 1 * (y 1).val = (y 1).val; omega

omit [FloatOps F] in
/-- A rank-one shape's k-th index in row-major order is k. -/
theorem rowMajor_symm_ix1 (r : Fin 64) (h : 64 = S64.numel) : S64.rowMajor.symm (r.cast h) = ix1 r :=
  (Equiv.symm_apply_eq _).2 (Fin.ext (by rw [Shape.rowMajor_val_one]; rfl))

/-- What piece j gathers is the lookup's values on result block (w, j). -/
theorem gath_eq_G (hpre : ∀ d x, (m (tLoc d) x).toNat < 1000) (c : Fin τ.nSC) (j : Fin 8) (fi : (iV).view.ty.Contents (Elt F))
    (hin : ∀ x, ((iKg j).view.read (Elt F) (View.write (Elt F) (iV).view fi ((tK L).view.read (Elt F) (m (tLoc d))) Finset.univ) x).toNat
      < S1000x128.size gathers_S1000x128_S64x128.axis) :
    SparseCore.gatherPayload gathers_S1000x128_S64x128 ((shAll).view.read (Elt F) (tabSh m d c))
        (SparseCore.rows ((iKg j).view.read (Elt F) (View.write (Elt F) (iV).view fi ((tK L).view.read (Elt F) (m (tLoc d))) Finset.univ)) rfl hin)
      = (oKg L j).view.read (Elt F) (GblkAt m d) := by
  funext x
  obtain ⟨r, k, rfl⟩ : ∃ (r : Fin 64) (k : Fin 128), x = ix2 r k := ⟨x 0, x 1, eq_ix2 x⟩
  have hw : (wid (cL L) (jL L)).val = 2 * (L 1).val + (L 0).val := rfl
  have hR : (oKg L j).view.read (Elt F) (GblkAt m d) (ix2 r k)
      = m (eLoc d) (ix2 (Cert.Spec.rowOf (m (tLoc d)) (flatRow (ix4 (wid (cL L) (jL L)) j r k))) k) := by
    show GblkAt m d ((oKg L j).view.emb (ix2 r k)) = _
    rw [oK_emb]; rfl
  have hL : SparseCore.gatherPayload gathers_S1000x128_S64x128 ((shAll).view.read (Elt F) (tabSh m d c))
        (SparseCore.rows ((iKg j).view.read (Elt F) (View.write (Elt F) (iV).view fi ((tK L).view.read (Elt F) (m (tLoc d))) Finset.univ)) rfl hin) (ix2 r k)
      = m (eLoc d) (ix2 (SparseCore.rows ((iKg j).view.read (Elt F) (View.write (Elt F) (iV).view fi ((tK L).view.read (Elt F) (m (tLoc d))) Finset.univ)) rfl hin r) k) := by
    show (shAll).view.read (Elt F) (tabSh m d c) (gathers_S1000x128_S64x128.idx _ (ix2 r k)) = _
    rw [sh_read]
    refine congrArg (m (eLoc d)) ?_
    funext b; refine Fin.ext ?_
    match b with
    | ⟨0, _⟩ => rfl
    | ⟨1, _⟩ => rfl
  rw [hL, hR]
  refine congrArg (fun i : Fin 1000 => m (eLoc d) (ix2 i k)) (Fin.ext ?_)
  refine (congrArg (fun y => ((iKg j).view.read (Elt F) (View.write (Elt F) (iV).view fi ((tK L).view.read (Elt F) (m (tLoc d))) Finset.univ) y).toNat) (rowMajor_symm_ix1 r rfl)).trans ?_
  show ((iKg j).view.read (Elt F) (View.write (Elt F) (iV).view fi ((tK L).view.read (Elt F) (m (tLoc d))) Finset.univ) (ix1 r)).toNat
    = (Cert.Spec.rowOf (m (tLoc d)) (flatRow (ix4 (wid (cL L) (jL L)) j r k))).val
  rw [list_read, Cert.Spec.rowOf_val _ _ (hpre d _)]
  have hN : (⟨1024 * (L 1).val + 512 * (L 0).val + (64 * j.val + r.val),
        by have := L0_lt L; have := L1_lt L; have := j.isLt; have := r.isLt; omega⟩ : Fin 16384)
      = flatRow (ix4 (wid (cL L) (jL L)) j r k) := Fin.ext (by
    show 1024 * (L 1).val + 512 * (L 0).val + (64 * j.val + r.val) = 512 * (wid (cL L) (jL L)).val + 64 * j.val + r.val
    rw [hw]; omega)
  rw [hN]

end Value

/-! ## Eight blocks written one after the other -/

section Nested

variable (p : Fin 8 → S64x128.Idx → Elt F .f32) (fg : (gV).view.ty.Contents (Elt F))

/-- A write into one block leaves what another block reads. -/
theorem read_write_other {i j : Fin 8} (hij : j ≠ i) (f : (gV).view.ty.Contents (Elt F)) (w : S64x128.Idx → Elt F .f32) :
    (gKg j).view.read (Elt F) (View.write (Elt F) (gKg i).view f w Finset.univ) = (gKg j).view.read (Elt F) f := by
  funext x
  obtain ⟨r, k, rfl⟩ : ∃ (r : Fin 64) (k : Fin 128), x = ix2 r k := ⟨x 0, x 1, eq_ix2 x⟩
  have hx : ((gKg j).view.emb (ix2 r k) : S8x64x128.Idx) ∉ (gKg i).view.setOn Finset.univ := by
    rw [View.setOn_univ, mem_gK, gK_emb]; exact hij
  show View.write (Elt F) (gKg i).view f w Finset.univ ((gKg j).view.emb (ix2 r k)) = f ((gKg j).view.emb (ix2 r k))
  exact View.write_of_not_mem (v := (gKg i).view) f w Finset.univ hx

/-- The staging array after blocks 0 … n − 1 have been written, in that order, with the payloads p 0 … p (n − 1). -/
def nest : (n : Nat) → n ≤ 8 → (gV).view.ty.Contents (Elt F)
  | 0, _ => fg
  | n + 1, h => View.write (Elt F) (gKg ⟨n, h⟩).view (nest n (Nat.le_of_succ_le h)) (p ⟨n, h⟩) Finset.univ

/-- Each block written so far reads its own payload: the later writes go to other blocks. -/
theorem read_nest : ∀ (n : Nat) (h : n ≤ 8) (j : Fin 8), j.val < n → (gKg j).view.read (Elt F) (nest p fg n h) = p j
  | 0, _, j, hj => absurd hj (Nat.not_lt_zero _)
  | n + 1, h, j, hj => by
    by_cases e : j.val = n
    · obtain rfl : j = ⟨n, h⟩ := Fin.ext e
      exact View.read_write_univ _ _
    · have hne : j ≠ ⟨n, h⟩ := fun e' => e (congrArg Fin.val e')
      show (gKg j).view.read (Elt F) (View.write (Elt F) (gKg ⟨n, h⟩).view (nest p fg n (Nat.le_of_succ_le h)) (p ⟨n, h⟩) Finset.univ) = p j
      rw [read_write_other hne]
      exact read_nest n _ j (by omega)

/-- All eight, written out. -/
theorem read_nested (j : Fin 8) :
    (gKg j).view.read (Elt F)
      (View.write (Elt F) (gKg 7).view (View.write (Elt F) (gKg 6).view (View.write (Elt F) (gKg 5).view
        (View.write (Elt F) (gKg 4).view (View.write (Elt F) (gKg 3).view (View.write (Elt F) (gKg 2).view
          (View.write (Elt F) (gKg 1).view (View.write (Elt F) (gKg 0).view fg (p 0) Finset.univ) (p 1) Finset.univ)
            (p 2) Finset.univ) (p 3) Finset.univ) (p 4) Finset.univ) (p 5) Finset.univ) (p 6) Finset.univ) (p 7) Finset.univ)
      = p j :=
  read_nest p fg 8 le_rfl j j.isLt

end Nested

end Cert.Proof.KernelRun

end
-- ==== Proof.BitsTile.lean ====
/- One vector subcore's task, run once at a symbolic subcore (c, s). -/
import proofs.«219841_g10136122819095_week1_w1_367_25_alg».proof.Proof.BitsGeom

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- Every row number is in range: what the precondition gives. -/
def PreOK : Prop := ∀ (d : Dev nD) (x : S16384.Idx), (m (tLoc d) x).toNat < 1000

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl

/-- The two staging conditions, decided over the grid: subcores 0 .. 14 stage 64 rows, subcore 15 the last 40. -/
theorem cond1_iff : ∀ i : grid0.Coords, (k0_cond1 i = 1#1) ↔ (i 1).val < 15 := by decide +kernel
theorem cond2_iff : ∀ i : grid0.Coords,
    (Scalar.cmpi .ne (Scalar.extui (Scalar.cmpi .eq (BitVec.ofNat 32 (i 1).val) 15#32)) 0#32 = 1#1) ↔ (i 1).val = 15 := by decide +kernel

/-! ### The scratch as the body slices it -/

abbrev iK0 : Memref sig .scVector .vmem S64 .i32 := iV.slice (Rect.unit (s := S512) ![0] S64.size inb_S512_S64_0) (fun _ => rfl)
abbrev gK0 : Memref sig .scVector .vmem S64x128 .f32 := (gV.slice (Rect.unit (s := S8x64x128) ![0, 0, 0] S1x64x128.size inb_S8x64x128_S1x64x128_0_0_0) (fun _ => rfl)).squeeze S64x128 squeezes_S1x64x128_S64x128
abbrev gs0 : DmaSem sig := ((cc0_scratch3.slice (Rect.unit (s := S8) ![0] S1.size inb_S8_S1_0)).squeeze S_ squeezes_S1_S_).sem
abbrev iK1 : Memref sig .scVector .vmem S64 .i32 := iV.slice (Rect.unit (s := S512) ![64] S64.size inb_S512_S64_64) (fun _ => rfl)
abbrev gK1 : Memref sig .scVector .vmem S64x128 .f32 := (gV.slice (Rect.unit (s := S8x64x128) ![1, 0, 0] S1x64x128.size inb_S8x64x128_S1x64x128_1_0_0) (fun _ => rfl)).squeeze S64x128 squeezes_S1x64x128_S64x128
abbrev gs1 : DmaSem sig := ((cc0_scratch3.slice (Rect.unit (s := S8) ![1] S1.size inb_S8_S1_1)).squeeze S_ squeezes_S1_S_).sem
abbrev iK2 : Memref sig .scVector .vmem S64 .i32 := iV.slice (Rect.unit (s := S512) ![128] S64.size inb_S512_S64_128) (fun _ => rfl)
abbrev gK2 : Memref sig .scVector .vmem S64x128 .f32 := (gV.slice (Rect.unit (s := S8x64x128) ![2, 0, 0] S1x64x128.size inb_S8x64x128_S1x64x128_2_0_0) (fun _ => rfl)).squeeze S64x128 squeezes_S1x64x128_S64x128
abbrev gs2 : DmaSem sig := ((cc0_scratch3.slice (Rect.unit (s := S8) ![2] S1.size inb_S8_S1_2)).squeeze S_ squeezes_S1_S_).sem
abbrev iK3 : Memref sig .scVector .vmem S64 .i32 := iV.slice (Rect.unit (s := S512) ![192] S64.size inb_S512_S64_192) (fun _ => rfl)
abbrev gK3 : Memref sig .scVector .vmem S64x128 .f32 := (gV.slice (Rect.unit (s := S8x64x128) ![3, 0, 0] S1x64x128.size inb_S8x64x128_S1x64x128_3_0_0) (fun _ => rfl)).squeeze S64x128 squeezes_S1x64x128_S64x128
abbrev gs3 : DmaSem sig := ((cc0_scratch3.slice (Rect.unit (s := S8) ![3] S1.size inb_S8_S1_3)).squeeze S_ squeezes_S1_S_).sem
abbrev iK4 : Memref sig .scVector .vmem S64 .i32 := iV.slice (Rect.unit (s := S512) ![256] S64.size inb_S512_S64_256) (fun _ => rfl)
abbrev gK4 : Memref sig .scVector .vmem S64x128 .f32 := (gV.slice (Rect.unit (s := S8x64x128) ![4, 0, 0] S1x64x128.size inb_S8x64x128_S1x64x128_4_0_0) (fun _ => rfl)).squeeze S64x128 squeezes_S1x64x128_S64x128
abbrev gs4 : DmaSem sig := ((cc0_scratch3.slice (Rect.unit (s := S8) ![4] S1.size inb_S8_S1_4)).squeeze S_ squeezes_S1_S_).sem
abbrev iK5 : Memref sig .scVector .vmem S64 .i32 := iV.slice (Rect.unit (s := S512) ![320] S64.size inb_S512_S64_320) (fun _ => rfl)
abbrev gK5 : Memref sig .scVector .vmem S64x128 .f32 := (gV.slice (Rect.unit (s := S8x64x128) ![5, 0, 0] S1x64x128.size inb_S8x64x128_S1x64x128_5_0_0) (fun _ => rfl)).squeeze S64x128 squeezes_S1x64x128_S64x128
abbrev gs5 : DmaSem sig := ((cc0_scratch3.slice (Rect.unit (s := S8) ![5] S1.size inb_S8_S1_5)).squeeze S_ squeezes_S1_S_).sem
abbrev iK6 : Memref sig .scVector .vmem S64 .i32 := iV.slice (Rect.unit (s := S512) ![384] S64.size inb_S512_S64_384) (fun _ => rfl)
abbrev gK6 : Memref sig .scVector .vmem S64x128 .f32 := (gV.slice (Rect.unit (s := S8x64x128) ![6, 0, 0] S1x64x128.size inb_S8x64x128_S1x64x128_6_0_0) (fun _ => rfl)).squeeze S64x128 squeezes_S1x64x128_S64x128
abbrev gs6 : DmaSem sig := ((cc0_scratch3.slice (Rect.unit (s := S8) ![6] S1.size inb_S8_S1_6)).squeeze S_ squeezes_S1_S_).sem
abbrev iK7 : Memref sig .scVector .vmem S64 .i32 := iV.slice (Rect.unit (s := S512) ![448] S64.size inb_S512_S64_448) (fun _ => rfl)
abbrev gK7 : Memref sig .scVector .vmem S64x128 .f32 := (gV.slice (Rect.unit (s := S8x64x128) ![7, 0, 0] S1x64x128.size inb_S8x64x128_S1x64x128_7_0_0) (fun _ => rfl)).squeeze S64x128 squeezes_S1x64x128_S64x128
abbrev gs7 : DmaSem sig := ((cc0_scratch3.slice (Rect.unit (s := S8) ![7] S1.size inb_S8_S1_7)).squeeze S_ squeezes_S1_S_).sem

abbrev cellOf (d : Dev nD) (c : Fin τ.nSC) (i : Fin τ.nSub) (s : DmaSem sig) : GSem nD τ sig := (V d c i, .dma s)

omit [FloatOps F] in
theorem reg_not_scoped : ∀ s : Sem sig, (SemLoc.reg s : SemLoc sig).isScoped .scVector = false := by decide
omit [FloatOps F] in
theorem dma_scoped : ∀ s : DmaSem sig, (SemLoc.dma s : SemLoc sig).isScoped .scVector = true := by decide

omit [FloatOps F] in
theorem ownCells_V (c : Fin τ.nSC) (i : Fin τ.nSub) :
    ownCells (V d c i) = (Finset.univ : Finset (DmaSem sig)).image (cellOf d c i) := by
  ext g
  rcases g with ⟨thr, sm⟩
  simp only [mem_ownCells, Finset.mem_image, Finset.mem_univ, true_and, cellOf]
  constructor
  · rintro ⟨rfl, h⟩
    cases sm with
    | reg s => exact absurd (show (SemLoc.reg s : SemLoc sig).isScoped .scVector = true from h) (by rw [reg_not_scoped s]; exact Bool.false_ne_true)
    | dma s => exact ⟨s, rfl⟩
  · rintro ⟨s, hs⟩
    obtain ⟨rfl, rfl⟩ := Prod.mk.inj hs
    exact ⟨rfl, dma_scoped s⟩

omit [FloatOps F] in
theorem ownSems0_V (c : Fin τ.nSC) (i : Fin τ.nSub) :
    (ownSems0 (V d c i) : sProp 𝕄)
      = iprop(semVal (cellOf d c i gs0) 0 ∗ semVal (cellOf d c i gs1) 0 ∗ semVal (cellOf d c i gs2) 0 ∗ semVal (cellOf d c i gs3) 0 ∗ semVal (cellOf d c i gs4) 0 ∗ semVal (cellOf d c i gs5) 0 ∗ semVal (cellOf d c i gs6) 0 ∗ semVal (cellOf d c i gs7) 0
          ∗ semVal (cellOf d c i cc0_scratch4.sem) 0 ∗ semVal (cellOf d c i cc0_scoped0.sem) 0 ∗ semVal (cellOf d c i cc0_scoped1.sem) 0
          ∗ semVal (cellOf d c i cc0_scoped2.sem) 0) := by
  unfold SparseCore.Cfg.ownSems0
  rw [ownCells_V, SparseCore.bigSep_image_of_injOn (fun a _ b _ e => SemLoc.dma.inj (Prod.mk.inj e).2),
    show (Finset.univ : Finset (DmaSem sig)) = {0, 1, 2, 3, 4, 5, 6, 7, 8, 9, 10, 11} by decide]
  rw [bigSep_insert (by decide), bigSep_insert (by decide), bigSep_insert (by decide), bigSep_insert (by decide), bigSep_insert (by decide),
    bigSep_insert (by decide), bigSep_insert (by decide), bigSep_insert (by decide), bigSep_insert (by decide), bigSep_insert (by decide),
    bigSep_insert (by decide), bigSep_singleton]
  rfl

omit [FloatOps F] in
/-- The two scratch buffers are the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### The arrays as the subcore addresses them -/

omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_eV (q : PosShare TreeShare) (f : Buf (Elt F) (eLoc d)) :
    ((eV).view.loc (V d (cV L) (jV L)) ↦{q} f : sProp 𝕄) = eLoc d ↦{q} f := rfl
omit [FloatOps F] in
theorem pts_iV (f : Buf (Elt F) ((V d (cV L) (jV L)).loc cc0_scratch0)) :
    ((iV).view.loc (V d (cV L) (jV L)) ↦{fullShare} f : sProp 𝕄) = (V d (cV L) (jV L)).loc cc0_scratch0 ↦{fullShare} f := rfl
omit [FloatOps F] in
theorem pts_gV (f : Buf (Elt F) ((V d (cV L) (jV L)).loc cc0_scratch1)) :
    ((gV).view.loc (V d (cV L) (jV L)) ↦{fullShare} f : sProp 𝕄) = (V d (cV L) (jV L)).loc cc0_scratch1 ↦{fullShare} f := rfl

/-- The slice of the shared table the body stages into, when the subcore is one of the first fifteen, -/
abbrev shK1 (h : k0_cond1 L = 1#1) : Memref sig .scVector .shared S64x128 .f32 :=
  shV.slice (Rect.unit (s := S1000x128) (k0_off2 L) S64x128.size (k0_off2_inb L h)) (fun _ => rfl)
/-- and when it is the last. -/
abbrev shK2 : Memref sig .scVector .shared S40x128 .f32 :=
  shV.slice (Rect.unit (s := S1000x128) ![960, 0] S40x128.size inb_S1000x128_S40x128_960_0) (fun _ => rfl)

omit [FloatOps F] in
theorem set_shK1 (h : k0_cond1 L = 1#1) : (shK1 L h).view.set = shSet (jL L) := by
  have hlt : (L 1).val < 15 := (cond1_iff L).mp h
  show ((shV).view.slice _).set = _
  rw [View.set_slice, show ∀ (r : Rect S1000x128), r.set.map (shV).view.emb = r.set from fun r => Finset.map_refl]
  ext x
  rw [Rect.mem_set_unit, Rect.mem_set_unit, k0_off2_eq]
  have e : shLen (jL L) = 64 := by unfold shLen; rw [if_pos (show (jL L).val < 15 from hlt)]
  rw [e]
  exact forall_congr' fun a => by
    match a with
    | ⟨0, _⟩ => exact Iff.rfl
    | ⟨1, _⟩ => exact Iff.rfl

omit [FloatOps F] in
theorem set_shK2 (h : (L 1).val = 15) : (shK2).view.set = shSet (jL L) := by
  show ((shV).view.slice _).set = _
  rw [View.set_slice, show ∀ (r : Rect S1000x128), r.set.map (shV).view.emb = r.set from fun r => Finset.map_refl]
  ext x
  rw [Rect.mem_set_unit, Rect.mem_set_unit]
  have e : shLen (jL L) = 40 := by
    unfold shLen; rw [if_neg (show ¬ (jL L).val < 15 from by show ¬ (L 1).val < 15; omega)]
  rw [e]
  have e2 : (jL L).val = 15 := h
  exact forall_congr' fun a => by
    match a with
    | ⟨0, _⟩ => show (960 ≤ (x 0).val ∧ (x 0).val < 960 + 40) ↔ (64 * (jL L).val ≤ (x 0).val ∧ (x 0).val < 64 * (jL L).val + 40); rw [e2]
    | ⟨1, _⟩ => exact Iff.rfl

/-! ### The slices of the shared table are disjoint and cover it -/

omit [FloatOps F] in
theorem sh_disjoint : ∀ i ∈ (Finset.univ : Finset (Fin 16)), ∀ j ∈ (Finset.univ : Finset (Fin 16)), i ≠ j → Disjoint (shSet i) (shSet j) := by
  intro i _ j _ hij
  have hi : shLen i ≤ 64 := by unfold shLen; split <;> omega
  have hj : shLen j ≤ 64 := by unfold shLen; split <;> omega
  have hne : i.val ≠ j.val := fun e => hij (Fin.ext e)
  refine Rect.unit_disjoint (0 : Fin 2) ?_
  show 64 * i.val + shLen i ≤ 64 * j.val ∨ 64 * j.val + shLen j ≤ 64 * i.val
  omega

omit [FloatOps F] in
theorem sh_cover : (Finset.univ : Finset (Fin 16)).biUnion shSet = Finset.univ := by
  ext x
  simp only [Finset.mem_biUnion, Finset.mem_univ, true_and, iff_true]
  have h0 : (x 0).val < 1000 := (x 0).isLt
  have h1 : (x 1).val < 128 := (x 1).isLt
  refine ⟨⟨min ((x 0).val / 64) 15, by omega⟩, ?_⟩
  rw [Rect.mem_set_unit]
  intro a
  match a with
  | ⟨0, _⟩ =>
    show 64 * min ((x 0).val / 64) 15 ≤ (x 0).val ∧ (x 0).val < 64 * min ((x 0).val / 64) 15 + shLen ⟨min ((x 0).val / 64) 15, _⟩
    unfold shLen; dsimp only
    split <;> omega
  | ⟨1, _⟩ => exact ⟨Nat.zero_le _, by show (x 1).val < 0 + 128; omega⟩

/-! ### The barrier carries the table -/

/-- A points-to over exactly a memory reference's own elements depends only on what the reference reads. -/
theorem pts_congr_read {cs : Space} {s : Shape} {e : EltTy} (c : Thread nD τ) (mr : Memref sig c.2.kind cs s e) (f g : Buf (Elt F) (mr.view.loc c))
    (q : PosShare TreeShare) (h : mr.view.read (Elt F) f = mr.view.read (Elt F) g) :
    (mr.view.loc c ↦[mr.view.set]{q} f : sProp 𝕄) = mr.view.loc c ↦[mr.view.set]{q} g :=
  pointsTo_congr fun i hi => by
    obtain ⟨x, -, rfl⟩ := Finset.mem_map.mp hi
    have := congrFun h x
    rw [View.read_apply, View.read_apply] at this
    exact (cast_inj _).mp this

/-- The slices of the table the body copies from. -/
abbrev eK1 (h : k0_cond1 L = 1#1) : Memref sig .scVector .hbm S64x128 .f32 :=
  eV.slice (Rect.unit (s := S1000x128) (k0_off2 L) S64x128.size (k0_off2_inb L h)) (fun _ => rfl)
abbrev eK2 : Memref sig .scVector .hbm S40x128 .f32 :=
  eV.slice (Rect.unit (s := S1000x128) ![960, 0] S40x128.size inb_S1000x128_S40x128_960_0) (fun _ => rfl)

/-- Once the copy has landed, the staged slice holds the table's values on its own elements. -/
theorem stage1_eq (hc1 : k0_cond1 L = 1#1) (fsh : Buf (Elt F) (shLoc d (cV L))) (w : S64x128.Idx → Elt F .f32)
    (hw : w = (eK1 L hc1).view.read (Elt F) (m (eLoc d))) :
    ((shK1 L hc1).view.loc (V d (cV L) (jV L)) ↦[(shK1 L hc1).view.set]{fullShare} (shK1 L hc1).view.writes (Elt F) fsh [⟨Rect.whole S64x128, w⟩] : sProp 𝕄)
      = shLoc d (cV L) ↦[shSet (jL L)]{fullShare} tabSh m d (cV L) := by
  subst hw
  rw [pts_congr_read (F := F) (V d (cV L) (jV L)) (shK1 L hc1) _ (tabSh m d (cV L)) fullShare (by rw [View.read_writes_whole]; rfl), set_shK1]
  rfl
theorem stage2_eq (h15 : (L 1).val = 15) (fsh : Buf (Elt F) (shLoc d (cV L))) (w : S40x128.Idx → Elt F .f32)
    (hw : w = (eK2).view.read (Elt F) (m (eLoc d))) :
    ((shK2).view.loc (V d (cV L) (jV L)) ↦[(shK2).view.set]{fullShare} (shK2).view.writes (Elt F) fsh [⟨Rect.whole S40x128, w⟩] : sProp 𝕄)
      = shLoc d (cV L) ↦[shSet (jL L)]{fullShare} tabSh m d (cV L) := by
  subst hw
  rw [pts_congr_read (F := F) (V d (cV L) (jV L)) (shK2) _ (tabSh m d (cV L)) fullShare (by rw [View.read_writes_whole]; rfl), set_shK2 L h15]
  rfl

/-- Before the barrier: the slice a subcore staged, at the table's values, is what its sixteen arrivals hand over. -/
theorem pays_intro : (shLoc d (cV L) ↦[shSet (jL L)]{fullShare} tabSh m d (cV L) : sProp 𝕄)
    ⊢ bigSep Finset.univ fun j : Fin (grid0.bound 1) => (bRd (F := F) m).payload (bcell d (cV L) (j.castLE hsub0)) 0 (jV L).val := by
  rw [pointsTo_piecesOf (shSet (jL L)) (tabSh m d (cV L)) (by decide : 0 < 16) fullShare]
  refine bigSep_mono (s := (Finset.univ : Finset (Fin 16))) fun j _ => ?_
  show _ ⊢ bPay m (bcell d (cV L) (j.castLE hsub0)) (jV L).val
  unfold bPay; dsimp only
  rw [dif_pos (show (jV L).val < 16 from (jV L).isLt)]
  try exact Entails.of_eq rfl

/-- After it: what a subcore's own round collected is its share of the whole shared table at the table's values. -/
theorem pays_elim : (bigSep ((bRd (F := F) m).duties (bcell d (cV L) (jV L)) 0 \ ∅) fun n => (bRd (F := F) m).payload (bcell d (cV L) (jV L)) 0 n)
    ⊢ (shSharePts m d (cV L) (jL L) : sProp 𝕄) := by
  rw [Finset.sdiff_empty, bRd_duties₀, SparseCore.bigSep_image_of_injOn (fun a _ b _ e => Fin.val_injective e)]
  refine (bigSep_mono (Ψ := fun n : Fin τ.nSub => (shLoc d (cV L) ↦[shSet (Fin.cast nSub_eq n)]{qSh (jL L)} tabSh m d (cV L) : sProp 𝕄)) fun n _ => ?_).trans ?_
  · show bPay m (bcell d (cV L) (jV L)) n.val ⊢ _
    unfold bPay; dsimp only
    rw [dif_pos (show n.val < 16 from n.isLt)]
    try exact Entails.of_eq rfl
  · show bigSep (Finset.univ : Finset (Fin 16)) (fun n => (shLoc d (cV L) ↦[shSet n]{qSh (jL L)} tabSh m d (cV L) : sProp 𝕄)) ⊢ _
    rw [← pointsTo_biUnion Finset.univ (ℓ := shLoc d (cV L)) shSet sh_disjoint, sh_cover]
    try exact Entails.of_eq rfl

abbrev oK0 : Memref sig .scVector .hbm S64x128 .f32 := ((oRowK L).slice (Rect.unit (s := S8x64x128) ![0, 0, 0] S1x64x128.size inb_S8x64x128_S1x64x128_0_0_0) (fun _ => rfl)).squeeze S64x128 squeezes_S1x64x128_S64x128
abbrev oK1 : Memref sig .scVector .hbm S64x128 .f32 := ((oRowK L).slice (Rect.unit (s := S8x64x128) ![1, 0, 0] S1x64x128.size inb_S8x64x128_S1x64x128_1_0_0) (fun _ => rfl)).squeeze S64x128 squeezes_S1x64x128_S64x128
abbrev oK2 : Memref sig .scVector .hbm S64x128 .f32 := ((oRowK L).slice (Rect.unit (s := S8x64x128) ![2, 0, 0] S1x64x128.size inb_S8x64x128_S1x64x128_2_0_0) (fun _ => rfl)).squeeze S64x128 squeezes_S1x64x128_S64x128
abbrev oK3 : Memref sig .scVector .hbm S64x128 .f32 := ((oRowK L).slice (Rect.unit (s := S8x64x128) ![3, 0, 0] S1x64x128.size inb_S8x64x128_S1x64x128_3_0_0) (fun _ => rfl)).squeeze S64x128 squeezes_S1x64x128_S64x128
abbrev oK4 : Memref sig .scVector .hbm S64x128 .f32 := ((oRowK L).slice (Rect.unit (s := S8x64x128) ![4, 0, 0] S1x64x128.size inb_S8x64x128_S1x64x128_4_0_0) (fun _ => rfl)).squeeze S64x128 squeezes_S1x64x128_S64x128
abbrev oK5 : Memref sig .scVector .hbm S64x128 .f32 := ((oRowK L).slice (Rect.unit (s := S8x64x128) ![5, 0, 0] S1x64x128.size inb_S8x64x128_S1x64x128_5_0_0) (fun _ => rfl)).squeeze S64x128 squeezes_S1x64x128_S64x128
abbrev oK6 : Memref sig .scVector .hbm S64x128 .f32 := ((oRowK L).slice (Rect.unit (s := S8x64x128) ![6, 0, 0] S1x64x128.size inb_S8x64x128_S1x64x128_6_0_0) (fun _ => rfl)).squeeze S64x128 squeezes_S1x64x128_S64x128
abbrev oK7 : Memref sig .scVector .hbm S64x128 .f32 := ((oRowK L).slice (Rect.unit (s := S8x64x128) ![7, 0, 0] S1x64x128.size inb_S8x64x128_S1x64x128_7_0_0) (fun _ => rfl)).squeeze S64x128 squeezes_S1x64x128_S64x128

/-- The subcore's block of the result is its eight pieces. -/
theorem oRow_split8 (f : Buf (Elt F) (oLoc d)) : (oRowPts d (wid (cL L) (jL L)) f : sProp 𝕄)
    = iprop(((oK0 L).view.loc (V d (cV L) (jV L)) ↦[(oK0 L).view.set]{fullShare} f) ∗ ((oK1 L).view.loc (V d (cV L) (jV L)) ↦[(oK1 L).view.set]{fullShare} f) ∗ ((oK2 L).view.loc (V d (cV L) (jV L)) ↦[(oK2 L).view.set]{fullShare} f) ∗ ((oK3 L).view.loc (V d (cV L) (jV L)) ↦[(oK3 L).view.set]{fullShare} f) ∗ ((oK4 L).view.loc (V d (cV L) (jV L)) ↦[(oK4 L).view.set]{fullShare} f) ∗ ((oK5 L).view.loc (V d (cV L) (jV L)) ↦[(oK5 L).view.set]{fullShare} f) ∗ ((oK6 L).view.loc (V d (cV L) (jV L)) ↦[(oK6 L).view.set]{fullShare} f) ∗ ((oK7 L).view.loc (V d (cV L) (jV L)) ↦[(oK7 L).view.set]{fullShare} f)) := by
  rw [oRow_split (F := F) d L f, show (Finset.univ : Finset (Fin 8)) = {0, 1, 2, 3, 4, 5, 6, 7} by decide,
    bigSep_insert (by decide), bigSep_insert (by decide), bigSep_insert (by decide), bigSep_insert (by decide), bigSep_insert (by decide),
    bigSep_insert (by decide), bigSep_insert (by decide), bigSep_singleton]
  rfl

/-- Every word of the list, once the slice of t has landed in it, is a row number in range. -/
theorem idx_inb (hpre : PreOK m) (fi : Buf (Elt F) ((V d (cV L) (jV L)).loc cc0_scratch0)) (pay : S512.Idx → Elt F .i32)
    (hpay : pay = (tK L).view.read (Elt F) (m (tLoc d))) :
    ∀ y : S512.Idx, ((View.write (Elt F) (iV).view fi pay Finset.univ : S512.Idx → BitVec 32) y).toNat < 1000 := by
  subst hpay; intro y
  rw [View.write_whole_univ]
  rw [show ∀ j, (tK L).view.read (Elt F) (m (tLoc d)) j = m (tLoc d) ((tK L).view.emb j) from fun j => (View.read_apply _ _).trans (cast_eq _ _)]
  exact hpre d _

set_option maxHeartbeats 4000000 in
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (inPts m d (qTile (cL L) (jL L)) ∗ oRowPts d (wid (cL L) (jL L)) (m (oLoc d)) ∗ ∃ f, shSlicePts d (cV L) (jL L) f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather L tV (Memref.isWhole_whole _) eV (Memref.isWhole_whole _) oV (Memref.isWhole_whole _) iV (Memref.isWhole_whole _)
            gV (Memref.isWhole_whole _) shV (Memref.isWhole_whole _) cc0_scratch3 cc0_scratch4 cc0_scoped0 cc0_scoped1 cc0_scoped2)
          fun _ => iprop((inPts m d (qTile (cL L) (jL L)) ∗ oRowPts d (wid (cL L) (jL L)) (GblkAt m d) ∗ shSharePts m d (cV L) (jL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__gather_eq_skeleton]; unfold cc0__gather_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨⟨Ht, He⟩, Ho, %fsh, Hsh⟩, ⟨⟨%fi, Hi⟩, ⟨%fg, Hg⟩, Hbufs⟩,
    ⟨Hg0, Hg1, Hg2, Hg3, Hg4, Hg5, Hg6, Hg7, Hss, HsA, HsB, HsC⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tV (F := F) d L _ _).symm) $$ Ht
  ihave He' := (Entails.of_eq (pts_eV (F := F) d L _ _).symm) $$ He
  ihave Hi' := (Entails.of_eq (pts_iV (F := F) d L _).symm) $$ Hi
  ihave Hg' := (Entails.of_eq (pts_gV (F := F) d L _).symm) $$ Hg
  by_cases hc1 : k0_cond1 L = 1#1
  · have hlt : (L 1).val < 15 := (cond1_iff L).mp hc1
    have hc2 : ¬ (Scalar.cmpi .ne (Scalar.extui (Scalar.cmpi .eq (BitVec.ofNat 32 (L 1).val) 15#32)) 0#32 = 1#1) := fun h => by
      have := (cond2_iff L).mp h; omega
    ihave Hsh' := (Entails.of_eq (show (shSlicePts (F := F) d (cV L) (jL L) fsh : sProp 𝕄)
        = (shK1 L hc1).view.loc (V d (cV L) (jV L)) ↦[(shK1 L hc1).view.set]{fullShare} fsh by rw [set_shK1]; rfl)) $$ Hsh
    sl_exec
    -- the slice staged is at the table's values on its own elements
    ihave Hsh2 := (Entails.of_eq (stage1_eq (F := F) m d L hc1 fsh (tile_body.sl.dma0_1 m d L hc1) rfl)) $$ Hsh'
    -- the barrier: the slice handed over in sixteen shares, a share of the whole table received
    ihave Hpays := (pays_intro (F := F) m d L) $$ Hsh2
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsrc := (pays_elim (F := F) m d L) $$ Hgot
    -- the gathers read the list: its words are row numbers in range
    have hC := idx_inb (F := F) m d L hpre fi (tile_body.sl.dma0 m d L) rfl
    have hin0 : ∀ x, ((iK0).view.read (Elt F) (View.write (Elt F) (iV).view fi (tile_body.sl.dma0 m d L) Finset.univ) x).toNat < S1000x128.size gathers_S1000x128_S64x128.axis := fun x => hC _
    have hin1 : ∀ x, ((iK1).view.read (Elt F) (View.write (Elt F) (iV).view fi (tile_body.sl.dma0 m d L) Finset.univ) x).toNat < S1000x128.size gathers_S1000x128_S64x128.axis := fun x => hC _
    have hin2 : ∀ x, ((iK2).view.read (Elt F) (View.write (Elt F) (iV).view fi (tile_body.sl.dma0 m d L) Finset.univ) x).toNat < S1000x128.size gathers_S1000x128_S64x128.axis := fun x => hC _
    have hin3 : ∀ x, ((iK3).view.read (Elt F) (View.write (Elt F) (iV).view fi (tile_body.sl.dma0 m d L) Finset.univ) x).toNat < S1000x128.size gathers_S1000x128_S64x128.axis := fun x => hC _
    have hin4 : ∀ x, ((iK4).view.read (Elt F) (View.write (Elt F) (iV).view fi (tile_body.sl.dma0 m d L) Finset.univ) x).toNat < S1000x128.size gathers_S1000x128_S64x128.axis := fun x => hC _
    have hin5 : ∀ x, ((iK5).view.read (Elt F) (View.write (Elt F) (iV).view fi (tile_body.sl.dma0 m d L) Finset.univ) x).toNat < S1000x128.size gathers_S1000x128_S64x128.axis := fun x => hC _
    have hin6 : ∀ x, ((iK6).view.read (Elt F) (View.write (Elt F) (iV).view fi (tile_body.sl.dma0 m d L) Finset.univ) x).toNat < S1000x128.size gathers_S1000x128_S64x128.axis := fun x => hC _
    have hin7 : ∀ x, ((iK7).view.read (Elt F) (View.write (Elt F) (iV).view fi (tile_body.sl.dma0 m d L) Finset.univ) x).toNat < S1000x128.size gathers_S1000x128_S64x128.axis := fun x => hC _
    have _plan : Transfers.BatchOf (V d (cV L) (jV L)) (SemLoc.dma (sig := sig) cc0_scratch4.sem) 8 := trivial
    have hsplit : (oRowPts d (wid (cL L) (jL L)) (m (oLoc d)) : sProp 𝕄)
        = iprop(((oK0 L).view.loc (V d (cV L) (jV L)) ↦[(oK0 L).view.set]{fullShare} m (oLoc d)) ∗ ((oK1 L).view.loc (V d (cV L) (jV L)) ↦[(oK1 L).view.set]{fullShare} m (oLoc d)) ∗ ((oK2 L).view.loc (V d (cV L) (jV L)) ↦[(oK2 L).view.set]{fullShare} m (oLoc d)) ∗ ((oK3 L).view.loc (V d (cV L) (jV L)) ↦[(oK3 L).view.set]{fullShare} m (oLoc d)) ∗ ((oK4 L).view.loc (V d (cV L) (jV L)) ↦[(oK4 L).view.set]{fullShare} m (oLoc d)) ∗ ((oK5 L).view.loc (V d (cV L) (jV L)) ↦[(oK5 L).view.set]{fullShare} m (oLoc d)) ∗ ((oK6 L).view.loc (V d (cV L) (jV L)) ↦[(oK6 L).view.set]{fullShare} m (oLoc d)) ∗ ((oK7 L).view.loc (V d (cV L) (jV L)) ↦[(oK7 L).view.set]{fullShare} m (oLoc d))) := oRow_split8 (F := F) d L (m (oLoc d))
    ihave Ho' := (Entails.of_eq hsplit) $$ Ho
    icases Ho' with ⟨Ho0, Ho1, Ho2, Ho3, Ho4, Ho5, Ho6, Ho7⟩
    -- eight gathers in flight at once: eight shares of the table
    ihave Hsrc' := (Entails.of_eq (show (shSharePts (F := F) m d (cV L) (jL L) : sProp 𝕄) = (shV).view.loc (V d (cV L) (jV L)) ↦{qSh (jL L)} tabSh m d (cV L) from rfl)) $$ Hsrc
    ihave H2 := (pointsTo_share (PosShare.mem_left_op_right (qSh (jL L)))).1 $$ Hsrc'
    icases H2 with ⟨Hl, Hr⟩
    ihave H2 := (pointsTo_share (PosShare.mem_left_op_right (qSh (jL L)).left)).1 $$ Hl
    icases H2 with ⟨Hll, Hlr⟩
    ihave H2 := (pointsTo_share (PosShare.mem_left_op_right (qSh (jL L)).right)).1 $$ Hr
    icases H2 with ⟨Hrl, Hrr⟩
    ihave H2 := (pointsTo_share (PosShare.mem_left_op_right (qSh (jL L)).left.left)).1 $$ Hll
    icases H2 with ⟨Hlll, Hllr⟩
    ihave H2 := (pointsTo_share (PosShare.mem_left_op_right (qSh (jL L)).left.right)).1 $$ Hlr
    icases H2 with ⟨Hlrl, Hlrr⟩
    ihave H2 := (pointsTo_share (PosShare.mem_left_op_right (qSh (jL L)).right.left)).1 $$ Hrl
    icases H2 with ⟨Hrll, Hrlr⟩
    ihave H2 := (pointsTo_share (PosShare.mem_left_op_right (qSh (jL L)).right.right)).1 $$ Hrr
    icases H2 with ⟨Hrrl, Hrrr⟩
    sl_exec
    sl_step
    -- each piece of the block holds the rows its gather named: the lookup's values
    have hval0 : (oK0 L).view.read (Elt F) ((oK0 L).view.writes (Elt F) (m (oLoc d)) [⟨Rect.whole S64x128, tile_body.sl.dma8 m d L fi fg hin0 hin1 hin2 hin3 hin4 hin5 hin6 hin7⟩]) = (oK0 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 0).trans (gath_eq_G (F := F) m d L hpre (cV L) 0 fi hin0)
    have hval1 : (oK1 L).view.read (Elt F) ((oK1 L).view.writes (Elt F) (m (oLoc d)) [⟨Rect.whole S64x128, tile_body.sl.dma9 m d L fi fg hin0 hin1 hin2 hin3 hin4 hin5 hin6 hin7⟩]) = (oK1 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 1).trans (gath_eq_G (F := F) m d L hpre (cV L) 1 fi hin1)
    have hval2 : (oK2 L).view.read (Elt F) ((oK2 L).view.writes (Elt F) (m (oLoc d)) [⟨Rect.whole S64x128, tile_body.sl.dma10 m d L fi fg hin0 hin1 hin2 hin3 hin4 hin5 hin6 hin7⟩]) = (oK2 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 2).trans (gath_eq_G (F := F) m d L hpre (cV L) 2 fi hin2)
    have hval3 : (oK3 L).view.read (Elt F) ((oK3 L).view.writes (Elt F) (m (oLoc d)) [⟨Rect.whole S64x128, tile_body.sl.dma11 m d L fi fg hin0 hin1 hin2 hin3 hin4 hin5 hin6 hin7⟩]) = (oK3 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 3).trans (gath_eq_G (F := F) m d L hpre (cV L) 3 fi hin3)
    have hval4 : (oK4 L).view.read (Elt F) ((oK4 L).view.writes (Elt F) (m (oLoc d)) [⟨Rect.whole S64x128, tile_body.sl.dma12 m d L fi fg hin0 hin1 hin2 hin3 hin4 hin5 hin6 hin7⟩]) = (oK4 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 4).trans (gath_eq_G (F := F) m d L hpre (cV L) 4 fi hin4)
    have hval5 : (oK5 L).view.read (Elt F) ((oK5 L).view.writes (Elt F) (m (oLoc d)) [⟨Rect.whole S64x128, tile_body.sl.dma13 m d L fi fg hin0 hin1 hin2 hin3 hin4 hin5 hin6 hin7⟩]) = (oK5 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 5).trans (gath_eq_G (F := F) m d L hpre (cV L) 5 fi hin5)
    have hval6 : (oK6 L).view.read (Elt F) ((oK6 L).view.writes (Elt F) (m (oLoc d)) [⟨Rect.whole S64x128, tile_body.sl.dma14 m d L fi fg hin0 hin1 hin2 hin3 hin4 hin5 hin6 hin7⟩]) = (oK6 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 6).trans (gath_eq_G (F := F) m d L hpre (cV L) 6 fi hin6)
    have hval7 : (oK7 L).view.read (Elt F) ((oK7 L).view.writes (Elt F) (m (oLoc d)) [⟨Rect.whole S64x128, tile_body.sl.dma15 m d L fi fg hin0 hin1 hin2 hin3 hin4 hin5 hin6 hin7⟩]) = (oK7 L).view.read (Elt F) (GblkAt m d) := by
      rw [View.read_writes_whole]
      exact (read_nested (F := F) ![tile_body.sl.gather0 m d L fi hin0, tile_body.sl.gather1 m d L fi hin1, tile_body.sl.gather2 m d L fi hin2, tile_body.sl.gather3 m d L fi hin3, tile_body.sl.gather4 m d L fi hin4, tile_body.sl.gather5 m d L fi hin5, tile_body.sl.gather6 m d L fi hin6, tile_body.sl.gather7 m d L fi hin7] fg 7).trans (gath_eq_G (F := F) m d L hpre (cV L) 7 fi hin7)
    ihave Ho0 := (Entails.of_eq (pts_congr_read (F := F) (V d (cV L) (jV L)) (oK0 L) ((oK0 L).view.writes (Elt F) (m (oLoc d)) [⟨Rect.whole S64x128, tile_body.sl.dma8 m d L fi fg hin0 hin1 hin2 hin3 hin4 hin5 hin6 hin7⟩]) (GblkAt m d) fullShare hval0)) $$ Ho0
    ihave Ho1 := (Entails.of_eq (pts_congr_read (F := F) (V d (cV L) (jV L)) (oK1 L) ((oK1 L).view.writes (Elt F) (m (oLoc d)) [⟨Rect.whole S64x128, tile_body.sl.dma9 m d L fi fg hin0 hin1 hin2 hin3 hin4 hin5 hin6 hin7⟩]) (GblkAt m d) fullShare hval1)) $$ Ho1
    ihave Ho2 := (Entails.of_eq (pts_congr_read (F := F) (V d (cV L) (jV L)) (oK2 L) ((oK2 L).view.writes (Elt F) (m (oLoc d)) [⟨Rect.whole S64x128, tile_body.sl.dma10 m d L fi fg hin0 hin1 hin2 hin3 hin4 hin5 hin6 hin7⟩]) (GblkAt m d) fullShare hval2)) $$ Ho2
    ihave Ho3 := (Entails.of_eq (pts_congr_read (F := F) (V d (cV L) (jV L)) (oK3 L) ((oK3 L).view.writes (Elt F) (m (oLoc d)) [⟨Rect.whole S64x128, tile_body.sl.dma11 m d L fi fg hin0 hin1 hin2 hin3 hin4 hin5 hin6 hin7⟩]) (GblkAt m d) fullShare hval3)) $$ Ho3
    ihave Ho4 := (Entails.of_eq (pts_congr_read (F := F) (V d (cV L) (jV L)) (oK4 L) ((oK4 L).view.writes (Elt F) (m (oLoc d)) [⟨Rect.whole S64x128, tile_body.sl.dma12 m d L fi fg hin0 hin1 hin2 hin3 hin4 hin5 hin6 hin7⟩]) (GblkAt m d) fullShare hval4)) $$ Ho4
    ihave Ho5 := (Entails.of_eq (pts_congr_read (F := F) (V d (cV L) (jV L)) (oK5 L) ((oK5 L).view.writes (Elt F) (m (oLoc d)) [⟨Rect.whole S64x128, tile_body.sl.dma13 m d L fi fg hin0 hin1 hin2 hin3 hin4 hin5 hin6 hin7⟩]) (GblkAt m d) fullShare hval5)) $$ Ho5
    ihave Ho6 := (Entails.of_eq (pts_congr_read (F := F) (V d (cV L) (jV L)) (oK6 L) ((oK6 L).view.writes (Elt F) (m (oLoc d)) [⟨Rect.whole S64x128, tile_body.sl.dma14 m d L fi fg hin0 hin1 hin2 hin3 hin4 hin5 hin6 hin7⟩]) (GblkAt m d) fullShare hval6)) $$ Ho6
    ihave Ho7 := (Entails.of_eq (pts_congr_read (F := F) (V d (cV L) (jV L)) (oK7 L) ((oK7 L).view.writes (Elt F) (m (oLoc d)) [⟨Rect.whole S64x128, tile_body.sl.dma15 m d L fi fg hin0 hin1 hin2 hin3 hin4 hin5 hin6 hin7⟩]) (GblkAt m d) fullShare hval7)) $$ Ho7
    have hsplitG : (oRowPts d (wid (cL L) (jL L)) (GblkAt m d) : sProp 𝕄)
        = iprop(((oK0 L).view.loc (V d (cV L) (jV L)) ↦[(oK0 L).view.set]{fullShare} GblkAt m d) ∗ ((oK1 L).view.loc (V d (cV L) (jV L)) ↦[(oK1 L).view.set]{fullShare} GblkAt m d) ∗ ((oK2 L).view.loc (V d (cV L) (jV L)) ↦[(oK2 L).view.set]{fullShare} GblkAt m d) ∗ ((oK3 L).view.loc (V d (cV L) (jV L)) ↦[(oK3 L).view.set]{fullShare} GblkAt m d) ∗ ((oK4 L).view.loc (V d (cV L) (jV L)) ↦[(oK4 L).view.set]{fullShare} GblkAt m d) ∗ ((oK5 L).view.loc (V d (cV L) (jV L)) ↦[(oK5 L).view.set]{fullShare} GblkAt m d) ∗ ((oK6 L).view.loc (V d (cV L) (jV L)) ↦[(oK6 L).view.set]{fullShare} GblkAt m d) ∗ ((oK7 L).view.loc (V d (cV L) (jV L)) ↦[(oK7 L).view.set]{fullShare} GblkAt m d)) := oRow_split8 (F := F) d L (GblkAt m d)
    isplitl [Ht' He' Ho0 Ho1 Ho2 Ho3 Ho4 Ho5 Ho6 Ho7 Hlll Hllr Hlrl Hlrr Hrll Hrlr Hrrl Hrrr]
    · isplitl [Ht' He']
      · isplitl [Ht']; · iexact Ht'
        iexact He'
      isplitl [Ho0 Ho1 Ho2 Ho3 Ho4 Ho5 Ho6 Ho7]
      · iapply (Entails.of_eq hsplitG.symm)
        isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        iexact Ho7
      · ihave Hll := (pointsTo_share (PosShare.mem_left_op_right (qSh (jL L)).left.left)).2 $$ [Hlll Hllr]
        · isplitl [Hlll] <;> iassumption
        ihave Hlr := (pointsTo_share (PosShare.mem_left_op_right (qSh (jL L)).left.right)).2 $$ [Hlrl Hlrr]
        · isplitl [Hlrl] <;> iassumption
        ihave Hrl := (pointsTo_share (PosShare.mem_left_op_right (qSh (jL L)).right.left)).2 $$ [Hrll Hrlr]
        · isplitl [Hrll] <;> iassumption
        ihave Hrr := (pointsTo_share (PosShare.mem_left_op_right (qSh (jL L)).right.right)).2 $$ [Hrrl Hrrr]
        · isplitl [Hrrl] <;> iassumption
        ihave Hl := (pointsTo_share (PosShare.mem_left_op_right (qSh (jL L)).left)).2 $$ [Hll Hlr]
        · isplitl [Hll] <;> iassumption
        ihave Hr := (pointsTo_share (PosShare.mem_left_op_right (qSh (jL L)).right)).2 $$ [Hrl Hrr]
        · isplitl [Hrl] <;> iassumption
        ihave Hs := (pointsTo_share (PosShare.mem_left_op_right (qSh (jL L)))).2 $$ [Hl Hr]
        · isplitl [Hl] <;> iassumption
        iexact Hs
    isplitl [Hi' Hg' Hbufs]
    · isplitl [Hi']; · iexists _; iexact Hi'
      isplitl [Hg']; · iexists _; iexact Hg'
      iexact Hbufs
    isplitl [Hg0 Hg1 Hg2 Hg3 Hg4 Hg5 Hg6 Hg7 Hss HsA HsB HsC]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Hss]; · iexact Hss
      isplitl [HsA]; · iexact HsA
      isplitl [HsB]; · iexact HsB
      iexact HsC
    iexists _; isplitr
    swap; · iexact HO
    ipureintro; intro p hp
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    exact .inl hp
  · have h16 : (L 1).val < 16 := (L 1).isLt
    have h15 : (L 1).val = 15 := by
      have := mt (cond1_iff L).mpr hc1
      omega
    have hc2 : Scalar.cmpi .ne (Scalar.extui (Scalar.cmpi .eq (BitVec.ofNat 32 (L 1).val) 15#32)) 0#32 = 1#1 := (cond2_iff L).mpr h15
    ihave Hsh' := (Entails.of_eq (show (shSlicePts (F := F) d (cV L) (jL L) fsh : sProp 𝕄)
        = (shK2).view.loc (V d (cV L) (jV L)) ↦[(shK2).view.set]{fullShare} fsh by rw [set_shK2 L h15]; rfl)) $$ Hsh
    sl_exec
    -- the slice staged is at the table's values on its own elements
    ihave Hsh2 := (Entails.of_eq (stage2_eq (F := F) m d L h15 fsh (tile_body.sl.dma0_3 m d) rfl)) $$ Hsh'
    -- the barrier: the slice handed over in sixteen shares, a share of the whole table received
    ihave Hpays := (pays_intro (F := F) m d L) $$ Hsh2
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsrc := (pays_elim (F := F) m d L) $$ Hgot
    -- the gathers read the list: its words are row numbers in range
    have hC := idx_inb (F := F) m d L hpre fi (tile_body.sl.dma0_2 m d L) rfl
    have hin0 : ∀ x, ((iK0).view.read (Elt F) (View.write (Elt F) (iV).view fi (tile_body.sl.dma0_2 m d L) Finset.univ) x).toNat < S1000x128.size gathers_S1000x128_S64x128.axis := fun x => hC _
    have hin1 : ∀ x, ((iK1).view.read (Elt F) (View.write (Elt F) (iV).view fi (tile_body.sl.dma0_2 m d L) Finset.univ) x).toNat < S1000x128.size gathers_S1000x128_S64x128.axis := fun x => hC _
    have hin2 : ∀ x, ((iK2).view.read (Elt F) (View.write (Elt F) (iV).view fi (tile_body.sl.dma0_2 m d L) Finset.univ) x).toNat < S1000x128.size gathers_S1000x128_S64x128.axis := fun x => hC _
    have hin3 : ∀ x, ((iK3).view.read (Elt F) (View.write (Elt F) (iV).view fi (tile_body.sl.dma0_2 m d L) Finset.univ) x).toNat < S1000x128.size gathers_S1000x128_S64x128.axis := fun x => hC _
    have hin4 : ∀ x, ((iK4).view.read (Elt F) (View.write (Elt F) (iV).view fi (tile_body.sl.dma0_2 m d L) Finset.univ) x).toNat < S1000x128.size gathers_S1000x128_S64x128.axis := fun x => hC _
    have hin5 : ∀ x, ((iK5).view.read (Elt F) (View.write (Elt F) (iV).view fi (tile_body.sl.dma0_2 m d L) Finset.univ) x).toNat < S1000x128.size gathers_S1000x128_S64x128.axis := fun x => hC _
    have hin6 : ∀ x, ((iK6).view.read (Elt F) (View.write (Elt F) (iV).view fi (tile_body.sl.dma0_2 m d L) Finset.univ) x).toNat < S1000x128.size gathers_S1000x128_S64x128.axis := fun x => hC _
    have hin7 : ∀ x, ((iK7).view.read (Elt F) (View.write (Elt F) (iV).view fi (tile_body.sl.dma0_2 m d L) Finset.univ) x).toNat < S1000x128.size gathers_S1000x128_S64x128.axis := fun x => hC _
    have _plan : Transfers.BatchOf (V d (cV L) (jV L)) (SemLoc.dma (sig := sig) cc0_scratch4.sem) 8 := trivial
    have hsplit : (oRowPts d (wid (cL L) (jL L)) (m (oLoc d)) : sProp 𝕄)
        = iprop(((oK0 L).view.loc (V d (cV L) (jV L)) ↦[(oK0 L).view.set]{fullShare} m (oLoc d)) ∗ ((oK1 L).view.loc (V d (cV L) (jV L)) ↦[(oK1 L).view.set]{fullShare} m (oLoc d)) ∗ ((oK2 L).view.loc (V d (cV L) (jV L)) ↦[(oK2 L).view.set]{fullShare} m (oLoc d)) ∗ ((oK3 L).view.loc (V d (cV L) (jV L)) ↦[(oK3 L).view.set]{fullShare} m (oLoc d)) ∗ ((oK4 L).view.loc (V d (cV L) (jV L)) ↦[(oK4 L).view.set]{fullShare} m (oLoc d)) ∗ ((oK5 L).view.loc (V d (cV L) (jV L)) ↦[(oK5 L).view.set]{fullShare} m (oLoc d)) ∗ ((oK6 L).view.loc (V d (cV L) (jV L)) ↦[(oK6 L).view.set]{fullShare} m (oLoc d)) ∗ ((oK7 L).view.loc (V d (cV L) (jV L)) ↦[(oK7 L).view.set]{fullShare} m (oLoc d))) := oRow_split8 (F := F) d L (m (oLoc d))
    ihave Ho' := (Entails.of_eq hsplit) $$ Ho
    icases Ho' with ⟨Ho0, Ho1, Ho2, Ho3, Ho4, Ho5, Ho6, Ho7⟩
    -- eight gathers in flight at once: eight shares of the table
    ihave Hsrc' := (Entails.of_eq (show (shSharePts (F := F) m d (cV L) (jL L) : sProp 𝕄) = (shV).view.loc (V d (cV L) (jV L)) ↦{qSh (jL L)} tabSh m d (cV L) from rfl)) $$ Hsrc
    ihave H2 := (pointsTo_share (PosShare.mem_left_op_right (qSh (jL L)))).1 $$ Hsrc'
    icases H2 with ⟨Hl, Hr⟩
    ihave H2 := (pointsTo_share (PosShare.mem_left_op_right (qSh (jL L)).left)).1 $$ Hl
    icases H2 with ⟨Hll, Hlr⟩
    ihave H2 := (pointsTo_share (PosShare.mem_left_op_right (qSh (jL L)).right)).1 $$ Hr
    icases H2 with ⟨Hrl, Hrr⟩
    ihave H2 := (pointsTo_share (PosShare.mem_left_op_right (qSh (jL L)).left.left)).1 $$ Hll
    icases H2 with ⟨Hlll, Hllr⟩
    ihave H2 := (pointsTo_share (PosShare.mem_left_op_right (qSh (jL L)).left.right)).1 $$ Hlr
    icases H2 with ⟨Hlrl, Hlrr⟩
    ihave H2 := (pointsTo_share (PosShare.mem_left_op_right (qSh (jL L)).right.left)).1 $$ Hrl
    icases H2 with ⟨Hrll, Hrlr⟩
    ihave H2 := (pointsTo_share (PosShare.mem_left_op_right (qSh (jL L)).right.right)).1 $$ Hrr
    icases H2 with ⟨Hrrl, Hrrr⟩
    sl_exec
    sl_step
    -- each piece of the block holds the rows its gather named: the lookup's values
    have hval0 : (oK0 L).view.read (Elt F) ((oK0 L).view.writes (Elt F) (m (oLoc d)) [⟨Rect.whole S64x128, tile_body.sl.dma8_1 m d L fi fg hin0 hin1 hin2 hin3 hin4 hin5 hin6 hin7⟩]) = (oK0 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 0).trans (gath_eq_G (F := F) m d L hpre (cV L) 0 fi hin0)
    have hval1 : (oK1 L).view.read (Elt F) ((oK1 L).view.writes (Elt F) (m (oLoc d)) [⟨Rect.whole S64x128, tile_body.sl.dma9_1 m d L fi fg hin0 hin1 hin2 hin3 hin4 hin5 hin6 hin7⟩]) = (oK1 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 1).trans (gath_eq_G (F := F) m d L hpre (cV L) 1 fi hin1)
    have hval2 : (oK2 L).view.read (Elt F) ((oK2 L).view.writes (Elt F) (m (oLoc d)) [⟨Rect.whole S64x128, tile_body.sl.dma10_1 m d L fi fg hin0 hin1 hin2 hin3 hin4 hin5 hin6 hin7⟩]) = (oK2 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 2).trans (gath_eq_G (F := F) m d L hpre (cV L) 2 fi hin2)
    have hval3 : (oK3 L).view.read (Elt F) ((oK3 L).view.writes (Elt F) (m (oLoc d)) [⟨Rect.whole S64x128, tile_body.sl.dma11_1 m d L fi fg hin0 hin1 hin2 hin3 hin4 hin5 hin6 hin7⟩]) = (oK3 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 3).trans (gath_eq_G (F := F) m d L hpre (cV L) 3 fi hin3)
    have hval4 : (oK4 L).view.read (Elt F) ((oK4 L).view.writes (Elt F) (m (oLoc d)) [⟨Rect.whole S64x128, tile_body.sl.dma12_1 m d L fi fg hin0 hin1 hin2 hin3 hin4 hin5 hin6 hin7⟩]) = (oK4 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 4).trans (gath_eq_G (F := F) m d L hpre (cV L) 4 fi hin4)
    have hval5 : (oK5 L).view.read (Elt F) ((oK5 L).view.writes (Elt F) (m (oLoc d)) [⟨Rect.whole S64x128, tile_body.sl.dma13_1 m d L fi fg hin0 hin1 hin2 hin3 hin4 hin5 hin6 hin7⟩]) = (oK5 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 5).trans (gath_eq_G (F := F) m d L hpre (cV L) 5 fi hin5)
    have hval6 : (oK6 L).view.read (Elt F) ((oK6 L).view.writes (Elt F) (m (oLoc d)) [⟨Rect.whole S64x128, tile_body.sl.dma14_1 m d L fi fg hin0 hin1 hin2 hin3 hin4 hin5 hin6 hin7⟩]) = (oK6 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 6).trans (gath_eq_G (F := F) m d L hpre (cV L) 6 fi hin6)
    have hval7 : (oK7 L).view.read (Elt F) ((oK7 L).view.writes (Elt F) (m (oLoc d)) [⟨Rect.whole S64x128, tile_body.sl.dma15_1 m d L fi fg hin0 hin1 hin2 hin3 hin4 hin5 hin6 hin7⟩]) = (oK7 L).view.read (Elt F) (GblkAt m d) := by
      rw [View.read_writes_whole]
      exact (read_nested (F := F) ![tile_body.sl.gather0_1 m d L fi hin0, tile_body.sl.gather1_1 m d L fi hin1, tile_body.sl.gather2_1 m d L fi hin2, tile_body.sl.gather3_1 m d L fi hin3, tile_body.sl.gather4_1 m d L fi hin4, tile_body.sl.gather5_1 m d L fi hin5, tile_body.sl.gather6_1 m d L fi hin6, tile_body.sl.gather7_1 m d L fi hin7] fg 7).trans (gath_eq_G (F := F) m d L hpre (cV L) 7 fi hin7)
    ihave Ho0 := (Entails.of_eq (pts_congr_read (F := F) (V d (cV L) (jV L)) (oK0 L) ((oK0 L).view.writes (Elt F) (m (oLoc d)) [⟨Rect.whole S64x128, tile_body.sl.dma8_1 m d L fi fg hin0 hin1 hin2 hin3 hin4 hin5 hin6 hin7⟩]) (GblkAt m d) fullShare hval0)) $$ Ho0
    ihave Ho1 := (Entails.of_eq (pts_congr_read (F := F) (V d (cV L) (jV L)) (oK1 L) ((oK1 L).view.writes (Elt F) (m (oLoc d)) [⟨Rect.whole S64x128, tile_body.sl.dma9_1 m d L fi fg hin0 hin1 hin2 hin3 hin4 hin5 hin6 hin7⟩]) (GblkAt m d) fullShare hval1)) $$ Ho1
    ihave Ho2 := (Entails.of_eq (pts_congr_read (F := F) (V d (cV L) (jV L)) (oK2 L) ((oK2 L).view.writes (Elt F) (m (oLoc d)) [⟨Rect.whole S64x128, tile_body.sl.dma10_1 m d L fi fg hin0 hin1 hin2 hin3 hin4 hin5 hin6 hin7⟩]) (GblkAt m d) fullShare hval2)) $$ Ho2
    ihave Ho3 := (Entails.of_eq (pts_congr_read (F := F) (V d (cV L) (jV L)) (oK3 L) ((oK3 L).view.writes (Elt F) (m (oLoc d)) [⟨Rect.whole S64x128, tile_body.sl.dma11_1 m d L fi fg hin0 hin1 hin2 hin3 hin4 hin5 hin6 hin7⟩]) (GblkAt m d) fullShare hval3)) $$ Ho3
    ihave Ho4 := (Entails.of_eq (pts_congr_read (F := F) (V d (cV L) (jV L)) (oK4 L) ((oK4 L).view.writes (Elt F) (m (oLoc d)) [⟨Rect.whole S64x128, tile_body.sl.dma12_1 m d L fi fg hin0 hin1 hin2 hin3 hin4 hin5 hin6 hin7⟩]) (GblkAt m d) fullShare hval4)) $$ Ho4
    ihave Ho5 := (Entails.of_eq (pts_congr_read (F := F) (V d (cV L) (jV L)) (oK5 L) ((oK5 L).view.writes (Elt F) (m (oLoc d)) [⟨Rect.whole S64x128, tile_body.sl.dma13_1 m d L fi fg hin0 hin1 hin2 hin3 hin4 hin5 hin6 hin7⟩]) (GblkAt m d) fullShare hval5)) $$ Ho5
    ihave Ho6 := (Entails.of_eq (pts_congr_read (F := F) (V d (cV L) (jV L)) (oK6 L) ((oK6 L).view.writes (Elt F) (m (oLoc d)) [⟨Rect.whole S64x128, tile_body.sl.dma14_1 m d L fi fg hin0 hin1 hin2 hin3 hin4 hin5 hin6 hin7⟩]) (GblkAt m d) fullShare hval6)) $$ Ho6
    ihave Ho7 := (Entails.of_eq (pts_congr_read (F := F) (V d (cV L) (jV L)) (oK7 L) ((oK7 L).view.writes (Elt F) (m (oLoc d)) [⟨Rect.whole S64x128, tile_body.sl.dma15_1 m d L fi fg hin0 hin1 hin2 hin3 hin4 hin5 hin6 hin7⟩]) (GblkAt m d) fullShare hval7)) $$ Ho7
    have hsplitG : (oRowPts d (wid (cL L) (jL L)) (GblkAt m d) : sProp 𝕄)
        = iprop(((oK0 L).view.loc (V d (cV L) (jV L)) ↦[(oK0 L).view.set]{fullShare} GblkAt m d) ∗ ((oK1 L).view.loc (V d (cV L) (jV L)) ↦[(oK1 L).view.set]{fullShare} GblkAt m d) ∗ ((oK2 L).view.loc (V d (cV L) (jV L)) ↦[(oK2 L).view.set]{fullShare} GblkAt m d) ∗ ((oK3 L).view.loc (V d (cV L) (jV L)) ↦[(oK3 L).view.set]{fullShare} GblkAt m d) ∗ ((oK4 L).view.loc (V d (cV L) (jV L)) ↦[(oK4 L).view.set]{fullShare} GblkAt m d) ∗ ((oK5 L).view.loc (V d (cV L) (jV L)) ↦[(oK5 L).view.set]{fullShare} GblkAt m d) ∗ ((oK6 L).view.loc (V d (cV L) (jV L)) ↦[(oK6 L).view.set]{fullShare} GblkAt m d) ∗ ((oK7 L).view.loc (V d (cV L) (jV L)) ↦[(oK7 L).view.set]{fullShare} GblkAt m d)) := oRow_split8 (F := F) d L (GblkAt m d)
    isplitl [Ht' He' Ho0 Ho1 Ho2 Ho3 Ho4 Ho5 Ho6 Ho7 Hlll Hllr Hlrl Hlrr Hrll Hrlr Hrrl Hrrr]
    · isplitl [Ht' He']
      · isplitl [Ht']; · iexact Ht'
        iexact He'
      isplitl [Ho0 Ho1 Ho2 Ho3 Ho4 Ho5 Ho6 Ho7]
      · iapply (Entails.of_eq hsplitG.symm)
        isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        iexact Ho7
      · ihave Hll := (pointsTo_share (PosShare.mem_left_op_right (qSh (jL L)).left.left)).2 $$ [Hlll Hllr]
        · isplitl [Hlll] <;> iassumption
        ihave Hlr := (pointsTo_share (PosShare.mem_left_op_right (qSh (jL L)).left.right)).2 $$ [Hlrl Hlrr]
        · isplitl [Hlrl] <;> iassumption
        ihave Hrl := (pointsTo_share (PosShare.mem_left_op_right (qSh (jL L)).right.left)).2 $$ [Hrll Hrlr]
        · isplitl [Hrll] <;> iassumption
        ihave Hrr := (pointsTo_share (PosShare.mem_left_op_right (qSh (jL L)).right.right)).2 $$ [Hrrl Hrrr]
        · isplitl [Hrrl] <;> iassumption
        ihave Hl := (pointsTo_share (PosShare.mem_left_op_right (qSh (jL L)).left)).2 $$ [Hll Hlr]
        · isplitl [Hll] <;> iassumption
        ihave Hr := (pointsTo_share (PosShare.mem_left_op_right (qSh (jL L)).right)).2 $$ [Hrl Hrr]
        · isplitl [Hrl] <;> iassumption
        ihave Hs := (pointsTo_share (PosShare.mem_left_op_right (qSh (jL L)))).2 $$ [Hl Hr]
        · isplitl [Hl] <;> iassumption
        iexact Hs
    isplitl [Hi' Hg' Hbufs]
    · isplitl [Hi']; · iexists _; iexact Hi'
      isplitl [Hg']; · iexists _; iexact Hg'
      iexact Hbufs
    isplitl [Hg0 Hg1 Hg2 Hg3 Hg4 Hg5 Hg6 Hg7 Hss HsA HsB HsC]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Hss]; · iexact Hss
      isplitl [HsA]; · iexact HsA
      isplitl [HsB]; · iexact HsB
      iexact HsC
    iexists _; isplitr
    swap; · iexact HO
    ipureintro; intro p hp
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    try (rcases Finset.mem_insert.mp hp with hp | hp; · first | exact .inr (.inl (hp ▸ rfl)) | exact .inr (.inr (hp ▸ rfl)))
    exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather (coordsV c s)
          tV (Memref.isWhole_whole _) eV (Memref.isWhole_whole _) oV (Memref.isWhole_whole _) iV (Memref.isWhole_whole _)
          gV (Memref.isWhole_whole _) shV (Memref.isWhole_whole _) cc0_scratch3 cc0_scratch4 cc0_scoped0 cc0_scoped1 cc0_scoped2) ⟨⟩ c s := rfl

set_option maxRecDepth 16384 in
theorem tileObl (hF : (K (F := F)).Facts) (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Tile

end Cert.Proof.KernelRun

end
-- ==== Proof.lean ====
/- The proof of the certificate's claim.

   The kernel is a lookup of rows: for a list t of 16384 row numbers and a table of 1000 rows of 128 entries,
   out[i, :] = table[t[i], :]. It runs on the 32 vector subcores of the two SparseCores. Subcore s of SparseCore c is
   worker w = 2 s + c: it copies the 512 row numbers t[512 w .. 512 w + 511] into its own list, and copies its slice of the
   table (rows 64 s .. 64 s + 63, the last subcore rows 960 .. 999) into its SparseCore's shared copy of the table; the
   sixteen subcores of a SparseCore meet at the barrier, after which the shared copy holds the whole table; each subcore
   then gathers, in eight pieces of 64 rows, the rows of the shared copy that its list names, and copies the pieces out to
   block w of the result [32, 8, 64, 128], which is afterwards read in row-major order as [16384, 128].
   The reference is a take of rows in fill mode: negative row numbers are wrapped, rows out of range are filled with a
   not-a-number. Under the precondition 0 ≤ t[i] ≤ 999 nothing is wrapped and nothing filled, and it is the same lookup.

   Both programs are shown to end with their result at the one function Cert.Spec.G of the two argument arrays (Spec), and
   with the arguments unchanged: the kernel from each subcore's task (the barrier hands every subcore a share of the whole
   shared table at the table's values, so what it gathers are the table's rows), through the split of the call's operands
   among the SparseCores and their subcores and back, and the value of the final reshape (512 (i / 512) + 64 (i / 64 % 8)
   + i % 64 = i); the reference by evaluating its operations under the precondition. The kernel's run is proved once,
   for any float instance, and used at both. The three frames are these runs with the value dropped. At the ideal
   instance, from memories that agree on the arguments, both results are G of the same arguments, hence equal. The ideal
   pass rewrote no operation, so there is nothing to preserve. -/
import proofs.«219841_g10136122819095_week1_w1_367_25_alg».proof.Defs
import proofs.«219841_g10136122819095_week1_w1_367_25_alg».proof.Proof.Gen.Kernel
import proofs.«219841_g10136122819095_week1_w1_367_25_alg».proof.Proof.Gen.Kernel.Skeleton
import proofs.«219841_g10136122819095_week1_w1_367_25_alg».proof.Proof.Gen.KernelIdeal
import proofs.«219841_g10136122819095_week1_w1_367_25_alg».proof.Proof.Gen.KernelIdeal.Skeleton
import proofs.«219841_g10136122819095_week1_w1_367_25_alg».proof.Proof.Gen.ReferenceIdeal
import proofs.«219841_g10136122819095_week1_w1_367_25_alg».proof.Proof.Gen.Pre_input_domain
import proofs.«219841_g10136122819095_week1_w1_367_25_alg».proof.Proof.Assemble
import proofs.«219841_g10136122819095_week1_w1_367_25_alg».proof.Proof.IdealTile
import proofs.«219841_g10136122819095_week1_w1_367_25_alg».proof.Proof.BitsTile
import Idealize.ShloMosaic.Adequacy
import Idealize.ShloMosaic.Init

noncomputable section

namespace Cert.Proof

open Idealize.ShloMosaic Idealize.SL.Sem

theorem claim : Cert.Claim :=
  Assemble.claim_of (fun m h => KernelIdealRun.tileObl (F := Ideal) m KernelIdealRun.facts h)
    (fun m h => KernelRun.tileObl (F := Bits) m KernelRun.facts h)

end Cert.Proof

end
